-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v50) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x40 : Shape := ⟨2, ![96, 40]⟩
abbrev S40 : Shape := ⟨1, ![40]⟩
abbrev S96x64 : Shape := ⟨2, ![96, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S40 .f32) (main_arg6 : FVec F S96x64 .f32) (main_arg7 : FVec F S64 .f32) (main_arg8 : FVec F S64x1 .f32) (main_arg9 : FVec F S1 .f32) (main_v13 : IVec S_ 1) (main_v16 : IVec S96x40 1) : IVec S_ 1 :=
  let main_c_5 : IVec S_ 1 := constantI S_ 1 1#1
  let main_v17 : IVec S_ 1 := (fun x v => Host.reduce IntOp.andi x v reducesTo_S96x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S96x64 .f32 := Host.absf main_arg6
  let main_cst_8 : FVec F S_ .f32 := constant S_ .f32 0x7F800000#32
  let main_v25 : FVec F S96x64 .f32 := broadcastInDim S96x64 ![] bcast_S_S96x64 main_cst_8
  let main_v26 : IVec S96x64 1 := cmpf .olt main_v24 main_v25
  let main_c_9 : IVec S_ 1 := constantI S_ 1 1#1
  let main_v27 : IVec S_ 1 := (fun x v => Host.reduce IntOp.andi x v reducesTo_S96x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x96 .f32) (main_arg3 : FVec F S96 .f32) (main_arg4 : FVec F S96x40 .f32) (main_arg5 : FVec F S40 .f32) (main_arg6 : FVec F S96x64 .f32) (main_arg7 : FVec F S64 .f32) (main_arg8 : FVec F S64x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x40 .f32 := Host.absf main_arg4
  let main_cst_4 : FVec F S_ .f32 := constant S_ .f32 0x7F800000#32
  let main_v15 : FVec F S96x40 .f32 := broadcastInDim S96x40 ![] bcast_S_S96x40 main_cst_4
  let main_v16 : IVec S96x40 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x40 : Shape := ⟨2, ![96, 40]⟩
abbrev S40 : Shape := ⟨1, ![40]⟩
abbrev S96x64 : Shape := ⟨2, ![96, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x96 : Shape := ⟨2, ![50000, 96]⟩
abbrev S2000x128 : Shape := ⟨2, ![2000, 128]⟩
abbrev S2000x1 : Shape := ⟨2, ![2000, 1]⟩
abbrev S2000x96 : Shape := ⟨2, ![2000, 96]⟩
abbrev S850000x96 : Shape := ⟨2, ![850000, 96]⟩
abbrev S1x96 : Shape := ⟨2, ![1, 96]⟩
abbrev S1x64 : Shape := ⟨2, ![1, 64]⟩
abbrev S1x1 : Shape := ⟨2, ![1, 1]⟩
abbrev S50000x40 : Shape := ⟨2, ![50000, 40]⟩
abbrev S2000x40 : Shape := ⟨2, ![2000, 40]⟩
abbrev S2000x64 : Shape := ⟨2, ![2000, 64]⟩
abbrev S850000x40 : Shape := ⟨2, ![850000, 40]⟩
abbrev S1x40 : Shape := ⟨2, ![1, 40]⟩
abbrev S2000 : Shape := ⟨1, ![2000]⟩

abbrev nBuf : Space → Nat
  | .hbm => 75
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96x40, .f32⟩
  | .hbm, ⟨5, _⟩ => ⟨S40, .f32⟩
  | .hbm, ⟨6, _⟩ => ⟨S96x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x96, .bf16⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x96, .bf16⟩
  | .hbm, ⟨42, _⟩ => ⟨S850000x96, .f32⟩
  | .hbm, ⟨43, _⟩ => ⟨S_, .f32⟩
  | .hbm, ⟨44, _⟩ => ⟨S50000x96, .f32⟩
  | .hbm, ⟨45, _⟩ => ⟨S850000x1, .i32⟩
  | .hbm, ⟨46, _⟩ => ⟨S50000x96, .f32⟩
  | .hbm, ⟨47, _⟩ => ⟨S1x96, .f32⟩
  | .hbm, ⟨48, _⟩ => ⟨S1x64, .f32⟩
  | .hbm, ⟨49, _⟩ => ⟨S1x1, .f32⟩
  | .hbm, ⟨50, _⟩ => ⟨S50000x40, .bf16⟩
  | .hbm, ⟨51, _⟩ => ⟨S50000x1, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x40, .bf16⟩
  | .hbm, ⟨61, _⟩ => ⟨S850000x40, .f32⟩
  | .hbm, ⟨62, _⟩ => ⟨S_, .f32⟩
  | .hbm, ⟨63, _⟩ => ⟨S50000x40, .f32⟩
  | .hbm, ⟨64, _⟩ => ⟨S850000x1, .i32⟩
  | .hbm, ⟨65, _⟩ => ⟨S50000x40, .f32⟩
  | .hbm, ⟨66, _⟩ => ⟨S1x40, .f32⟩
  | .hbm, ⟨67, _⟩ => ⟨S50000x40, .f32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .i1⟩
  | .hbm, ⟨72, _⟩ => ⟨S50000, .f32⟩
  | .hbm, ⟨73, _⟩ => ⟨S50000, .f32⟩
  | .hbm, ⟨74, _⟩ => ⟨S50000, .f32⟩
  | .local _ .vmem, ⟨0, _⟩ => ⟨S2000x128, .f32⟩
  | .local _ .vmem, ⟨1, _⟩ => ⟨S2000x128, .f32⟩
  | .local _ .vmem, ⟨2, _⟩ => ⟨S128x96, .f32⟩
  | .local _ .vmem, ⟨3, _⟩ => ⟨S2000x1, .f32⟩
  | .local _ .vmem, ⟨4, _⟩ => ⟨S2000x1, .f32⟩
  | .local _ .vmem, ⟨5, _⟩ => ⟨S2000x96, .bf16⟩
  | .local _ .vmem, ⟨6, _⟩ => ⟨S2000x96, .bf16⟩
  | .local _ .vmem, ⟨7, _⟩ => ⟨S2000x96, .f32⟩
  | .local _ .vmem, ⟨8, _⟩ => ⟨S2000x96, .f32⟩
  | .local _ .vmem, ⟨9, _⟩ => ⟨S2000x1, .f32⟩
  | .local _ .vmem, ⟨10, _⟩ => ⟨S2000x1, .f32⟩
  | .local _ .vmem, ⟨11, _⟩ => ⟨S1x96, .f32⟩
  | .local _ .vmem, ⟨12, _⟩ => ⟨S96x40, .f32⟩
  | .local _ .vmem, ⟨13, _⟩ => ⟨S96x64, .f32⟩
  | .local _ .vmem, ⟨14, _⟩ => ⟨S1x64, .f32⟩
  | .local _ .vmem, ⟨15, _⟩ => ⟨S64x1, .f32⟩
  | .local _ .vmem, ⟨16, _⟩ => ⟨S1x1, .f32⟩
  | .local _ .vmem, ⟨17, _⟩ => ⟨S2000x40, .bf16⟩
  | .local _ .vmem, ⟨18, _⟩ => ⟨S2000x40, .bf16⟩
  | .local _ .vmem, ⟨19, _⟩ => ⟨S2000x1, .f32⟩
  | .local _ .vmem, ⟨20, _⟩ => ⟨S2000x1, .f32⟩
  | .local _ .vmem, ⟨21, _⟩ => ⟨S2000x40, .f32⟩
  | .local _ .vmem, ⟨22, _⟩ => ⟨S2000x40, .f32⟩
  | .local _ .vmem, ⟨23, _⟩ => ⟨S2000x1, .f32⟩
  | .local _ .vmem, ⟨24, _⟩ => ⟨S2000x1, .f32⟩
  | .local _ .vmem, ⟨25, _⟩ => ⟨S1x40, .f32⟩
  | .local _ .vmem, ⟨26, _⟩ => ⟨S2000x40, .f32⟩
  | .local _ .vmem, ⟨27, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31_0 : Ref sig .tc := ⟨.hbm, 50, rfl⟩
abbrev main_v31_1 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x40 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x96 : S2000x1.Broadcasts S2000x96
  inb_S2000x96_S2000x96_0_0 : ∀ a, (![0, 0] : Fin 2 → Nat) a + S2000x96.size a ≤ S2000x96.size a
  h_S2000x96 : 0 < S2000x96.numel
  packedbf16_S2000x96_S2000x96_0_0 : (Rect.unit (s := S2000x96) ![0, 0] S2000x96.size inb_S2000x96_S2000x96_0_0).PackedRows (EltTy.packing .bf16)
  bcast_S_S50000x96 : S_.BroadcastsInDim S50000x96 (![] : Fin 0 → Fin S50000x96.rank)
  shapeCasts_S96_S1x96 : S96.ShapeCasts S1x96
  shapeCasts_S64_S1x64 : S64.ShapeCasts S1x64
  shapeCasts_S1_S1x1 : S1.ShapeCasts S1x1
  shapeCasts_S2000x96_S2000x96 : S2000x96.ShapeCasts S2000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S96x40_S96x40_0_0 : ∀ a, (![0, 0] : Fin 2 → Nat) a + S96x40.size a ≤ S96x40.size a
  h_S96x40 : 0 < S96x40.numel
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  packedbf16_S2000x40_S2000x40_0_0 : (Rect.unit (s := S2000x40) ![0, 0] S2000x40.size inb_S2000x40_S2000x40_0_0).PackedRows (EltTy.packing .bf16)
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  shapeCasts_S50000x1_S50000 : S50000x1.ShapeCasts S50000
  scatter_S50000_S850000x1_S850000_n_0_0_1_wf : ScatterDims.WF S50000 S850000x1 S850000 [] [0] [0] 1
  dot_S2000x128_S128x96_S2000x96_1_0_0_1_n_n_wf : DotDims.WF S2000x128 S128x96 S2000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S2000x96_S96x40_S2000x40_1_0_0_1_n_n_wf : DotDims.WF S2000x96 S96x40 S2000x40 [1] [0] [0] [1] [] []
  dot_S2000x96_S96x64_S2000x64_1_0_0_1_n_n_wf : DotDims.WF S2000x96 S96x64 S2000x64 [1] [0] [0] [1] [] []
  dot_S2000x64_S64x1_S2000x1_1_0_0_1_n_n_wf : DotDims.WF S2000x64 S64x1 S2000x1 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x96.size a ≤ S50000x96.size a
  hwx0_3 : ∀ i : grid0.Coords, EltTy.bits .bf16 = 32 ∨ (Rect.block (s := S50000x96) S2000x96.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x40.size a ≤ S96x40.size a
  hwx1_3 : ∀ i : grid1.Coords, EltTy.bits .f32 = 32 ∨ (Rect.block (s := S96x40) S96x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x64.size a ≤ S96x64.size a
  hwx1_4 : ∀ i : grid1.Coords, EltTy.bits .f32 = 32 ∨ (Rect.block (s := S96x64) S96x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x40.size a ≤ S50000x40.size a
  hwx1_8 : ∀ i : grid1.Coords, EltTy.bits .bf16 = 32 ∨ (Rect.block (s := S50000x40) S2000x40.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x1.size a ≤ S50000x1.size a
  hwx1_9 : ∀ i : grid1.Coords, EltTy.bits .f32 = 32 ∨ (Rect.block (s := S50000x1) S2000x1.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S50000x40.size a
  hwx2_0 : ∀ i : grid2.Coords, EltTy.bits .f32 = 32 ∨ (Rect.block (s := S50000x40) S2000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x40.size a ≤ S50000x40.size a
  hwx2_3 : ∀ i : grid2.Coords, EltTy.bits .f32 = 32 ∨ (Rect.block (s := S50000x40) S2000x40.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x96_S2000x96_1_0_0_1_n_n : DotDims S2000x128 S128x96 S2000x96 where
  lhsContracting := [1]
  rhsContracting := [0]
  lhsNonContracting := [0]
  rhsNonContracting := [1]
  lhsBatch := []
  rhsBatch := []
  wf := dot_S2000x128_S128x96_S2000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S2000x96_S96x40_S2000x40_1_0_0_1_n_n : DotDims S2000x96 S96x40 S2000x40 where
  lhsContracting := [1]
  rhsContracting := [0]
  lhsNonContracting := [0]
  rhsNonContracting := [1]
  lhsBatch := []
  rhsBatch := []
  wf := dot_S2000x96_S96x40_S2000x40_1_0_0_1_n_n_wf
def dot_S2000x96_S96x64_S2000x64_1_0_0_1_n_n : DotDims S2000x96 S96x64 S2000x64 where
  lhsContracting := [1]
  rhsContracting := [0]
  lhsNonContracting := [0]
  rhsNonContracting := [1]
  lhsBatch := []
  rhsBatch := []
  wf := dot_S2000x96_S96x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S96x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S96x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31_0) S2000x40.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v31_1) S2000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v42) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S2000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x40 : Shape := ⟨2, ![96, 40]⟩
abbrev S40 : Shape := ⟨1, ![40]⟩
abbrev S96x64 : Shape := ⟨2, ![96, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩
abbrev S50000x64 : Shape := ⟨2, ![50000, 64]⟩
abbrev S1x64 : Shape := ⟨2, ![1, 64]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x800000, .i32⟩
  | 2 => ⟨S128x96, .f32⟩
  | 3 => ⟨S96, .f32⟩
  | 4 => ⟨S96x40, .f32⟩
  | 5 => ⟨S40, .f32⟩
  | 6 => ⟨S96x64, .f32⟩
  | 7 => ⟨S64, .f32⟩
  | 8 => ⟨S64x1, .f32⟩
  | 9 => ⟨S1, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x96, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x96, .f32⟩
  | 60 => ⟨S850000x1, .f32⟩
  | 61 => ⟨S850000x96, .f32⟩
  | 62 => ⟨S850000x96, .f32⟩
  | 63 => ⟨S_, .f32⟩
  | 64 => ⟨S50000x96, .f32⟩
  | 65 => ⟨S850000x1, .i32⟩
  | 66 => ⟨S50000x96, .f32⟩
  | 67 => ⟨S1x96, .f32⟩
  | 68 => ⟨S50000x96, .f32⟩
  | 69 => ⟨S50000x96, .f32⟩
  | 70 => ⟨S_, .f32⟩
  | 71 => ⟨S50000x96, .f32⟩
  | 72 => ⟨S50000x96, .f32⟩
  | 73 => ⟨S50000x40, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x40, .f32⟩
  | 83 => ⟨S850000x1, .f32⟩
  | 84 => ⟨S850000x40, .f32⟩
  | 85 => ⟨S850000x40, .f32⟩
  | 86 => ⟨S_, .f32⟩
  | 87 => ⟨S50000x40, .f32⟩
  | 88 => ⟨S850000x1, .i32⟩
  | 89 => ⟨S50000x40, .f32⟩
  | 90 => ⟨S1x40, .f32⟩
  | 91 => ⟨S50000x40, .f32⟩
  | 92 => ⟨S50000x40, .f32⟩
  | 93 => ⟨S_, .f32⟩
  | 94 => ⟨S50000, .f32⟩
  | 95 => ⟨S_, .f32⟩
  | 96 => ⟨S50000, .f32⟩
  | 97 => ⟨S50000, .f32⟩
  | 98 => ⟨S50000x1, .f32⟩
  | 99 => ⟨S50000x40, .f32⟩
  | 100 => ⟨S50000x40, .f32⟩
  | 101 => ⟨S50000x40, .f32⟩
  | 102 => ⟨S_, .f32⟩
  | 103 => ⟨S50000, .f32⟩
  | 104 => ⟨S50000x1, .f32⟩
  | 105 => ⟨S50000x1, .f32⟩
  | 106 => ⟨S50000x40, .f32⟩
  | 107 => ⟨S50000x40, .f32⟩
  | 108 => ⟨S50000x64, .f32⟩
  | 109 => ⟨S1x64, .f32⟩
  | 110 => ⟨S50000x64, .f32⟩
  | 111 => ⟨S50000x64, .f32⟩
  | 112 => ⟨S_, .f32⟩
  | 113 => ⟨S50000x64, .f32⟩
  | 114 => ⟨S50000x64, .f32⟩
  | 115 => ⟨S50000x1, .f32⟩
  | 116 => ⟨S1x1, .f32⟩
  | 117 => ⟨S50000x1, .f32⟩
  | 118 => ⟨S50000x1, .f32⟩
  | 119 => ⟨S50000, .f32⟩
  | 120 => ⟨S50000, .f32⟩
  | 121 => ⟨S50000, .f32⟩
  | 122 => ⟨S_, .f32⟩
  | 123 => ⟨S50000, .f32⟩
  | 124 => ⟨S50000, .f32⟩
  | 125 => ⟨S_, .f32⟩
  | 126 => ⟨S50000, .f32⟩
  | 127 => ⟨S50000, .f32⟩
  | _ => ⟨S50000x128, .f32⟩

abbrev hbmTy0_1 (i : Nat) : BufTy := match i % 128 with
  | 0 => ⟨S_, .f32⟩
  | 1 => ⟨S50000, .f32⟩
  | 2 => ⟨S50000, .i1⟩
  | 3 => ⟨S50000, .f32⟩
  | 4 => ⟨S50000, .f32⟩
  | 5 => ⟨S50000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_call2_cst_0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_cst_1 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_call3_cst : Ref sig .tc := ⟨.hbm, 112, rfl⟩
abbrev main_call3_v0 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_12 : Ref sig .tc := ⟨.hbm, 122, rfl⟩
abbrev main_v78 : Ref sig .tc := ⟨.hbm, 123, rfl⟩
abbrev main_v79 : Ref sig .tc := ⟨.hbm, 124, rfl⟩
abbrev main_cst_13 : Ref sig .tc := ⟨.hbm, 125, rfl⟩
abbrev main_v80 : Ref sig .tc := ⟨.hbm, 126, rfl⟩
abbrev main_v81 : Ref sig .tc := ⟨.hbm, 127, rfl⟩
abbrev main_cst_14 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x96_S50000x96_1_0_0_1_n_n_wf : DotDims.WF S50000x128 S128x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x40_S50000x40_1_0_0_1_n_n_wf : DotDims.WF S50000x96 S96x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  dot_S50000x96_S96x64_S50000x64_1_0_0_1_n_n_wf : DotDims.WF S50000x96 S96x64 S50000x64 [1] [0] [0] [1] [] []
  dot_S50000x64_S64x1_S50000x1_1_0_0_1_n_n_wf : DotDims.WF S50000x64 S64x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The idealized kernel's run, with its three results kept.

  @main is nine segments: stretches of host operations around three pipelined regions. The contents of every
  unscoped buffer at each segment boundary are a fold from the launch memory: a stretch rewrites the buffers its
  operations write, a region rewrites its output arrays with what its write-backs leave. Every weakly fair
  execution terminates, nothing faulting, and in its final memory every unscoped buffer holds the last boundary's
  contents. So any property of memories that follows from that reading holds of every final memory
  (`ends_at_last_boundary`); read at the three result buffers and at the ten argument buffers, which no segment
  writes, it is `run`.
-/
import proofs.«149170_j81338090651993_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A memory in which every unscoped buffer of every core holds the last boundary's contents. -/
def AtLastBoundary (s : MemSt nD τ sig (Elt F)) : Prop :=
  ∀ c : Dev nD, ∀ b ∈ Pipeline.ucRefs τ sig, s.mem (((c : Thread nD τ)).1, b) = W9 m ρ c b

set_option backward.isDefEq.respectTransparency.types false in
/-- Every weakly fair execution of @main from `m` terminates without a fault, and whatever follows from "every
    unscoped buffer holds the last boundary's contents" holds of its final memory. The launch deals every core its
    unscoped buffers at the launch contents, a generator register and an empty debt; each segment's thread state is
    the next one's; the last one, read against a final state, gives the buffers' contents. -/
theorem ends_at_last_boundary {Q : PUnit × MemSt nD τ sig (Elt F) → Prop}
    (hQ : ∀ s : MemSt nD τ sig (Elt F), AtLastBoundary m ρ s → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => hQ s h)

/-- Every weakly fair execution of @main from `m` terminates without a fault; the logits, the probabilities and the
    mask end at the last boundary's contents `W9`, and the ten arguments end as launched: each is an unscoped
    buffer, and the fold at an argument's buffer walks back to the launch memory. -/
theorem run : θ_run defs (onTc (τ := τ) (main (F := F))) ⟨m, fun _ => 0, ρ⟩ (fun r => ∀ c : Dev nD,
      r.2.mem ((c.tc : Thread nD τ).loc main_v44) = W9 m ρ c (Proc.devRef .tc main_v44)
      ∧ r.2.mem ((c.tc : Thread nD τ).loc main_v45) = W9 m ρ c (Proc.devRef .tc main_v45)
      ∧ r.2.mem ((c.tc : Thread nD τ).loc main_v50) = W9 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  ends_at_last_boundary m ρ fun s h c =>
    ⟨h c _ (mem_uc main_v44 (by decide)),
     h c _ (mem_uc main_v45 (by decide)),
     h c _ (mem_uc main_v50 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩

end Cert.KernelIdeal.Results

end
-- ==== Proof.RefRunStages.lean ====
/-
  The reference program's run, read back stage by stage.

  The program is a two-layer graph convolution with a mask head: 124 operations in a row. Its three results are
  stated here at the stages of the read-back module (one function per operation, nested through the earlier ones, so
  that a value used several times is named once). The line of operations is cut into five consecutive stretches at
  points where few values are still needed: the edge endpoints and the degree normalizer; the per-edge weights; the
  first layer; the second layer under the logarithm of the softmax; the mask head. For each stretch, from ANY contents
  of the device's buffers: what each value that stays in use holds afterwards, given what the stretch reads, and that
  the values still needed later are not written. No operation writes an argument. Chaining the five gives the three
  results and the unchanged arguments after the whole line, and the run theorem follows from the library's statement
  that a straight line of operations ends with every buffer at the fold of the operations' results.
-/
import proofs.«149170_j81338090651993_2_alg».proof.Proof.RefRead

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Running two lines of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A line of operations cut at any position: the first part runs, then the rest from what it left. -/
theorem after_cut (n : Nat) (l : List (HloOp τ sig (Elt F))) (V : Valuation τ sig (Elt F)) :
    after l V = after (l.drop n) (after (l.take n) V) := by
  rw [← after_append, List.take_append_drop]

abbrev opsA : List (HloOp τ sig (Elt F)) := (ops (F := F)).take 21
abbrev restA : List (HloOp τ sig (Elt F)) := (ops (F := F)).drop 21
abbrev opsB : List (HloOp τ sig (Elt F)) := (restA (F := F)).take 19
abbrev restB : List (HloOp τ sig (Elt F)) := (restA (F := F)).drop 19
abbrev opsC : List (HloOp τ sig (Elt F)) := (restB (F := F)).take 23
abbrev restC : List (HloOp τ sig (Elt F)) := (restB (F := F)).drop 23
abbrev opsD : List (HloOp τ sig (Elt F)) := (restC (F := F)).take 35
abbrev opsE : List (HloOp τ sig (Elt F)) := (restC (F := F)).drop 35

theorem after_ops (V : Valuation τ sig (Elt F)) :
    after ops V = after opsE (after opsD (after opsC (after opsB (after opsA V)))) := by
  rw [after_cut 21 ops V, after_cut 19 restA, after_cut 23 restB, after_cut 35 restC]

/-- Contents carried to a buffer's own type and back are the contents. -/
theorem ofBuf_toBuf {T : BufTy} (x : TRef sig T) (w : T.Contents (Elt F)) : x.ofBuf (x.toBuf w) = w := by
  obtain ⟨r, h, hd, hs⟩ := x
  subst h
  rfl

/-! ## The arguments

No operation of the program writes an argument's buffer, so every stretch of it leaves the arguments as it found them. -/

theorem arg0_nw : ∀ op ∈ (ops : List (HloOp τ sig (Elt F))), (Proc.devRef .tc main_arg0 : DevRef τ sig) ∉ op.writes :=
  List.forall_iff_forall_mem.mp (by
    simp only [ops, List.Forall, nullary_writes, unary_writes, binary_writes, ternary_writes, reshape_writes, Finset.mem_singleton]
    repeat' apply And.intro
    all_goals exact devRef_ne_of_ne (by decide))

theorem arg1_nw : ∀ op ∈ (ops : List (HloOp τ sig (Elt F))), (Proc.devRef .tc main_arg1 : DevRef τ sig) ∉ op.writes :=
  List.forall_iff_forall_mem.mp (by
    simp only [ops, List.Forall, nullary_writes, unary_writes, binary_writes, ternary_writes, reshape_writes, Finset.mem_singleton]
    repeat' apply And.intro
    all_goals exact devRef_ne_of_ne (by decide))

theorem arg2_nw : ∀ op ∈ (ops : List (HloOp τ sig (Elt F))), (Proc.devRef .tc main_arg2 : DevRef τ sig) ∉ op.writes :=
  List.forall_iff_forall_mem.mp (by
    simp only [ops, List.Forall, nullary_writes, unary_writes, binary_writes, ternary_writes, reshape_writes, Finset.mem_singleton]
    repeat' apply And.intro
    all_goals exact devRef_ne_of_ne (by decide))

theorem arg3_nw : ∀ op ∈ (ops : List (HloOp τ sig (Elt F))), (Proc.devRef .tc main_arg3 : DevRef τ sig) ∉ op.writes :=
  List.forall_iff_forall_mem.mp (by
    simp only [ops, List.Forall, nullary_writes, unary_writes, binary_writes, ternary_writes, reshape_writes, Finset.mem_singleton]
    repeat' apply And.intro
    all_goals exact devRef_ne_of_ne (by decide))

theorem arg4_nw : ∀ op ∈ (ops : List (HloOp τ sig (Elt F))), (Proc.devRef .tc main_arg4 : DevRef τ sig) ∉ op.writes :=
  List.forall_iff_forall_mem.mp (by
    simp only [ops, List.Forall, nullary_writes, unary_writes, binary_writes, ternary_writes, reshape_writes, Finset.mem_singleton]
    repeat' apply And.intro
    all_goals exact devRef_ne_of_ne (by decide))

theorem arg5_nw : ∀ op ∈ (ops : List (HloOp τ sig (Elt F))), (Proc.devRef .tc main_arg5 : DevRef τ sig) ∉ op.writes :=
  List.forall_iff_forall_mem.mp (by
    simp only [ops, List.Forall, nullary_writes, unary_writes, binary_writes, ternary_writes, reshape_writes, Finset.mem_singleton]
    repeat' apply And.intro
    all_goals exact devRef_ne_of_ne (by decide))

theorem arg6_nw : ∀ op ∈ (ops : List (HloOp τ sig (Elt F))), (Proc.devRef .tc main_arg6 : DevRef τ sig) ∉ op.writes :=
  List.forall_iff_forall_mem.mp (by
    simp only [ops, List.Forall, nullary_writes, unary_writes, binary_writes, ternary_writes, reshape_writes, Finset.mem_singleton]
    repeat' apply And.intro
    all_goals exact devRef_ne_of_ne (by decide))

theorem arg7_nw : ∀ op ∈ (ops : List (HloOp τ sig (Elt F))), (Proc.devRef .tc main_arg7 : DevRef τ sig) ∉ op.writes :=
  List.forall_iff_forall_mem.mp (by
    simp only [ops, List.Forall, nullary_writes, unary_writes, binary_writes, ternary_writes, reshape_writes, Finset.mem_singleton]
    repeat' apply And.intro
    all_goals exact devRef_ne_of_ne (by decide))

theorem arg8_nw : ∀ op ∈ (ops : List (HloOp τ sig (Elt F))), (Proc.devRef .tc main_arg8 : DevRef τ sig) ∉ op.writes :=
  List.forall_iff_forall_mem.mp (by
    simp only [ops, List.Forall, nullary_writes, unary_writes, binary_writes, ternary_writes, reshape_writes, Finset.mem_singleton]
    repeat' apply And.intro
    all_goals exact devRef_ne_of_ne (by decide))

theorem arg9_nw : ∀ op ∈ (ops : List (HloOp τ sig (Elt F))), (Proc.devRef .tc main_arg9 : DevRef τ sig) ∉ op.writes :=
  List.forall_iff_forall_mem.mp (by
    simp only [ops, List.Forall, nullary_writes, unary_writes, binary_writes, ternary_writes, reshape_writes, Finset.mem_singleton]
    repeat' apply And.intro
    all_goals exact devRef_ne_of_ne (by decide))

theorem subA {op : HloOp τ sig (Elt F)} (h : op ∈ (opsA : List (HloOp τ sig (Elt F)))) : op ∈ (ops : List (HloOp τ sig (Elt F))) :=
  List.mem_of_mem_take h
theorem subB {op : HloOp τ sig (Elt F)} (h : op ∈ (opsB : List (HloOp τ sig (Elt F)))) : op ∈ (ops : List (HloOp τ sig (Elt F))) :=
  List.mem_of_mem_drop (List.mem_of_mem_take h)
theorem subC {op : HloOp τ sig (Elt F)} (h : op ∈ (opsC : List (HloOp τ sig (Elt F)))) : op ∈ (ops : List (HloOp τ sig (Elt F))) :=
  List.mem_of_mem_drop (List.mem_of_mem_drop (List.mem_of_mem_take h))
theorem subD {op : HloOp τ sig (Elt F)} (h : op ∈ (opsD : List (HloOp τ sig (Elt F)))) : op ∈ (ops : List (HloOp τ sig (Elt F))) :=
  List.mem_of_mem_drop (List.mem_of_mem_drop (List.mem_of_mem_drop (List.mem_of_mem_take h)))
theorem subE {op : HloOp τ sig (Elt F)} (h : op ∈ (opsE : List (HloOp τ sig (Elt F)))) : op ∈ (ops : List (HloOp τ sig (Elt F))) :=
  List.mem_of_mem_drop (List.mem_of_mem_drop (List.mem_of_mem_drop (List.mem_of_mem_drop h)))

/-- A buffer that no operation of the whole program writes is kept by a stretch of it. -/
theorem keep_of_nw {b : DevRef τ sig} (hb : ∀ op ∈ (ops : List (HloOp τ sig (Elt F))), b ∉ op.writes)
    (l : List (HloOp τ sig (Elt F))) (hl : ∀ op ∈ l, op ∈ (ops : List (HloOp τ sig (Elt F)))) (W : Valuation τ sig (Elt F)) :
    after l W b = W b :=
  after_of_forall_not_mem l W fun op hop => hb op (hl op hop)

/-! ## First stretch: degrees and normalizers

The two endpoint lists of the edges (each row of the edge table followed by one self-loop per node), the degree of
each node as the number of edges that end at it, and the normalizer: the inverse square root of the degree where the
degree is positive, zero elsewhere. Only the edge table is read. -/

theorem A_v3 (W : Valuation τ sig (Elt F)) :
    after opsA W (Proc.devRef .tc main_v3) = val_main_v3 (F := F) (W (Proc.devRef .tc main_arg1)) := by
  simp only [opsA, ops, List.drop_succ_cons, List.drop_zero, List.take_succ_cons, List.take_zero]
  after_results_simp
  rfl

theorem A_v6 (W : Valuation τ sig (Elt F)) :
    after opsA W (Proc.devRef .tc main_v6) = val_main_v6 (F := F) (W (Proc.devRef .tc main_arg1)) := by
  simp only [opsA, ops, List.drop_succ_cons, List.drop_zero, List.take_succ_cons, List.take_zero]
  after_results_simp
  rfl

theorem A_v14 (W : Valuation τ sig (Elt F)) :
    after opsA W (Proc.devRef .tc main_v14) = val_main_v14 (F := F) (W (Proc.devRef .tc main_arg1)) := by
  simp only [opsA, ops, List.drop_succ_cons, List.drop_zero, List.take_succ_cons, List.take_zero]
  after_results_simp
  rfl

/-! ## Second stretch: the weight of each edge

Each endpoint index is wrapped into range, the normalizer is read at both endpoints of every edge, and the edge's
weight is the product of the two. The stretch reads the endpoint lists and the normalizer and writes neither endpoint list. -/

theorem B_v29 (W : Valuation τ sig (Elt F)) (x1 : (⟨S2x800000, .i32⟩ : BufTy).Contents (Elt F))
    (h3 : W (Proc.devRef .tc main_v3) = val_main_v3 (F := F) x1) (h6 : W (Proc.devRef .tc main_v6) = val_main_v6 (F := F) x1)
    (h14 : W (Proc.devRef .tc main_v14) = val_main_v14 (F := F) x1) :
    after opsB W (Proc.devRef .tc main_v29) = val_main_v29 (F := F) x1 := by
  simp only [opsB, restA, ops, List.drop_succ_cons, List.drop_zero, List.take_succ_cons, List.take_zero]
  after_results_simp
  rw [h3, h6, h14]
  rfl

theorem B_keep_v3 (W : Valuation τ sig (Elt F)) : after opsB W (Proc.devRef .tc main_v3) = W (Proc.devRef .tc main_v3) :=
  after_of_forall_not_mem (b := Proc.devRef .tc main_v3) _ _ (List.forall_iff_forall_mem.mp (by
    simp only [opsB, restA, ops, List.drop_succ_cons, List.drop_zero, List.take_succ_cons, List.take_zero, List.Forall,
      nullary_writes, unary_writes, binary_writes, ternary_writes, reshape_writes, Finset.mem_singleton]
    repeat' apply And.intro
    all_goals exact devRef_ne_of_ne (by decide)))

theorem B_keep_v6 (W : Valuation τ sig (Elt F)) : after opsB W (Proc.devRef .tc main_v6) = W (Proc.devRef .tc main_v6) :=
  after_of_forall_not_mem (b := Proc.devRef .tc main_v6) _ _ (List.forall_iff_forall_mem.mp (by
    simp only [opsB, restA, ops, List.drop_succ_cons, List.drop_zero, List.take_succ_cons, List.take_zero, List.Forall,
      nullary_writes, unary_writes, binary_writes, ternary_writes, reshape_writes, Finset.mem_singleton]
    repeat' apply And.intro
    all_goals exact devRef_ne_of_ne (by decide)))

/-! ## Third stretch: the first layer

The features times the first weight matrix, gathered along the edges' sources, scaled by the edge weights, summed into
the edges' targets, plus the bias, and the positive part of the sum. -/

theorem C_v47 (W : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F))
    (h3 : W (Proc.devRef .tc main_v3) = val_main_v3 (F := F) x1) (h6 : W (Proc.devRef .tc main_v6) = val_main_v6 (F := F) x1)
    (h29 : W (Proc.devRef .tc main_v29) = val_main_v29 (F := F) x1)
    (a0 : W (Proc.devRef .tc main_arg0) = x0) (a2 : W (Proc.devRef .tc main_arg2) = x2) (a3 : W (Proc.devRef .tc main_arg3) = x3) :
    after opsC W (Proc.devRef .tc main_v47) = val_main_v47 (F := F) x0 x1 x2 x3 := by
  simp only [opsC, restB, restA, ops, List.drop_succ_cons, List.drop_zero, List.take_succ_cons, List.take_zero]
  after_results_simp
  rw [h3, h6, h29, a0, a2, a3]
  rfl

theorem C_keep_v3 (W : Valuation τ sig (Elt F)) : after opsC W (Proc.devRef .tc main_v3) = W (Proc.devRef .tc main_v3) :=
  after_of_forall_not_mem (b := Proc.devRef .tc main_v3) _ _ (List.forall_iff_forall_mem.mp (by
    simp only [opsC, restB, restA, ops, List.drop_succ_cons, List.drop_zero, List.take_succ_cons, List.take_zero, List.Forall,
      nullary_writes, unary_writes, binary_writes, ternary_writes, reshape_writes, Finset.mem_singleton]
    repeat' apply And.intro
    all_goals exact devRef_ne_of_ne (by decide)))

theorem C_keep_v6 (W : Valuation τ sig (Elt F)) : after opsC W (Proc.devRef .tc main_v6) = W (Proc.devRef .tc main_v6) :=
  after_of_forall_not_mem (b := Proc.devRef .tc main_v6) _ _ (List.forall_iff_forall_mem.mp (by
    simp only [opsC, restB, restA, ops, List.drop_succ_cons, List.drop_zero, List.take_succ_cons, List.take_zero, List.Forall,
      nullary_writes, unary_writes, binary_writes, ternary_writes, reshape_writes, Finset.mem_singleton]
    repeat' apply And.intro
    all_goals exact devRef_ne_of_ne (by decide)))

theorem C_keep_v29 (W : Valuation τ sig (Elt F)) : after opsC W (Proc.devRef .tc main_v29) = W (Proc.devRef .tc main_v29) :=
  after_of_forall_not_mem (b := Proc.devRef .tc main_v29) _ _ (List.forall_iff_forall_mem.mp (by
    simp only [opsC, restB, restA, ops, List.drop_succ_cons, List.drop_zero, List.take_succ_cons, List.take_zero, List.Forall,
      nullary_writes, unary_writes, binary_writes, ternary_writes, reshape_writes, Finset.mem_singleton]
    repeat' apply And.intro
    all_goals exact devRef_ne_of_ne (by decide)))

/-! ## Fourth stretch: the second layer and the logarithm of the softmax

The first layer's output times the second weight matrix, aggregated over the edges as before, plus the bias; then, row
by row, the entries minus the row's maximum, minus the logarithm of the sum of their exponentials. The stretch is cut
once more where the row-wise part begins: that part reads the second layer's output only. -/

abbrev opsD1 : List (HloOp τ sig (Elt F)) := (opsD (F := F)).take 20
abbrev opsD2 : List (HloOp τ sig (Elt F)) := (opsD (F := F)).drop 20

theorem D1_v64 (W : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x40, .f32⟩ : BufTy).Contents (Elt F)) (x5 : (⟨S40, .f32⟩ : BufTy).Contents (Elt F))
    (h3 : W (Proc.devRef .tc main_v3) = val_main_v3 (F := F) x1) (h6 : W (Proc.devRef .tc main_v6) = val_main_v6 (F := F) x1)
    (h29 : W (Proc.devRef .tc main_v29) = val_main_v29 (F := F) x1)
    (h47 : W (Proc.devRef .tc main_v47) = val_main_v47 (F := F) x0 x1 x2 x3)
    (a4 : W (Proc.devRef .tc main_arg4) = x4) (a5 : W (Proc.devRef .tc main_arg5) = x5) :
    after opsD1 W (Proc.devRef .tc main_v64) = val_main_v64 (F := F) x0 x1 x2 x3 x4 x5 := by
  simp only [opsD1, opsD, restC, restB, restA, ops, List.drop_succ_cons, List.drop_zero, List.take_succ_cons, List.take_zero]
  after_results_simp
  rw [h3, h6, h29, h47, a4, a5]
  rfl

/-- The row-wise part. Its operations belong to a called function, whose buffers carry their contents through a
    change of type that changes nothing: between two operations of the function the changes cancel; where the function
    reads the second layer's output and where it writes its result the two types are the same type, spelt twice. -/
theorem D2_v65 (W : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x40, .f32⟩ : BufTy).Contents (Elt F)) (x5 : (⟨S40, .f32⟩ : BufTy).Contents (Elt F))
    (h64 : W (Proc.devRef .tc main_v64) = val_main_v64 (F := F) x0 x1 x2 x3 x4 x5) :
    after opsD2 W (Proc.devRef .tc main_v65) = val_main_v65 (F := F) x0 x1 x2 x3 x4 x5 := by
  have e64 : (TRef.of (T := ⟨S50000x40, .f32⟩) main_v64).ofBuf (W (Proc.devRef .tc main_v64))
      = val_main_v64 (F := F) x0 x1 x2 x3 x4 x5 := (eq_of_heq (cast_heq _ _)).trans h64
  simp only [opsD2, opsD, restC, restB, restA, ops, List.drop_succ_cons, List.drop_zero, List.take_succ_cons, List.take_zero]
  after_results_simp
  simp only [ofBuf_toBuf]
  rw [e64]
  refine (eq_of_heq (cast_heq _ _)).trans ?_
  rfl

theorem D_v65 (W : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x4 : (⟨S96x40, .f32⟩ : BufTy).Contents (Elt F)) (x5 : (⟨S40, .f32⟩ : BufTy).Contents (Elt F))
    (h3 : W (Proc.devRef .tc main_v3) = val_main_v3 (F := F) x1) (h6 : W (Proc.devRef .tc main_v6) = val_main_v6 (F := F) x1)
    (h29 : W (Proc.devRef .tc main_v29) = val_main_v29 (F := F) x1)
    (h47 : W (Proc.devRef .tc main_v47) = val_main_v47 (F := F) x0 x1 x2 x3)
    (a4 : W (Proc.devRef .tc main_arg4) = x4) (a5 : W (Proc.devRef .tc main_arg5) = x5) :
    after opsD W (Proc.devRef .tc main_v65) = val_main_v65 (F := F) x0 x1 x2 x3 x4 x5 := by
  rw [after_cut 20 opsD W]
  exact D2_v65 _ x0 x1 x2 x3 x4 x5 (D1_v64 W x0 x1 x2 x3 x4 x5 h3 h6 h29 h47 a4 a5)

theorem D_keep_v47 (W : Valuation τ sig (Elt F)) : after opsD W (Proc.devRef .tc main_v47) = W (Proc.devRef .tc main_v47) :=
  after_of_forall_not_mem (b := Proc.devRef .tc main_v47) _ _ (List.forall_iff_forall_mem.mp (by
    simp only [opsD, restC, restB, restA, ops, List.drop_succ_cons, List.drop_zero, List.take_succ_cons, List.take_zero, List.Forall,
      nullary_writes, unary_writes, binary_writes, ternary_writes, reshape_writes, Finset.mem_singleton]
    repeat' apply And.intro
    all_goals exact devRef_ne_of_ne (by decide)))

/-! ## Last stretch: the mask head

Two dense layers on the first layer's output (the first with a positive part), the logistic function of the result,
and the rounded mask written as the probability plus the difference of its indicator and itself. -/

theorem E_v81 (W : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x6 : (⟨S96x64, .f32⟩ : BufTy).Contents (Elt F)) (x7 : (⟨S64, .f32⟩ : BufTy).Contents (Elt F)) (x8 : (⟨S64x1, .f32⟩ : BufTy).Contents (Elt F)) (x9 : (⟨S1, .f32⟩ : BufTy).Contents (Elt F))
    (h47 : W (Proc.devRef .tc main_v47) = val_main_v47 (F := F) x0 x1 x2 x3)
    (a6 : W (Proc.devRef .tc main_arg6) = x6) (a7 : W (Proc.devRef .tc main_arg7) = x7) (a8 : W (Proc.devRef .tc main_arg8) = x8) (a9 : W (Proc.devRef .tc main_arg9) = x9) :
    after opsE W (Proc.devRef .tc main_v81) = val_main_v81 (F := F) x0 x1 x2 x3 x6 x7 x8 x9 := by
  simp only [opsE, restC, restB, restA, ops, List.drop_succ_cons, List.drop_zero, List.take_succ_cons, List.take_zero]
  after_results_simp
  rw [h47, a6, a7, a8, a9]
  rfl

theorem E_v86 (W : Valuation τ sig (Elt F)) (x0 : (⟨S50000x128, .f32⟩ : BufTy).Contents (Elt F)) (x1 : (⟨S2x800000, .i32⟩ : BufTy).Contents (Elt F)) (x2 : (⟨S128x96, .f32⟩ : BufTy).Contents (Elt F)) (x3 : (⟨S96, .f32⟩ : BufTy).Contents (Elt F)) (x6 : (⟨S96x64, .f32⟩ : BufTy).Contents (Elt F)) (x7 : (⟨S64, .f32⟩ : BufTy).Contents (Elt F)) (x8 : (⟨S64x1, .f32⟩ : BufTy).Contents (Elt F)) (x9 : (⟨S1, .f32⟩ : BufTy).Contents (Elt F))
    (h47 : W (Proc.devRef .tc main_v47) = val_main_v47 (F := F) x0 x1 x2 x3)
    (a6 : W (Proc.devRef .tc main_arg6) = x6) (a7 : W (Proc.devRef .tc main_arg7) = x7) (a8 : W (Proc.devRef .tc main_arg8) = x8) (a9 : W (Proc.devRef .tc main_arg9) = x9) :
    after opsE W (Proc.devRef .tc main_v86) = val_main_v86 (F := F) x0 x1 x2 x3 x6 x7 x8 x9 := by
  simp only [opsE, restC, restB, restA, ops, List.drop_succ_cons, List.drop_zero, List.take_succ_cons, List.take_zero]
  after_results_simp
  rw [h47, a6, a7, a8, a9]
  rfl

theorem E_keep_v65 (W : Valuation τ sig (Elt F)) : after opsE W (Proc.devRef .tc main_v65) = W (Proc.devRef .tc main_v65) :=
  after_of_forall_not_mem (b := Proc.devRef .tc main_v65) _ _ (List.forall_iff_forall_mem.mp (by
    simp only [opsE, restC, restB, restA, ops, List.drop_succ_cons, List.drop_zero, List.take_succ_cons, List.take_zero, List.Forall,
      nullary_writes, unary_writes, binary_writes, ternary_writes, reshape_writes, Finset.mem_singleton]
    repeat' apply And.intro
    all_goals exact devRef_ne_of_ne (by decide)))

/-! ## The stretches in a row

From any contents `V` of the device's buffers: what the buffers that stay in use hold after each stretch, in terms of
the arguments as `V` has them. -/

section Chain

variable {b : DevRef τ sig} (hb : ∀ op ∈ (ops : List (HloOp τ sig (Elt F))), b ∉ op.writes) (V : Valuation τ sig (Elt F))

include hb in
theorem keep1 : after opsA V b = V b := keep_of_nw hb opsA (fun _ h => subA h) V
include hb in
theorem keep2 : after opsB (after opsA V) b = V b := (keep_of_nw hb opsB (fun _ h => subB h) _).trans (keep1 hb V)
include hb in
theorem keep3 : after opsC (after opsB (after opsA V)) b = V b := (keep_of_nw hb opsC (fun _ h => subC h) _).trans (keep2 hb V)
include hb in
theorem keep4 : after opsD (after opsC (after opsB (after opsA V))) b = V b := (keep_of_nw hb opsD (fun _ h => subD h) _).trans (keep3 hb V)
include hb in
theorem keep_all : after ops V b = V b := after_of_forall_not_mem ops V hb

theorem s2_v3 : after opsB (after opsA V) (Proc.devRef .tc main_v3) = val_main_v3 (F := F) (V (Proc.devRef .tc main_arg1)) :=
  (B_keep_v3 _).trans (A_v3 V)
theorem s2_v6 : after opsB (after opsA V) (Proc.devRef .tc main_v6) = val_main_v6 (F := F) (V (Proc.devRef .tc main_arg1)) :=
  (B_keep_v6 _).trans (A_v6 V)
theorem s2_v29 : after opsB (after opsA V) (Proc.devRef .tc main_v29) = val_main_v29 (F := F) (V (Proc.devRef .tc main_arg1)) :=
  B_v29 _ _ (A_v3 V) (A_v6 V) (A_v14 V)

theorem s3_v3 : after opsC (after opsB (after opsA V)) (Proc.devRef .tc main_v3) = val_main_v3 (F := F) (V (Proc.devRef .tc main_arg1)) :=
  (C_keep_v3 _).trans (s2_v3 V)
theorem s3_v6 : after opsC (after opsB (after opsA V)) (Proc.devRef .tc main_v6) = val_main_v6 (F := F) (V (Proc.devRef .tc main_arg1)) :=
  (C_keep_v6 _).trans (s2_v6 V)
theorem s3_v29 : after opsC (after opsB (after opsA V)) (Proc.devRef .tc main_v29) = val_main_v29 (F := F) (V (Proc.devRef .tc main_arg1)) :=
  (C_keep_v29 _).trans (s2_v29 V)
theorem s3_v47 : after opsC (after opsB (after opsA V)) (Proc.devRef .tc main_v47) = val_main_v47 (F := F) (V (Proc.devRef .tc main_arg0)) (V (Proc.devRef .tc main_arg1)) (V (Proc.devRef .tc main_arg2)) (V (Proc.devRef .tc main_arg3)) :=
  C_v47 _ _ _ _ _ (s2_v3 V) (s2_v6 V) (s2_v29 V) (keep2 arg0_nw V) (keep2 arg2_nw V) (keep2 arg3_nw V)

theorem s4_v47 : after opsD (after opsC (after opsB (after opsA V))) (Proc.devRef .tc main_v47) = val_main_v47 (F := F) (V (Proc.devRef .tc main_arg0)) (V (Proc.devRef .tc main_arg1)) (V (Proc.devRef .tc main_arg2)) (V (Proc.devRef .tc main_arg3)) :=
  (D_keep_v47 _).trans (s3_v47 V)
theorem s4_v65 : after opsD (after opsC (after opsB (after opsA V))) (Proc.devRef .tc main_v65) = val_main_v65 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  D_v65 _ _ _ _ _ _ _ (s3_v3 V) (s3_v6 V) (s3_v29 V) (s3_v47 V) (keep3 arg4_nw V) (keep3 arg5_nw V)

/-- The class scores: the second layer's rows under the logarithm of the softmax. -/
theorem fin_v65 : after ops V (Proc.devRef .tc main_v65) = val_main_v65 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops]
  exact (E_keep_v65 _).trans (s4_v65 V)

/-- The mask head's probability. -/
theorem fin_v81 : after ops V (Proc.devRef .tc main_v81) = val_main_v81 (F := F) (V (Proc.devRef .tc main_arg0)) (V (Proc.devRef .tc main_arg1)) (V (Proc.devRef .tc main_arg2)) (V (Proc.devRef .tc main_arg3)) (V (Proc.devRef .tc main_arg6)) (V (Proc.devRef .tc main_arg7)) (V (Proc.devRef .tc main_arg8)) (V (Proc.devRef .tc main_arg9)) := by
  rw [after_ops]
  exact E_v81 _ _ _ _ _ _ _ _ _ (s4_v47 V) (keep4 arg6_nw V) (keep4 arg7_nw V) (keep4 arg8_nw V) (keep4 arg9_nw V)

/-- The mask head's rounded mask. -/
theorem fin_v86 : after ops V (Proc.devRef .tc main_v86) = val_main_v86 (F := F) (V (Proc.devRef .tc main_arg0)) (V (Proc.devRef .tc main_arg1)) (V (Proc.devRef .tc main_arg2)) (V (Proc.devRef .tc main_arg3)) (V (Proc.devRef .tc main_arg6)) (V (Proc.devRef .tc main_arg7)) (V (Proc.devRef .tc main_arg8)) (V (Proc.devRef .tc main_arg9)) := by
  rw [after_ops]
  exact E_v86 _ _ _ _ _ _ _ _ _ (s4_v47 V) (keep4 arg6_nw V) (keep4 arg7_nw V) (keep4 arg8_nw V) (keep4 arg9_nw V)

end Chain

/-! ## The run -/

/-- On every device, from any memory with zero counters: every weakly fair execution of the reference program
    terminates with its three results at their stages of the arguments and the ten arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v86) = val_main_v86 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c main_v65).trans (fin_v65 (launchContents m c)),
       (h c main_v81).trans (fin_v81 (launchContents m c)),
       (h c main_v86).trans (fin_v86 (launchContents m c)),
       (h c main_arg0).trans (keep_all arg0_nw (launchContents m c)),
       (h c main_arg1).trans (keep_all arg1_nw (launchContents m c)),
       (h c main_arg2).trans (keep_all arg2_nw (launchContents m c)),
       (h c main_arg3).trans (keep_all arg3_nw (launchContents m c)),
       (h c main_arg4).trans (keep_all arg4_nw (launchContents m c)),
       (h c main_arg5).trans (keep_all arg5_nw (launchContents m c)),
       (h c main_arg6).trans (keep_all arg6_nw (launchContents m c)),
       (h c main_arg7).trans (keep_all arg7_nw (launchContents m c)),
       (h c main_arg8).trans (keep_all arg8_nw (launchContents m c)),
       (h c main_arg9).trans (keep_all arg9_nw (launchContents m c))⟩)
    (run_seq scopedRefs_eq scopedSems_eq defs main (fun _ => ops) main_eq (fun _ => ops_sub) m ρ)

end Cert.ReferenceIdeal.Stages

end
-- ==== Proof.KernelFoldA.lean ====
/-
  The idealized kernel's buffers at the segment boundaries, part one: everything up to the first region.

  Before the first region @main computes, from the edge list alone: the source and destination node of every edge with
  one self-loop per node appended, the degree of every node (a count of the edges that land on it), and the node's
  normalizer, the inverse square root of its degree where that is positive and 0 elsewhere. The reference program
  computes the same four arrays by the same operations, so each of them is the reference's stage of the same name
  applied to the kernel's edge-list argument; the equations hold by unfolding both sides. The first region then finds
  its three input arrays at the features, the first weight matrix, and the normalizers laid out as a column.
-/
import proofs.«149170_j81338090651993_2_alg».proof.Proof.Gen.KernelIdeal.Frame
import proofs.«149170_j81338090651993_2_alg».proof.Proof.RefRead

set_option maxRecDepth 16384

noncomputable section

namespace Cert.KernelIdeal.Fold

open Cert.KernelIdeal Cert.KernelIdeal.Gen Cert.ReferenceIdeal.ReadP
open Idealize.ShloMosaic Idealize.ShloMosaic.TcCoe Idealize.SL.Sem Idealize.ShloMosaic.StableHlo

/-- A buffer that no operation of a stretch writes holds after the stretch what it held before. -/
macro "unwritten " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## After the first stretch -/

/-- The source node of every edge, self-loops appended. -/
theorem src_W1 : W1 m ρ c (Proc.devRef .tc main_v3) = val_main_v3 (F := Ideal) (m ((c.tc : Thread nD τ).loc main_arg1)) := by
  show StableHlo.after hostOps0 (W0 m ρ c) (Proc.devRef .tc main_v3) = _
  simp only [hostOps0]
  after_results
  rfl

/-- The destination node of every edge, self-loops appended. -/
theorem dst_W1 : W1 m ρ c (Proc.devRef .tc main_v6) = val_main_v6 (F := Ideal) (m ((c.tc : Thread nD τ).loc main_arg1)) := by
  show StableHlo.after hostOps0 (W0 m ρ c) (Proc.devRef .tc main_v6) = _
  simp only [hostOps0]
  after_results
  rfl

/-- Where the degree is positive. -/
theorem pos_W1 : W1 m ρ c (Proc.devRef .tc main_v12) = val_main_v12 (F := Ideal) (m ((c.tc : Thread nD τ).loc main_arg1)) := by
  show StableHlo.after hostOps0 (W0 m ρ c) (Proc.devRef .tc main_v12) = _
  simp only [hostOps0]
  after_results
  rfl

/-- The inverse square root of the degree. -/
theorem rsq_W1 : W1 m ρ c (Proc.devRef .tc main_v13) = val_main_v13 (F := Ideal) (m ((c.tc : Thread nD τ).loc main_arg1)) := by
  show StableHlo.after hostOps0 (W0 m ρ c) (Proc.devRef .tc main_v13) = _
  simp only [hostOps0]
  after_results
  rfl

/-- The zero that stands where the degree is not positive. -/
theorem zero_W1 : W1 m ρ c (Proc.devRef .tc main_cst_2) = val_main_cst_2 (F := Ideal) := by
  show StableHlo.after hostOps0 (W0 m ρ c) (Proc.devRef .tc main_cst_2) = _
  simp only [hostOps0]
  after_results
  rfl

/-! ## After the selection: the normalizers -/

theorem norm_W2 : W2 m ρ c (Proc.devRef .tc main_v14) = val_main_v14 (F := Ideal) (m ((c.tc : Thread nD τ).loc main_arg1)) := by
  have h12 := pos_W1 m ρ c
  have h13 := rsq_W1 m ρ c
  have h2 := zero_W1 m ρ c
  show StableHlo.after hostOps0_1 (W1 m ρ c) (Proc.devRef .tc main_v14) = _
  generalize W1 m ρ c = V at h12 h13 h2 ⊢
  simp only [hostOps0_1]
  after_results
  rw [h12, h13, h2]
  -- the called function's values are transported between a buffer's type and the value's type, which are the same
  -- type: each transport is the identity, removed from the outside in
  refine (eq_of_heq (cast_heq _ _)).trans ?_
  unfold val_main_v14 val_main_call0_v1 val_main_call0_v0
  refine congr (congr (congrArg _ ?_) ?_) ?_
  · exact eq_of_heq (cast_heq _ _)
  · exact eq_of_heq (cast_heq _ _)
  · refine (eq_of_heq (cast_heq _ _)).trans ((eq_of_heq (cast_heq _ _)).trans ?_)
    refine congrArg _ ?_
    refine (eq_of_heq (cast_heq _ _)).trans ((eq_of_heq (cast_heq _ _)).trans ?_)
    exact congrArg id (eq_of_heq (cast_heq _ _))

/-! ## The first region's entry -/

/-- The normalizers laid out as a column, as all three regions read them. -/
theorem col_W3 : W3 m ρ c (Proc.devRef .tc main_v15)
    = shapeCast S50000x1 (val_main_v14 (F := Ideal) (m ((c.tc : Thread nD τ).loc main_arg1))) shapeCasts_S50000_S50000x1 := by
  have h := norm_W2 m ρ c
  show StableHlo.after hostOps0_2 (W2 m ρ c) (Proc.devRef .tc main_v15) = _
  generalize W2 m ρ c = V at h ⊢
  simp only [hostOps0_2]
  after_results
  rw [h]
  rfl

/-- The edges' sources at the first region's entry. -/
theorem src_W3 : W3 m ρ c (Proc.devRef .tc main_v3) = val_main_v3 (F := Ideal) (m ((c.tc : Thread nD τ).loc main_arg1)) :=
  calc W3 m ρ c (Proc.devRef .tc main_v3)
    _ = W2 m ρ c (Proc.devRef .tc main_v3) := by unwritten hostOps0_2
    _ = W1 m ρ c (Proc.devRef .tc main_v3) := by unwritten hostOps0_1
    _ = _ := src_W1 m ρ c

/-- The edges' destinations at the first region's entry. -/
theorem dst_W3 : W3 m ρ c (Proc.devRef .tc main_v6) = val_main_v6 (F := Ideal) (m ((c.tc : Thread nD τ).loc main_arg1)) :=
  calc W3 m ρ c (Proc.devRef .tc main_v6)
    _ = W2 m ρ c (Proc.devRef .tc main_v6) := by unwritten hostOps0_2
    _ = W1 m ρ c (Proc.devRef .tc main_v6) := by unwritten hostOps0_1
    _ = _ := dst_W1 m ρ c

/-- An argument of @main is written by none of the three stretches before the first region. -/
theorem arg_W3 (a : Ref sig .tc)
    (ha : a = main_arg0 ∨ a = main_arg2 ∨ a = main_arg3 ∨ a = main_arg4 ∨ a = main_arg5 ∨ a = main_arg6 ∨ a = main_arg7
      ∨ a = main_arg8 ∨ a = main_arg9) :
    W3 m ρ c (Proc.devRef .tc a) = m ((c.tc : Thread nD τ).loc a) := by
  rcases ha with rfl | rfl | rfl | rfl | rfl | rfl | rfl | rfl | rfl <;>
  exact (calc W3 m ρ c (Proc.devRef .tc _)
    _ = W2 m ρ c (Proc.devRef .tc _) := by unwritten hostOps0_2
    _ = W1 m ρ c (Proc.devRef .tc _) := by unwritten hostOps0_1
    _ = W0 m ρ c (Proc.devRef .tc _) := by unwritten hostOps0
    _ = _ := rfl)

end Cert.KernelIdeal.Fold

end
-- ==== Proof.KernelFoldB.lean ====
/-
  The idealized kernel's buffers at the segment boundaries, part two: from the first region to the results.

  Between the regions @main gathers, for every edge, the source node's row of the table the previous region wrote, and
  adds it into the destination node's row of a zero table: the neighbourhood sum, one per layer, as a function
  (`aggregate96`, `aggregate40`) of the edges' endpoints and the table. The second region reads the first sum, the
  normalizer column, the first bias as a row, and the three remaining weight matrices and biases of the head; the
  third reads the second sum, the normalizer column and the second bias as a row. After the last region the
  probabilities are laid out as a vector and the mask is prob + (1[prob > 1/2] - prob). Everything no segment writes
  in between — the edges' endpoints, the normalizer column, the arguments — is carried along unchanged.
-/
import proofs.«149170_j81338090651993_2_alg».proof.Proof.KernelFoldA

set_option maxRecDepth 16384

noncomputable section

namespace Cert.KernelIdeal.Fold

open Cert.KernelIdeal Cert.KernelIdeal.Gen Cert.ReferenceIdeal.ReadP
open Idealize.ShloMosaic Idealize.ShloMosaic.TcCoe Idealize.SL.Sem Idealize.ShloMosaic.StableHlo

/-- Gather the source node's row of a 96-channel table for every edge and add it into the destination node's row of
    a zero table; a negative source index is first wrapped around by the number of nodes. -/
def aggregate96 (src dst : IVec S850000 32) (T : FVec Ideal S50000x96 .bf16) : FVec Ideal S50000x96 .f32 :=
  Host.scatterAdd scatter_S50000x96_S850000x1_S850000x96_1_0_0_1
    (broadcastInDim S50000x96 ![] bcast_S_S50000x96 (constant S_ .f32 0x00000000#32))
    (broadcastInDim S850000x1 ![0] bcast_S850000_S850000x1_0 dst)
    (extf .f32 (Host.gather gather_S50000x96_S850000x1_S850000x96_1_0_n_n_0_1_196 T
      (broadcastInDim S850000x1 ![0] bcast_S850000_S850000x1_0
        (select (cmpi .slt src (broadcastInDim S850000 ![] bcast_S_S850000 (constantI S_ 32 0#32)))
          (addi src (broadcastInDim S850000 ![] bcast_S_S850000 (constantI S_ 32 50000#32))) src))) bitsLt_bf16_f32)

/-- The same over 40 channels. -/
def aggregate40 (src dst : IVec S850000 32) (T : FVec Ideal S50000x40 .bf16) : FVec Ideal S50000x40 .f32 :=
  Host.scatterAdd scatter_S50000x40_S850000x1_S850000x40_1_0_0_1
    (broadcastInDim S50000x40 ![] bcast_S_S50000x40 (constant S_ .f32 0x00000000#32))
    (broadcastInDim S850000x1 ![0] bcast_S850000_S850000x1_0 dst)
    (extf .f32 (Host.gather gather_S50000x40_S850000x1_S850000x40_1_0_n_n_0_1_140 T
      (broadcastInDim S850000x1 ![0] bcast_S850000_S850000x1_0
        (select (cmpi .slt src (broadcastInDim S850000 ![] bcast_S_S850000 (constantI S_ 32 0#32)))
          (addi src (broadcastInDim S850000 ![] bcast_S_S850000 (constantI S_ 32 50000#32))) src))) bitsLt_bf16_f32)

/-- The probabilities as a vector, and the mask prob + (1[prob > 1/2] - prob). -/
def maskOf (p : FVec Ideal S50000 .f32) : FVec Ideal S50000 .f32 :=
  addf p (subf (uitofp .f32 (cmpf .ogt p (broadcastInDim S50000 ![] bcast_S_S50000 (constant S_ .f32 0x3F000000#32)))) p)

variable (m : (ℓ : Loc nD τ sig) → Buf (Elt Ideal) ℓ) (ρ : Dev nD → PrngReg) (c : Dev nD)

/-! ## Across the first region -/

/-- The first region's output array holds what its write-backs leave. -/
theorem out0_W4 : W4 m ρ c (Proc.devRef .tc main_v16) = (dat0 (F := Ideal) (V3 m ρ) c).arrAt 3 cfg0.N :=
  W4_arr m ρ c 3

/-- The normalizer column is an input of the first region: unchanged. -/
theorem col_W4 : W4 m ρ c (Proc.devRef .tc main_v15) = shapeCast S50000x1 (val_main_v14 (F := Ideal) (m ((c.tc : Thread nD τ).loc main_arg1))) shapeCasts_S50000_S50000x1 :=
  ((W4_arr m ρ c 2).trans (((dat0 (V3 m ρ) c).arrAt_in 2 rfl _).trans (A_eq0 (V3 m ρ) c 2))).trans (col_W3 m ρ c)

theorem src_W4 : W4 m ρ c (Proc.devRef .tc main_v3) = val_main_v3 (F := Ideal) (m ((c.tc : Thread nD τ).loc main_arg1)) :=
  (W4_of_ne m ρ c main_v3 (by decide)).trans (src_W3 m ρ c)

theorem dst_W4 : W4 m ρ c (Proc.devRef .tc main_v6) = val_main_v6 (F := Ideal) (m ((c.tc : Thread nD τ).loc main_arg1)) :=
  (W4_of_ne m ρ c main_v6 (by decide)).trans (dst_W3 m ρ c)

/-- The arguments the later regions read are no array of the first region. -/
theorem arg_W4 (a : Ref sig .tc)
    (ha : a = main_arg3 ∨ a = main_arg4 ∨ a = main_arg5 ∨ a = main_arg6 ∨ a = main_arg7 ∨ a = main_arg8 ∨ a = main_arg9) :
    W4 m ρ c (Proc.devRef .tc a) = m ((c.tc : Thread nD τ).loc a) := by
  rcases ha with rfl | rfl | rfl | rfl | rfl | rfl | rfl <;>
  exact (W4_of_ne m ρ c _ (by decide)).trans (arg_W3 m ρ c _ (by decide))

/-! ## The second region's entry -/

set_option maxHeartbeats 1000000 in
/-- The first neighbourhood sum, of the table the first region wrote. -/
theorem sum1_W5 : W5 m ρ c (Proc.devRef .tc main_v27)
    = aggregate96 (val_main_v3 (F := Ideal) (m ((c.tc : Thread nD τ).loc main_arg1))) (val_main_v6 (F := Ideal) (m ((c.tc : Thread nD τ).loc main_arg1))) ((dat0 (F := Ideal) (V3 m ρ) c).arrAt 3 cfg0.N) := by
  have hs := src_W4 m ρ c
  have hd := dst_W4 m ρ c
  have ho := out0_W4 m ρ c
  show StableHlo.after hostOps1 (W4 m ρ c) (Proc.devRef .tc main_v27) = _
  generalize W4 m ρ c = V at hs hd ho ⊢
  simp only [hostOps1]
  after_results_simp
  rw [hs, hd, ho]
  unfold aggregate96
  rfl

/-- A reshaped bias of the head: the first layer's, as a row. -/
theorem b1_W5 : W5 m ρ c (Proc.devRef .tc main_v28) = shapeCast S1x96 (m ((c.tc : Thread nD τ).loc main_arg3)) shapeCasts_S96_S1x96 := by
  have h := arg_W4 m ρ c main_arg3 (by decide)
  show StableHlo.after hostOps1 (W4 m ρ c) (Proc.devRef .tc main_v28) = _
  generalize W4 m ρ c = V at h ⊢
  simp only [hostOps1]
  after_results
  rw [h]
  rfl

theorem bm1_W5 : W5 m ρ c (Proc.devRef .tc main_v29) = shapeCast S1x64 (m ((c.tc : Thread nD τ).loc main_arg7)) shapeCasts_S64_S1x64 := by
  have h := arg_W4 m ρ c main_arg7 (by decide)
  show StableHlo.after hostOps1 (W4 m ρ c) (Proc.devRef .tc main_v29) = _
  generalize W4 m ρ c = V at h ⊢
  simp only [hostOps1]
  after_results
  rw [h]
  rfl

theorem bm2_W5 : W5 m ρ c (Proc.devRef .tc main_v30) = shapeCast S1x1 (m ((c.tc : Thread nD τ).loc main_arg9)) shapeCasts_S1_S1x1 := by
  have h := arg_W4 m ρ c main_arg9 (by decide)
  show StableHlo.after hostOps1 (W4 m ρ c) (Proc.devRef .tc main_v30) = _
  generalize W4 m ρ c = V at h ⊢
  simp only [hostOps1]
  after_results
  rw [h]
  rfl

theorem col_W5 : W5 m ρ c (Proc.devRef .tc main_v15) = shapeCast S50000x1 (val_main_v14 (F := Ideal) (m ((c.tc : Thread nD τ).loc main_arg1))) shapeCasts_S50000_S50000x1 :=
  (by unwritten hostOps1 : W5 m ρ c (Proc.devRef .tc main_v15) = W4 m ρ c (Proc.devRef .tc main_v15)).trans (col_W4 m ρ c)

theorem src_W5 : W5 m ρ c (Proc.devRef .tc main_v3) = val_main_v3 (F := Ideal) (m ((c.tc : Thread nD τ).loc main_arg1)) :=
  (by unwritten hostOps1 : W5 m ρ c (Proc.devRef .tc main_v3) = W4 m ρ c (Proc.devRef .tc main_v3)).trans (src_W4 m ρ c)

theorem dst_W5 : W5 m ρ c (Proc.devRef .tc main_v6) = val_main_v6 (F := Ideal) (m ((c.tc : Thread nD τ).loc main_arg1)) :=
  (by unwritten hostOps1 : W5 m ρ c (Proc.devRef .tc main_v6) = W4 m ρ c (Proc.devRef .tc main_v6)).trans (dst_W4 m ρ c)

/-- The weight matrices of the second region, the last bias of the head's output layer and the second layer's bias are
    written by no operation of the stretch. -/
theorem arg_W5 (a : Ref sig .tc) (ha : a = main_arg4 ∨ a = main_arg5 ∨ a = main_arg6 ∨ a = main_arg8) :
    W5 m ρ c (Proc.devRef .tc a) = m ((c.tc : Thread nD τ).loc a) := by
  rcases ha with rfl | rfl | rfl | rfl <;>
  exact (by unwritten hostOps1 : W5 m ρ c (Proc.devRef .tc _) = W4 m ρ c (Proc.devRef .tc _)).trans (arg_W4 m ρ c _ (by decide))

/-! ## Across the second region -/

theorem out1a_W6 : W6 m ρ c (Proc.devRef .tc main_v31_0) = (dat1 (F := Ideal) (V5 m ρ) c).arrAt 8 cfg1.N :=
  W6_arr m ρ c 8

theorem out1b_W6 : W6 m ρ c (Proc.devRef .tc main_v31_1) = (dat1 (F := Ideal) (V5 m ρ) c).arrAt 9 cfg1.N :=
  W6_arr m ρ c 9

theorem col_W6 : W6 m ρ c (Proc.devRef .tc main_v15) = shapeCast S50000x1 (val_main_v14 (F := Ideal) (m ((c.tc : Thread nD τ).loc main_arg1))) shapeCasts_S50000_S50000x1 :=
  ((W6_arr m ρ c 1).trans (((dat1 (V5 m ρ) c).arrAt_in 1 rfl _).trans (A_eq1 (V5 m ρ) c 1))).trans (col_W5 m ρ c)

theorem src_W6 : W6 m ρ c (Proc.devRef .tc main_v3) = val_main_v3 (F := Ideal) (m ((c.tc : Thread nD τ).loc main_arg1)) :=
  (W6_of_ne m ρ c main_v3 (by decide)).trans (src_W5 m ρ c)

theorem dst_W6 : W6 m ρ c (Proc.devRef .tc main_v6) = val_main_v6 (F := Ideal) (m ((c.tc : Thread nD τ).loc main_arg1)) :=
  (W6_of_ne m ρ c main_v6 (by decide)).trans (dst_W5 m ρ c)

theorem b2arg_W6 : W6 m ρ c (Proc.devRef .tc main_arg5) = (m ((c.tc : Thread nD τ).loc main_arg5)) :=
  (W6_of_ne m ρ c main_arg5 (by decide)).trans (arg_W5 m ρ c main_arg5 (by decide))

/-! ## The third region's entry -/

set_option maxHeartbeats 1000000 in
/-- The second neighbourhood sum, of the table the second region wrote. -/
theorem sum2_W7 : W7 m ρ c (Proc.devRef .tc main_v42)
    = aggregate40 (val_main_v3 (F := Ideal) (m ((c.tc : Thread nD τ).loc main_arg1))) (val_main_v6 (F := Ideal) (m ((c.tc : Thread nD τ).loc main_arg1))) ((dat1 (F := Ideal) (V5 m ρ) c).arrAt 8 cfg1.N) := by
  have hs := src_W6 m ρ c
  have hd := dst_W6 m ρ c
  have ho := out1a_W6 m ρ c
  show StableHlo.after hostOps2 (W6 m ρ c) (Proc.devRef .tc main_v42) = _
  generalize W6 m ρ c = V at hs hd ho ⊢
  simp only [hostOps2]
  after_results_simp
  rw [hs, hd, ho]
  unfold aggregate40
  rfl

theorem b2_W7 : W7 m ρ c (Proc.devRef .tc main_v43) = shapeCast S1x40 (m ((c.tc : Thread nD τ).loc main_arg5)) shapeCasts_S40_S1x40 := by
  have h := b2arg_W6 m ρ c
  show StableHlo.after hostOps2 (W6 m ρ c) (Proc.devRef .tc main_v43) = _
  generalize W6 m ρ c = V at h ⊢
  simp only [hostOps2]
  after_results
  rw [h]
  rfl

theorem col_W7 : W7 m ρ c (Proc.devRef .tc main_v15) = shapeCast S50000x1 (val_main_v14 (F := Ideal) (m ((c.tc : Thread nD τ).loc main_arg1))) shapeCasts_S50000_S50000x1 :=
  (by unwritten hostOps2 : W7 m ρ c (Proc.devRef .tc main_v15) = W6 m ρ c (Proc.devRef .tc main_v15)).trans (col_W6 m ρ c)

theorem out1b_W7 : W7 m ρ c (Proc.devRef .tc main_v31_1) = (dat1 (F := Ideal) (V5 m ρ) c).arrAt 9 cfg1.N :=
  (by unwritten hostOps2 : W7 m ρ c (Proc.devRef .tc main_v31_1) = W6 m ρ c (Proc.devRef .tc main_v31_1)).trans (out1b_W6 m ρ c)

/-! ## Across the third region, and the results -/

theorem out1b_W8 : W8 m ρ c (Proc.devRef .tc main_v31_1) = (dat1 (F := Ideal) (V5 m ρ) c).arrAt 9 cfg1.N :=
  (W8_of_ne m ρ c main_v31_1 (by decide)).trans (out1b_W7 m ρ c)

/-- The logits: what the third region's write-backs leave; the last stretch does not write them. -/
theorem logits_W9 : W9 m ρ c (Proc.devRef .tc main_v44) = (dat2 (F := Ideal) (V7 m ρ) c).arrAt 3 cfg2.N :=
  (by unwritten hostOps3 : W9 m ρ c (Proc.devRef .tc main_v44) = W8 m ρ c (Proc.devRef .tc main_v44)).trans (W8_arr m ρ c 3)

/-- The probabilities: the second region's one-column output laid out as a vector. -/
theorem prob_W9 : W9 m ρ c (Proc.devRef .tc main_v45)
    = shapeCast S50000 ((dat1 (F := Ideal) (V5 m ρ) c).arrAt 9 cfg1.N) shapeCasts_S50000x1_S50000 := by
  have h := out1b_W8 m ρ c
  show StableHlo.after hostOps3 (W8 m ρ c) (Proc.devRef .tc main_v45) = _
  generalize W8 m ρ c = V at h ⊢
  simp only [hostOps3]
  after_results
  rw [h]
  rfl

/-- The mask, of the probabilities. -/
theorem mask_W9 : W9 m ρ c (Proc.devRef .tc main_v50)
    = maskOf (shapeCast S50000 ((dat1 (F := Ideal) (V5 m ρ) c).arrAt 9 cfg1.N) shapeCasts_S50000x1_S50000) := by
  have h := out1b_W8 m ρ c
  show StableHlo.after hostOps3 (W8 m ρ c) (Proc.devRef .tc main_v50) = _
  generalize W8 m ρ c = V at h ⊢
  simp only [hostOps3]
  after_results
  rw [h]
  rfl

end Cert.KernelIdeal.Fold

end
-- ==== Proof.ScaledRows.lean ====
/-
  The first layer's linear map, row by row.

  The region tiles the 50000 rows of x in 25 blocks of 2000. On block t it forms  (x_t · W) ⊙ d_t : the product of the
  block's 2000 × 128 rows with the resident 128 × 96 table, each row then scaled by that row's entry of the column d.
  A change of float format is the identity on the extended reals and the product accumulates into zeros, so entry
  (p, q) of the block is  (Σ_k x_t(p, k) · W(k, q)) · d_t(p, 0).  Block t of a row-tiled array is rows 2000·t … 2000·t + 1999,
  the resident table is read whole at every point, and row r of the result is written by point r / 2000 and by no
  other; hence after the region the result array at (r, j) is  (Σ_k x(r, k) · W(k, j)) · d(r, 0)  of the arrays the
  region found at entry. No finiteness is used: only that zero is neutral for +.
-/
import proofs.«149170_j81338090651993_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.ScaledRows

open Cert.KernelIdeal Cert.KernelIdeal.Gen

/-- The two zero offsets, however they are spelt. -/
theorem hz : (![0, 0] : Fin 2 → Nat) = fun _ => 0 := funext fun a => by fin_cases a <;> rfl

/-- A column repeated along the rows: entry (p, q) of a [2000,1] table laid out over 96 columns is the column's entry p. -/
theorem col_apply {α : Type} (d : S2000x1.Idx → α) (hc : S2000x1.ShapeCasts S2000x1) (hb : S2000x1.Broadcasts S2000x96)
    (p : Fin 2000) (q : Fin 96) :
    broadcastTo S2000x96 (shapeCast S2000x1 d hc) hb (ix2 p q) = d (ix2 p (0 : Fin 1)) := by
  rw [shapeCast_self]
  refine broadcastTo_apply d hb (ix2 p q) (ix2 p (0 : Fin 1)) ?_
  intro a
  match a with
  | ⟨0, _⟩ => rfl
  | ⟨1, _⟩ => rfl

theorem lhs0 (i : S2000x96.Idx) (k : dot_S2000x128_S128x96_S2000x96_1_0_0_1_n_n.contr.Idx) :
    (dot_S2000x128_S128x96_S2000x96_1_0_0_1_n_n.lhsIdx i k 0).val = (i 0).val := by
  unfold DotDims.lhsIdx
  rw [dif_neg (show ¬(0 : Fin S2000x128.rank) ∈ dot_S2000x128_S128x96_S2000x96_1_0_0_1_n_n.lhsBatch by decide), dif_pos (show (0 : Fin S2000x128.rank) ∈ dot_S2000x128_S128x96_S2000x96_1_0_0_1_n_n.lhsNonContracting by decide)]
  rfl

theorem rhs1 (i : S2000x96.Idx) (k : dot_S2000x128_S128x96_S2000x96_1_0_0_1_n_n.contr.Idx) :
    (dot_S2000x128_S128x96_S2000x96_1_0_0_1_n_n.rhsIdx i k 1).val = (i 1).val := by
  unfold DotDims.rhsIdx
  rw [dif_neg (show ¬(1 : Fin S128x96.rank) ∈ dot_S2000x128_S128x96_S2000x96_1_0_0_1_n_n.rhsBatch by decide), dif_pos (show (1 : Fin S128x96.rank) ∈ dot_S2000x128_S128x96_S2000x96_1_0_0_1_n_n.rhsNonContracting by decide)]
  rfl

/-- The product's entry (p, q): the sum over the 128 shared positions. -/
theorem dot_apply (x : FVec Ideal S2000x128 .bf16) (w : FVec Ideal S128x96 .bf16) (p : Fin 2000) (q : Fin 96) :
    matmul dot_S2000x128_S128x96_S2000x96_1_0_0_1_n_n none x w (constant (F := Ideal) S2000x96 .f32 0x00000000#32) (ix2 p q)
      = ∑ k : Fin 128, x (ix2 p k) * w (ix2 k q) := by
  refine (Ideal.matmul_constant_zero_apply dot_S2000x128_S128x96_S2000x96_1_0_0_1_n_n none x w (ix2 p q)).trans ?_
  rw [← Equiv.sum_comp (contrEquiv1 dot_S2000x128_S128x96_S2000x96_1_0_0_1_n_n 128 rfl rfl).symm]
  refine Finset.sum_congr rfl fun k _ => ?_
  have hk := contrEquiv1_symm_val dot_S2000x128_S128x96_S2000x96_1_0_0_1_n_n 128 rfl rfl k
  have el : dot_S2000x128_S128x96_S2000x96_1_0_0_1_n_n.lhsIdx (ix2 p q) ((contrEquiv1 dot_S2000x128_S128x96_S2000x96_1_0_0_1_n_n 128 rfl rfl).symm k) = ix2 p k := funext fun a => Fin.ext (by
    match a with
    | ⟨0, _⟩ => exact lhs0 _ _
    | ⟨1, _⟩ => exact (dot_S2000x128_S128x96_S2000x96_1_0_0_1_n_n.lhsIdx_val_of_single rfl _ _).trans hk)
  have er : dot_S2000x128_S128x96_S2000x96_1_0_0_1_n_n.rhsIdx (ix2 p q) ((contrEquiv1 dot_S2000x128_S128x96_S2000x96_1_0_0_1_n_n 128 rfl rfl).symm k) = ix2 k q := funext fun a => Fin.ext (by
    match a with
    | ⟨0, _⟩ => exact (dot_S2000x128_S128x96_S2000x96_1_0_0_1_n_n.rhsIdx_val_of_single rfl _ _).trans hk
    | ⟨1, _⟩ => exact rhs1 _ _)
  rw [el, er]

theorem pay_apply (x : Vec Ideal S2000x128 .f32) (w : Vec Ideal S128x96 .f32) (d : Vec Ideal S2000x1 .f32) (p : Fin 2000) (q : Fin 96) :
    k0_pay1 (F := Ideal) x w d (ix2 p q) = (∑ k : Fin 128, x (ix2 p k) * w (ix2 k q)) * d (ix2 p (0 : Fin 1)) := by
  unfold k0_pay1
  show matmul dot_S2000x128_S128x96_S2000x96_1_0_0_1_n_n none (truncf .bf16 x bitsLt_bf16_f32) (truncf .bf16 w bitsLt_bf16_f32) (constant (F := Ideal) S2000x96 .f32 0x00000000#32) (ix2 p q)
      * broadcastTo S2000x96 (shapeCast S2000x1 d shapeCasts_S2000x1_S2000x1) broadcasts_S2000x1_S2000x96 (ix2 p q) = _
  rw [dot_apply, col_apply]
  rfl

/-- The same at any index of the block. -/
theorem pay_apply_idx (x : Vec Ideal S2000x128 .f32) (w : Vec Ideal S128x96 .f32) (d : Vec Ideal S2000x1 .f32) (y : S2000x96.Idx) :
    k0_pay1 (F := Ideal) x w d y = (∑ k : Fin 128, x (ix2 (y 0) k) * w (ix2 k (y 1))) * d (ix2 (y 0) (0 : Fin 1)) := by
  obtain ⟨p, q, rfl⟩ : ∃ (p : Fin 2000) (q : Fin 96), y = ix2 p q := ⟨y 0, y 1, eq_ix2 y⟩
  exact pay_apply x w d p q

/-- The rows of x·W scaled by the column D: entry (r, j) is (Σ_k X(r, k)·W(k, j))·D(r, 0). -/
def scaled (X : S50000x128.Idx → EReal) (W : S128x96.Idx → EReal) (D : S50000x1.Idx → EReal) : S50000x96.Idx → EReal :=
  fun i => (∑ k : Fin 128, X (ix2 (i 0) k) * W (ix2 k (i 1))) * D (ix2 (i 0) (0 : Fin 1))

/-- One block of 2000 rows: if the block's operands are rows T·2000 … T·2000 + 1999 of X and of D and the whole of W,
    the block's entry y is the array's entry at row T·2000 + y₀ and column y₁. -/
theorem point_eq (X : S50000x128.Idx → EReal) (W : S128x96.Idx → EReal) (D : S50000x1.Idx → EReal)
    (x : Vec Ideal S2000x128 .f32) (w : Vec Ideal S128x96 .f32) (d : Vec Ideal S2000x1 .f32) (T : Nat)
    (hx : ∀ (a : S2000x128.Idx) (b : S50000x128.Idx), (b 0).val = T * 2000 + (a 0).val → (b 1).val = (a 1).val → x a = X b)
    (hw : ∀ a : S128x96.Idx, w a = W a)
    (hd : ∀ (a : S2000x1.Idx) (b : S50000x1.Idx), (b 0).val = T * 2000 + (a 0).val → d a = D b)
    (y : S2000x96.Idx) (i : S50000x96.Idx) (hi0 : (i 0).val = T * 2000 + (y 0).val) (hi1 : (i 1).val = (y 1).val) :
    k0_pay1 (F := Ideal) x w d y = scaled X W D i := by
  rw [pay_apply_idx]
  unfold scaled
  have e1 : i 1 = y 1 := Fin.ext hi1
  rw [hd (ix2 (y 0) (0 : Fin 1)) (ix2 (i 0) (0 : Fin 1)) hi0]
  refine congrArg (· * D (ix2 (i 0) (0 : Fin 1))) (Finset.sum_congr rfl fun k _ => ?_)
  rw [hx (ix2 (y 0) k) (ix2 (i 0) k) hi0 rfl, hw, e1]

section Blocks

variable (V : (c : Dev nD) → (b : Ref sig .tc) → Buf (Elt Ideal) ((c : Thread nD τ).loc b))

/-- The index maps, decided over the 25 points: the row-tiled windows are at block (t, 0), the resident one at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Window 0's block at point t is rows 2000·t … 2000·t + 1999 of the first operand. -/
theorem blk0_apply (c : Dev nD) (t : Fin cfg0.N) (a : S2000x128.Idx) (b : S50000x128.Idx)
    (h0 : (b 0).val = t.val * 2000 + (a 0).val) (h1 : (b 1).val = (a 1).val) :
    (iblk0 V c 0 t : Vec Ideal S2000x128 .f32) a = (V c main_arg0 : S50000x128.Idx → EReal) b := by
  obtain ⟨e0, e1, -⟩ := idx_facts t
  unfold iblk0
  rw [View.read_apply]
  show V c main_arg0 _ = V c main_arg0 _
  refine congrArg (V c main_arg0) (funext fun x => Fin.ext ?_)
  match x with
  | ⟨0, _⟩ => show win0_0.index t (0 : Fin 2) * 2000 + 1 * (a 0).val = (b 0).val; rw [e0, h0]; omega
  | ⟨1, _⟩ => show win0_0.index t (1 : Fin 2) * 128 + 1 * (a 1).val = (b 1).val; rw [e1, h1]; omega

/-- Window 1's block at every point is the whole second operand. -/
theorem blk1_apply (c : Dev nD) (t : Fin cfg0.N) (a : S128x96.Idx) :
    (iblk0 V c 1 t : Vec Ideal S128x96 .f32) a = (V c main_arg2 : S128x96.Idx → EReal) a := by
  obtain ⟨-, -, e0, e1, -⟩ := idx_facts t
  unfold iblk0
  rw [View.read_apply]
  show V c main_arg2 _ = V c main_arg2 _
  refine congrArg (V c main_arg2) (funext fun x => Fin.ext ?_)
  match x with
  | ⟨0, _⟩ => show win0_1.index t (0 : Fin 2) * 128 + 1 * (a 0).val = (a 0).val; rw [e0]; omega
  | ⟨1, _⟩ => show win0_1.index t (1 : Fin 2) * 96 + 1 * (a 1).val = (a 1).val; rw [e1]; omega

/-- Window 2's block at point t is rows 2000·t … 2000·t + 1999 of the column. -/
theorem blk2_apply (c : Dev nD) (t : Fin cfg0.N) (a : S2000x1.Idx) (b : S50000x1.Idx)
    (h0 : (b 0).val = t.val * 2000 + (a 0).val) :
    (iblk0 V c 2 t : Vec Ideal S2000x1 .f32) a = (V c main_v15 : S50000x1.Idx → EReal) b := by
  obtain ⟨-, -, -, -, e0, e1, -⟩ := idx_facts t
  unfold iblk0
  rw [View.read_apply]
  show V c main_v15 _ = V c main_v15 _
  refine congrArg (V c main_v15) (funext fun x => Fin.ext ?_)
  have ha : (a 1).val < 1 := idx2_lt1 a
  have hb : (b 1).val < 1 := idx2_lt1 b
  match x with
  | ⟨0, _⟩ => show win0_2.index t (0 : Fin 2) * 2000 + 1 * (a 0).val = (b 0).val; rw [e0, h0]; omega
  | ⟨1, _⟩ => show win0_2.index t (1 : Fin 2) * 1 + 1 * (a 1).val = (b 1).val; rw [e1]; omega

end Blocks

section Array

variable (V : (c : Dev nD) → (b : Ref sig .tc) → Buf (Elt Ideal) ((c : Thread nD τ).loc b))

/-- What point t writes back is block t of the scaled product of the arrays the region finds. -/
theorem flushed_eq (c : Dev nD) (t : Fin cfg0.N) :
    (dat0 (F := Ideal) V c).flushed 3 t
      = ((cfg0.win 3).blk t).view.read (Elt Ideal) (scaled (V c main_arg0) (V c main_arg2) (V c main_v15)) := by
  show (cfg0.win 3).cut (grid0.coords t) ((dat0 (F := Ideal) V c).after 3 t) = _
  rw [after0_3]
  unfold out0_3
  rw [View.canon_unit_zero hz]
  simp only [View.ld_unit_zero (S := S2000x128) hz, View.ld_unit_zero (S := S128x96) hz, View.ld_unit_zero (S := S2000x1) hz]
  obtain ⟨-, -, -, -, -, -, e0, e1⟩ := idx_facts t
  funext j
  rw [View.read_apply]
  refine point_eq (V c main_arg0) (V c main_arg2) (V c main_v15) (iblk0 V c 0 t) (iblk0 V c 1 t) (iblk0 V c 2 t) t.val
    (fun a b h0 h1 => blk0_apply V c t a b h0 h1) (fun a => blk1_apply V c t a) (fun a b h0 => blk2_apply V c t a b h0)
    ((cfg0.win 3).xinj (grid0.coords t) j) (((cfg0.win 3).blk t).view.emb j) ?_ ?_
  · show win0_3.index t (0 : Fin 2) * 2000 + 1 * (j 0).val = t.val * 2000 + (j 0).val
    rw [e0]; omega
  · show win0_3.index t (1 : Fin 2) * 96 + 1 * (j 1).val = (j 1).val
    rw [e1]; omega

/-- An index of the result array is in point t's block iff each coordinate is in the block's range on its axis. -/
theorem mem_blk (t : Fin cfg0.N) (i : S50000x96.Idx) :
    i ∈ ((cfg0.win 3).blk t).view.set ↔ ∀ a : Fin 2, win0_3.index t a * S2000x96.size a ≤ (i a).val ∧ (i a).val < win0_3.index t a * S2000x96.size a + S2000x96.size a := by
  show i ∈ ((View.whole main_v16).slice (win0_3.rect t)).set ↔ _
  rw [View.set_slice_whole, Rect.mem_set_unit]
  exact Iff.rfl

/-- Row r is written by point r / 2000. -/
theorem cover (i : S50000x96.Idx) : ∃ t : Fin cfg0.N, (cfg0.win 3).flush t = true ∧ i ∈ ((cfg0.win 3).blk t).view.set := by
  have hN : cfg0.N = 25 := N_0
  have hi0 : (i 0).val < 50000 := idx2_lt0 i
  have hi1 : (i 1).val < 96 := idx2_lt1 i
  refine ⟨⟨(i 0).val / 2000, by rw [hN]; omega⟩, flush0_3 _, ?_⟩
  rw [mem_blk]
  obtain ⟨-, -, -, -, -, -, e0, e1⟩ := idx_facts ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 96 ≤ (i 1).val ∧ (i 1).val < win0_3.index _ (1 : Fin 2) * 96 + 96
    rw [e1]; omega

/-- The result array after the region, whole. -/
theorem final (c : Dev nD) :
    (dat0 (F := Ideal) V c).arrAt 3 cfg0.N = scaled (V c main_arg0) (V c main_arg2) (V c main_v15) :=
  (dat0 (F := Ideal) V c).arrAt_eq_of_cover 3 (scaled (V c main_arg0) (V c main_arg2) (V c main_v15))
    (fun t _ => flushed_eq V c t) cover

/-- The result array after the region at an index: row i₀ of the first operand times column i₁ of the second, scaled by
    entry i₀ of the column operand. -/
theorem scaled_rows (c : Dev nD) (i : S50000x96.Idx) :
    (dat0 (F := Ideal) V c).arrAt 3 cfg0.N i
      = @HMul.hMul EReal EReal EReal instHMul
          (∑ k : Fin 128, @HMul.hMul EReal EReal EReal instHMul (V c main_arg0 (ix2 (i 0) k)) (V c main_arg2 (ix2 k (i 1))))
          (V c main_v15 (ix2 (i 0) (0 : Fin 1))) :=
  congrFun (final V c) i

end Array

end Cert.KernelIdeal.ScaledRows

end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.LibDense.lean ====
/-
  One dense layer read at an entry.

  A dense layer sends a table x of m rows and n columns to  relu (x · w + b):  entry (a, j) of the result is
  max (Σ_k x(a, k) · w(k, j) + b(j)) 0,  the sum over the n columns of x (rows of w). Here the layer is spelt the way
  a vector unit computes one block of rows: both operands pass through a change of float format (the identity on
  the extended reals) and an identity re-shaping, the product accumulates into a zero table, the bias is a one-row
  table repeated down the rows, and the rectifier is the maximum with a table of zeros. The same value holds with
  no rectifier (lin_apply). No finiteness is assumed: only that zero is neutral for + and that the dimension
  record's contraction runs over the n positions of the shared axis.
-/
import Idealize.ShloMosaic.Lib.ValueIdx
import Idealize.ShloMosaic.Lib.ValueLayout
import Idealize.ShloMosaic.Lib.Pipeline.Value
import Idealize.ShloMosaic.PureOps.Ideal.Laws
import proofs.«149170_j81338090651993_2_alg».proof.Proof.LibDot

noncomputable section

open scoped BigOperators

namespace Cert.LibDense

open Idealize.ShloMosaic Idealize.ShloMosaic.ValueIdx

/-- A one-row table repeated down m rows: entry (a, j) is the row's entry j. -/
theorem row_apply {α : Type} {m p : Nat} (b : (⟨2, ![1, p]⟩ : Shape).Idx → α)
    (hb : (⟨2, ![1, p]⟩ : Shape).Broadcasts ⟨2, ![m, p]⟩) (a : Fin m) (j : Fin p) :
    broadcastTo ⟨2, ![m, p]⟩ b hb (ix2 a j) = b (ix2 (0 : Fin 1) j) := by
  refine broadcastTo_apply b hb (ix2 a j) (ix2 (0 : Fin 1) j) ?_
  intro x
  match x with
  | ⟨0, _⟩ => rfl
  | ⟨1, _⟩ =>
    show j.val = if p = 1 then 0 else j.val
    split
    · have := j.isLt; omega
    · rfl

/-- A one-row table repeated down m rows (after an identity re-shaping): entry (a, j) is the row's entry j. -/
theorem bias_apply {m p : Nat} (b : (⟨2, ![1, p]⟩ : Shape).Idx → EReal)
    (hc : (⟨2, ![1, p]⟩ : Shape).ShapeCasts ⟨2, ![1, p]⟩) (hb : (⟨2, ![1, p]⟩ : Shape).Broadcasts ⟨2, ![m, p]⟩)
    (a : Fin m) (j : Fin p) :
    broadcastTo ⟨2, ![m, p]⟩ (shapeCast ⟨2, ![1, p]⟩ b hc) hb (ix2 a j) = b (ix2 (0 : Fin 1) j) := by
  rw [shapeCast_self]
  refine broadcastTo_apply b hb (ix2 a j) (ix2 (0 : Fin 1) j) ?_
  intro x
  match x with
  | ⟨0, _⟩ => rfl
  | ⟨1, _⟩ =>
    show j.val = if p = 1 then 0 else j.val
    split
    · have := j.isLt; omega
    · rfl

/-- The linear part  x · w + b  of the layer at entry (a, j), the operands as they are. -/
theorem lin_core {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 x hbits) (truncf .bf16 w hbits) (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [addf_apply, bias_apply b hc hb a j]
  congr 1
  refine (Ideal.matmul_constant_zero_apply d none _ _ (ix2 a j)).trans ?_
  exact Cert.Sage.LibDot.sum_plain d hr hs hl0 hl1 hr0 hr1 (fun i => x i) (fun i => w i) a j

/-- The same with both operands passed through an identity re-shaping first. -/
theorem lin_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hx : (⟨2, ![m, n]⟩ : Shape).ShapeCasts ⟨2, ![m, n]⟩) (hw : (⟨2, ![n, p]⟩ : Shape).ShapeCasts ⟨2, ![n, p]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 (shapeCast ⟨2, ![m, n]⟩ x hx) hbits) (truncf .bf16 (shapeCast ⟨2, ![n, p]⟩ w hw) hbits)
        (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [shapeCast_self, shapeCast_self]
  exact lin_core d hr hs hl0 hl1 hr0 hr1 x w b hc hb hbits a j

/-- The same with only the left operand passed through an identity re-shaping. -/
theorem lin_apply_x {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hx : (⟨2, ![m, n]⟩ : Shape).ShapeCasts ⟨2, ![m, n]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 (shapeCast ⟨2, ![m, n]⟩ x hx) hbits) (truncf .bf16 w hbits)
        (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [shapeCast_self]
  exact lin_core d hr hs hl0 hl1 hr0 hr1 x w b hc hb hbits a j

end Cert.LibDense

end
-- ==== Proof.HeadRows.lean ====
/-
  The head region of the two-layer graph convolution, read entry by entry.

  The region walks the 50000 rows in 25 blocks of 2000. On a block it takes the aggregated messages A (2000 x 96), the
  normalizer d (2000 x 1), the first bias b1 (one row of 96) and four small weight tables, and leaves two results:

    * S(r, q) = (Σ_k h(r, k) · W2(k, q)) · d(r),                                        a table of 40 columns,
    * P(r)    = logistic (Σ_j max (Σ_k h(r, k) · Wm1(k, j) + bm1(j)) 0 · Wm2(j) + bm2),  one number per row,

  where h(r, k) = max (d(r) · A(r, k) + b1(k)) 0 is the hidden row. Every quantity at row r uses only row r of A and d,
  so the value a block computes at its row p is the value of the whole-array formula at row 2000 t + p; the 25 blocks
  tile the rows, hence each result array ends holding the formula at every index. All arithmetic is on the extended
  reals: changes of float format are the identity, a product into a zero table is the plain sum over the shared axis,
  and zero is the real number 0. Nothing is assumed about finiteness.
-/
import proofs.«149170_j81338090651993_2_alg».proof.Proof.Gen.KernelIdeal.Frame
import proofs.«149170_j81338090651993_2_alg».proof.Proof.LibDot
import proofs.«149170_j81338090651993_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.HeadRows

open Cert.KernelIdeal Cert.KernelIdeal.Gen Idealize.ShloMosaic Idealize.ShloMosaic.TcCoe Idealize.SL.Sem
open Idealize.ShloMosaic.ValueIdx
open Idealize.ShloMosaic.Pipeline (Dat)

/-- One hidden unit of the first layer: the normalizer times the aggregated message plus the bias, rectified. -/
def hidden (d : EReal) (a b : Fin 96 → EReal) (k : Fin 96) : EReal := max (d * a k + b k) 0

/-- A one-column table repeated across p columns: entry (a, j) is the column's entry a. -/
theorem col_apply {α : Type} {m p : Nat} (b : (⟨2, ![m, 1]⟩ : Shape).Idx → α)
    (hb : (⟨2, ![m, 1]⟩ : Shape).Broadcasts ⟨2, ![m, p]⟩) (a : Fin m) (j : Fin p) :
    broadcastTo ⟨2, ![m, p]⟩ b hb (ix2 a j) = b (ix2 a (0 : Fin 1)) := by
  refine broadcastTo_apply b hb (ix2 a j) (ix2 a (0 : Fin 1)) ?_
  intro x
  match x with
  | ⟨0, _⟩ =>
    show a.val = if m = 1 then 0 else a.val
    split
    · have := a.isLt; omega
    · rfl
  | ⟨1, _⟩ => rfl

/-- Entry (p, k) of the rectified first layer on one block of rows. -/
theorem pay2_apply (x0 : Vec Ideal S2000x96 .f32) (x1 : Vec Ideal S2000x1 .f32) (x2 : Vec Ideal S1x96 .f32)
    (p : Fin 2000) (k : Fin 96) :
    k1_pay2 (F := Ideal) x0 x1 x2 (ix2 p k)
      = hidden (x1 (ix2 p (0 : Fin 1))) (fun k => x0 (ix2 p k)) (fun k => x2 (ix2 (0 : Fin 1) k)) k := by
  unfold k1_pay2 k1_pay1 hidden
  refine (maximumf_apply _ _ (ix2 p k)).trans ?_
  refine congrArg₂ max ?_ Ideal.ofBits_zero_f32
  refine (addf_apply _ _ (ix2 p k)).trans ?_
  refine congrArg₂ (· + ·) ?_ ?_
  · refine (mulf_apply _ _ (ix2 p k)).trans ?_
    refine congrArg₂ (· * ·) ?_ ?_
    · rw [shapeCast_self]
      exact col_apply x1 _ p k
    · rw [shapeCast_self]
  · exact Cert.LibDense.bias_apply x2 _ _ p k

/-- Entry (p, q) of the second layer's scaled product on one block of rows. -/
theorem pay3_apply (x0 : Vec Ideal S2000x96 .f32) (x1 : Vec Ideal S2000x1 .f32) (x2 : Vec Ideal S1x96 .f32)
    (x3 : Vec Ideal S96x40 .f32) (p : Fin 2000) (q : Fin 40) :
    k1_pay3 (F := Ideal) x0 x1 x2 x3 (ix2 p q)
      = (∑ k : Fin 96, hidden (x1 (ix2 p (0 : Fin 1))) (fun k => x0 (ix2 p k)) (fun k => x2 (ix2 (0 : Fin 1) k)) k * x3 (ix2 k q))
          * x1 (ix2 p (0 : Fin 1)) := by
  unfold k1_pay3 k1_pay1
  refine (mulf_apply _ _ (ix2 p q)).trans ?_
  refine congrArg₂ (· * ·) ?_ ?_
  · refine (Ideal.matmul_constant_zero_apply dot_S2000x96_S96x40_S2000x40_1_0_0_1_n_n none _ _ (ix2 p q)).trans ?_
    refine (Cert.Sage.LibDot.sum_plain dot_S2000x96_S96x40_S2000x40_1_0_0_1_n_n rfl rfl (fun _ _ => rfl) (fun _ _ => rfl) (fun _ _ => rfl) (fun _ _ => rfl)
      (fun i => k1_pay2 (F := Ideal) x0 x1 x2 i) (fun i => x3 i) p q).trans ?_
    exact Finset.sum_congr rfl fun k _ => congrArg (· * x3 (ix2 k q)) (pay2_apply x0 x1 x2 p k)
  · rw [shapeCast_self]
    exact col_apply x1 _ p q

/-- Entry (p, 0) of the probability head on one block of rows. -/
theorem pay4_apply (x0 : Vec Ideal S2000x96 .f32) (x1 : Vec Ideal S2000x1 .f32) (x2 : Vec Ideal S1x96 .f32)
    (x4 : Vec Ideal S96x64 .f32) (x5 : Vec Ideal S1x64 .f32) (x6 : Vec Ideal S64x1 .f32) (x7 : Vec Ideal S1x1 .f32)
    (p : Fin 2000) (z : Fin 1) :
    k1_pay4 (F := Ideal) x0 x1 x2 x4 x5 x6 x7 (ix2 p z)
      = Ideal.logistic ((∑ j : Fin 64,
            max ((∑ k : Fin 96, hidden (x1 (ix2 p (0 : Fin 1))) (fun k => x0 (ix2 p k)) (fun k => x2 (ix2 (0 : Fin 1) k)) k * x4 (ix2 k j))
                + x5 (ix2 (0 : Fin 1) j)) 0 * x6 (ix2 j z))
          + x7 (ix2 (0 : Fin 1) z)) := by
  unfold k1_pay4
  show Ideal.logistic _ = _
  refine congrArg Ideal.logistic ?_
  refine (addf_apply _ _ (ix2 p z)).trans ?_
  refine congrArg₂ (· + ·) ?_ (Cert.LibDense.bias_apply x7 _ _ p z)
  refine (Ideal.matmul_constant_zero_apply dot_S2000x64_S64x1_S2000x1_1_0_0_1_n_n (some .fp32) _ _ (ix2 p z)).trans ?_
  refine (Cert.Sage.LibDot.sum_plain dot_S2000x64_S64x1_S2000x1_1_0_0_1_n_n rfl rfl (fun _ _ => rfl) (fun _ _ => rfl) (fun _ _ => rfl) (fun _ _ => rfl)
    _ (fun i => x6 i) p z).trans ?_
  refine Finset.sum_congr rfl fun j _ => congrArg (· * x6 (ix2 j z)) ?_
  refine (maximumf_apply _ _ (ix2 p j)).trans ?_
  refine congrArg₂ max ?_ Ideal.ofBits_zero_f32
  refine (addf_apply _ _ (ix2 p j)).trans ?_
  refine congrArg₂ (· + ·) ?_ (Cert.LibDense.bias_apply x5 _ _ p j)
  refine (Ideal.matmul_constant_zero_apply dot_S2000x96_S96x64_S2000x64_1_0_0_1_n_n (some .fp32) _ _ (ix2 p j)).trans ?_
  refine (Cert.Sage.LibDot.sum_plain dot_S2000x96_S96x64_S2000x64_1_0_0_1_n_n rfl rfl (fun _ _ => rfl) (fun _ _ => rfl) (fun _ _ => rfl) (fun _ _ => rfl)
    (fun i => k1_pay2 (F := Ideal) x0 x1 x2 i) (fun i => x4 i) p j).trans ?_
  exact Finset.sum_congr rfl fun k _ => congrArg (· * x4 (ix2 k j)) (pay2_apply x0 x1 x2 p k)

variable (V : (c : Dev nD) → (b : Ref sig .tc) → Buf (Elt Ideal) ((c : Thread nD τ).loc b))

theorem hz : (![0, 0] : Fin 2 → Nat) = fun _ => 0 := funext fun a => by fin_cases a <;> rfl

theorem hN : cfg1.N = 25 := N_1

/-! The block index maps, decided once over the 25 points: a row-tiled window's block at point t is block (t, 0);
    a resident window's block is always block (0, 0). -/

theorem idx0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
theorem idx8 : ∀ t : Fin cfg1.N, win1_8.index t (0 : Fin 2) = t.val ∧ win1_8.index t (1 : Fin 2) = 0 :=
  (by decide +kernel : ∀ t : Fin grid1.N, win1_8.index t (0 : Fin 2) = t.val ∧ win1_8.index t (1 : Fin 2) = 0)
theorem idx9 : ∀ t : Fin cfg1.N, win1_9.index t (0 : Fin 2) = t.val ∧ win1_9.index t (1 : Fin 2) = 0 :=
  (by decide +kernel : ∀ t : Fin grid1.N, win1_9.index t (0 : Fin 2) = t.val ∧ win1_9.index t (1 : Fin 2) = 0)

/-! Each input window's block read at an index: rows 2000 t … 2000 t + 1999 of a row-tiled array, the whole of a
    resident one. -/

theorem blk0_apply (c : Dev nD) (t : Fin cfg1.N) (x : S2000x96.Idx) (i : S50000x96.Idx)
    (h0 : (i 0).val = 2000 * t.val + (x 0).val) (h1 : (i 1).val = (x 1).val) :
    (iblk1 V c 0 t : Vec Ideal S2000x96 .f32) x = (V c main_v27 : S50000x96.Idx → EReal) i := by
  obtain ⟨e0, e1⟩ := idx0 t
  unfold iblk1
  rw [View.read_apply]
  show V c main_v27 _ = V c main_v27 _
  congr 1
  funext a
  apply Fin.ext
  match a with
  | ⟨0, _⟩ => show win1_0.index t (0 : Fin 2) * 2000 + 1 * (x 0).val = (i 0).val; rw [e0, h0]; omega
  | ⟨1, _⟩ => show win1_0.index t (1 : Fin 2) * 96 + 1 * (x 1).val = (i 1).val; rw [e1, h1]; omega

theorem blk1_apply (c : Dev nD) (t : Fin cfg1.N) (x : S2000x1.Idx) (i : S50000x1.Idx)
    (h0 : (i 0).val = 2000 * t.val + (x 0).val) (h1 : (i 1).val = (x 1).val) :
    (iblk1 V c 1 t : Vec Ideal S2000x1 .f32) x = (V c main_v15 : S50000x1.Idx → EReal) i := by
  obtain ⟨e0, e1⟩ := idx1 t
  unfold iblk1
  rw [View.read_apply]
  show V c main_v15 _ = V c main_v15 _
  congr 1
  funext a
  apply Fin.ext
  match a with
  | ⟨0, _⟩ => show win1_1.index t (0 : Fin 2) * 2000 + 1 * (x 0).val = (i 0).val; rw [e0, h0]; omega
  | ⟨1, _⟩ => show win1_1.index t (1 : Fin 2) * 1 + 1 * (x 1).val = (i 1).val; rw [e1, h1]; omega

theorem blk2_apply (c : Dev nD) (t : Fin cfg1.N) (x : S1x96.Idx) :
    (iblk1 V c 2 t : Vec Ideal S1x96 .f32) x = (V c main_v28 : S1x96.Idx → EReal) x := by
  obtain ⟨e0, e1⟩ := idx2 t
  unfold iblk1
  rw [View.read_apply]
  show V c main_v28 _ = V c main_v28 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 96 + 1 * (x 1).val = (x 1).val; rw [e1]; omega

theorem blk3_apply (c : Dev nD) (t : Fin cfg1.N) (x : S96x40.Idx) :
    (iblk1 V c 3 t : Vec Ideal S96x40 .f32) x = (V c main_arg4 : S96x40.Idx → EReal) x := by
  obtain ⟨e0, e1⟩ := idx3 t
  unfold iblk1
  rw [View.read_apply]
  show V c main_arg4 _ = V c main_arg4 _
  congr 1
  funext a
  apply Fin.ext
  match a with
  | ⟨0, _⟩ => show win1_3.index t (0 : Fin 2) * 96 + 1 * (x 0).val = (x 0).val; rw [e0]; omega
  | ⟨1, _⟩ => show win1_3.index t (1 : Fin 2) * 40 + 1 * (x 1).val = (x 1).val; rw [e1]; omega

theorem blk4_apply (c : Dev nD) (t : Fin cfg1.N) (x : S96x64.Idx) :
    (iblk1 V c 4 t : Vec Ideal S96x64 .f32) x = (V c main_arg6 : S96x64.Idx → EReal) x := by
  obtain ⟨e0, e1⟩ := idx4 t
  unfold iblk1
  rw [View.read_apply]
  show V c main_arg6 _ = V c main_arg6 _
  congr 1
  funext a
  apply Fin.ext
  match a with
  | ⟨0, _⟩ => show win1_4.index t (0 : Fin 2) * 96 + 1 * (x 0).val = (x 0).val; rw [e0]; omega
  | ⟨1, _⟩ => show win1_4.index t (1 : Fin 2) * 64 + 1 * (x 1).val = (x 1).val; rw [e1]; omega

theorem blk5_apply (c : Dev nD) (t : Fin cfg1.N) (x : S1x64.Idx) :
    (iblk1 V c 5 t : Vec Ideal S1x64 .f32) x = (V c main_v29 : S1x64.Idx → EReal) x := by
  obtain ⟨e0, e1⟩ := idx5 t
  unfold iblk1
  rw [View.read_apply]
  show V c main_v29 _ = V c main_v29 _
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 64 + 1 * (x 1).val = (x 1).val; rw [e1]; omega

theorem blk6_apply (c : Dev nD) (t : Fin cfg1.N) (x : S64x1.Idx) :
    (iblk1 V c 6 t : Vec Ideal S64x1 .f32) x = (V c main_arg8 : S64x1.Idx → EReal) x := by
  obtain ⟨e0, e1⟩ := idx6 t
  unfold iblk1
  rw [View.read_apply]
  show V c main_arg8 _ = V c main_arg8 _
  congr 1
  funext a
  apply Fin.ext
  match a with
  | ⟨0, _⟩ => show win1_6.index t (0 : Fin 2) * 64 + 1 * (x 0).val = (x 0).val; rw [e0]; omega
  | ⟨1, _⟩ => show win1_6.index t (1 : Fin 2) * 1 + 1 * (x 1).val = (x 1).val; rw [e1]; omega

theorem blk7_apply (c : Dev nD) (t : Fin cfg1.N) (x : S1x1.Idx) :
    (iblk1 V c 7 t : Vec Ideal S1x1 .f32) x = (V c main_v30 : S1x1.Idx → EReal) x := by
  obtain ⟨e0, e1⟩ := idx7 t
  unfold iblk1
  rw [View.read_apply]
  show V c main_v30 _ = V c main_v30 _
  congr 1
  funext a
  apply Fin.ext
  match a with
  | ⟨0, _⟩ => show win1_7.index t (0 : Fin 2) * 1 + 1 * (x 0).val = (x 0).val; rw [e0]; omega
  | ⟨1, _⟩ => show win1_7.index t (1 : Fin 2) * 1 + 1 * (x 1).val = (x 1).val; rw [e1]; omega

/-! ## Output window 8: the second layer's product, scaled by the normalizer -/

/-- Row r, column q of the result: the hidden row times column q of the second weight table, times the row's normalizer. -/
def scaledRow (c : Dev nD) (r : Fin 50000) (q : Fin 40) : EReal :=
  (∑ k : Fin 96, hidden ((V c main_v15 : S50000x1.Idx → EReal) (ix2 r (0 : Fin 1)))
      (fun k => (V c main_v27 : S50000x96.Idx → EReal) (ix2 r k))
      (fun k => (V c main_v28 : S1x96.Idx → EReal) (ix2 (0 : Fin 1) k)) k
    * (V c main_arg4 : S96x40.Idx → EReal) (ix2 k q))
  * (V c main_v15 : S50000x1.Idx → EReal) (ix2 r (0 : Fin 1))

/-- What point t stores at (p, q) of its block is the result at row 2000 t + p. -/
theorem out8_at (c : Dev nD) (t : Fin cfg1.N) (p : Fin 2000) (q : Fin 40) (r : Fin 50000) (q' : Fin 40)
    (hr : r.val = 2000 * t.val + p.val) (hq : q'.val = q.val) :
    k1_pay3 (F := Ideal) (iblk1 V c 0 t) (iblk1 V c 1 t) (iblk1 V c 2 t) (iblk1 V c 3 t) (ix2 p q) = scaledRow V c r q' := by
  obtain rfl : q = q' := Fin.ext hq.symm
  refine (pay3_apply (iblk1 V c 0 t) (iblk1 V c 1 t) (iblk1 V c 2 t) (iblk1 V c 3 t) p q).trans ?_
  have e1 : (iblk1 V c 1 t : Vec Ideal S2000x1 .f32) (ix2 p (0 : Fin 1)) = (V c main_v15 : S50000x1.Idx → EReal) (ix2 r (0 : Fin 1)) :=
    blk1_apply V c t (ix2 p (0 : Fin 1)) (ix2 r (0 : Fin 1)) hr rfl
  have e0 : (fun k : Fin 96 => (iblk1 V c 0 t : Vec Ideal S2000x96 .f32) (ix2 p k)) = fun k => (V c main_v27 : S50000x96.Idx → EReal) (ix2 r k) :=
    funext fun k => blk0_apply V c t (ix2 p k) (ix2 r k) hr rfl
  have e2 : (fun k : Fin 96 => (iblk1 V c 2 t : Vec Ideal S1x96 .f32) (ix2 (0 : Fin 1) k)) = fun k => (V c main_v28 : S1x96.Idx → EReal) (ix2 (0 : Fin 1) k) :=
    funext fun k => blk2_apply V c t (ix2 (0 : Fin 1) k)
  have e3 : ∀ k : Fin 96, (iblk1 V c 3 t : Vec Ideal S96x40 .f32) (ix2 k q) = (V c main_arg4 : S96x40.Idx → EReal) (ix2 k q) :=
    fun k => blk3_apply V c t (ix2 k q)
  unfold scaledRow
  rw [e1, e0, e2]
  exact congrArg (· * _) (Finset.sum_congr rfl fun k _ => congrArg (_ * ·) (e3 k))

/-- What the window's array ends holding, index by index. -/
def G8 (c : Dev nD) : S50000x40.Idx → EReal := fun i => scaledRow V c (i 0) (i 1)

/-- Point t writes back block t of that function. -/
theorem flushed8_eq (c : Dev nD) (t : Fin cfg1.N) :
    (dat1 (F := Ideal) V c).flushed 8 t = ((cfg1.win 8).blk t).view.read (Elt Ideal) (G8 V c) := by
  show (cfg1.win 8).cut (grid1.coords t) ((dat1 (F := Ideal) V c).after 8 t) = _
  rw [after1_8]
  unfold out1_8
  rw [View.canon_unit_zero hz]
  simp only [View.ld_unit_zero (S := S2000x96) hz, View.ld_unit_zero (S := S2000x1) hz, View.ld_unit_zero (S := S1x96) hz,
    View.ld_unit_zero (S := S96x40) hz]
  obtain ⟨e0, e1⟩ := idx8 t
  funext y
  show k1_pay3 (F := Ideal) (iblk1 V c 0 t) (iblk1 V c 1 t) (iblk1 V c 2 t) (iblk1 V c 3 t) y
    = scaledRow V c ((((cfg1.win 8).blk t).view.emb y) 0) ((((cfg1.win 8).blk t).view.emb y) 1)
  refine (congrArg (k1_pay3 (F := Ideal) (iblk1 V c 0 t) (iblk1 V c 1 t) (iblk1 V c 2 t) (iblk1 V c 3 t))
    (eq_ix2 (n0 := 2000) (n1 := 40) y)).trans ?_
  exact out8_at V c t (y 0) (y 1) _ _
    (by show win1_8.index t (0 : Fin 2) * 2000 + 1 * (y 0).val = 2000 * t.val + (y 0).val; rw [e0]; omega)
    (by show win1_8.index t (1 : Fin 2) * 40 + 1 * (y 1).val = (y 1).val; rw [e1]; omega)

/-- An index is in point t's block exactly when each coordinate is in the block's range on its axis. -/
theorem mem_blk8 (t : Fin cfg1.N) (i : S50000x40.Idx) :
    i ∈ ((cfg1.win 8).blk t).view.set ↔ ∀ a : Fin 2, win1_8.index t a * S2000x40.size a ≤ (i a).val
      ∧ (i a).val < win1_8.index t a * S2000x40.size a + S2000x40.size a := by
  show i ∈ ((View.whole main_v31_0).slice (win1_8.rect t)).set ↔ _
  rw [View.set_slice_whole, Rect.mem_set_unit]
  exact Iff.rfl

/-- Row r is in the block of point r / 2000. -/
theorem cover8 (i : S50000x40.Idx) :
    ∃ t : Fin cfg1.N, (cfg1.win 8).flush t = true ∧ i ∈ ((cfg1.win 8).blk t).view.set := by
  have hi0 : (i 0).val < 50000 := (i 0).isLt
  have hi1 : (i 1).val < 40 := (i 1).isLt
  have hn := hN
  refine ⟨⟨(i 0).val / 2000, by omega⟩, flush1_8 _, ?_⟩
  rw [mem_blk8]
  obtain ⟨e0, e1⟩ := idx8 ⟨(i 0).val / 2000, by omega⟩
  intro a
  match a with
  | ⟨0, _⟩ =>
    show win1_8.index ⟨(i 0).val / 2000, _⟩ (0 : Fin 2) * 2000 ≤ (i 0).val
      ∧ (i 0).val < win1_8.index ⟨(i 0).val / 2000, _⟩ (0 : Fin 2) * 2000 + 2000
    rw [e0]
    show (i 0).val / 2000 * 2000 ≤ (i 0).val ∧ (i 0).val < (i 0).val / 2000 * 2000 + 2000
    omega
  | ⟨1, _⟩ =>
    show win1_8.index ⟨(i 0).val / 2000, _⟩ (1 : Fin 2) * 40 ≤ (i 1).val
      ∧ (i 1).val < win1_8.index ⟨(i 0).val / 2000, _⟩ (1 : Fin 2) * 40 + 40
    rw [e1]
    omega

/-- The blocks tile the array, so it ends holding that function. -/
theorem final8 (c : Dev nD) : (dat1 (F := Ideal) V c).arrAt 8 cfg1.N = G8 V c :=
  (dat1 (F := Ideal) V c).arrAt_eq_of_cover 8 (G8 V c) (fun t _ => flushed8_eq V c t) cover8

/-- The first output array after the region, entry by entry. -/
theorem hidden_scaled_rows (c : Dev nD) (i : S50000x40.Idx) :
    ((dat1 (F := Ideal) V c).arrAt 8 cfg1.N : S50000x40.Idx → EReal) i
      = (∑ k : Fin 96, hidden ((V c main_v15 : S50000x1.Idx → EReal) (ix2 (i 0) (0 : Fin 1)))
            (fun k => (V c main_v27 : S50000x96.Idx → EReal) (ix2 (i 0) k))
            (fun k => (V c main_v28 : S1x96.Idx → EReal) (ix2 (0 : Fin 1) k)) k
          * (V c main_arg4 : S96x40.Idx → EReal) (ix2 k (i 1)))
        * (V c main_v15 : S50000x1.Idx → EReal) (ix2 (i 0) (0 : Fin 1)) :=
  congrFun (final8 V c) i

/-! ## Output window 9: the probability head -/

/-- Row r of the result: the hidden row through a rectified layer of 64 units, a linear layer to one number, and the
    logistic function. -/
def probRow (c : Dev nD) (r : Fin 50000) : EReal :=
  Ideal.logistic ((∑ j : Fin 64,
      max ((∑ k : Fin 96, hidden ((V c main_v15 : S50000x1.Idx → EReal) (ix2 r (0 : Fin 1)))
              (fun k => (V c main_v27 : S50000x96.Idx → EReal) (ix2 r k))
              (fun k => (V c main_v28 : S1x96.Idx → EReal) (ix2 (0 : Fin 1) k)) k
            * (V c main_arg6 : S96x64.Idx → EReal) (ix2 k j))
          + (V c main_v29 : S1x64.Idx → EReal) (ix2 (0 : Fin 1) j)) 0
        * (V c main_arg8 : S64x1.Idx → EReal) (ix2 j (0 : Fin 1)))
    + (V c main_v30 : S1x1.Idx → EReal) (ix2 (0 : Fin 1) (0 : Fin 1)))

/-- What point t stores at row p of its block is the result at row 2000 t + p. -/
theorem out9_at (c : Dev nD) (t : Fin cfg1.N) (p : Fin 2000) (z : Fin 1) (r : Fin 50000)
    (hr : r.val = 2000 * t.val + p.val) :
    k1_pay4 (F := Ideal) (iblk1 V c 0 t) (iblk1 V c 1 t) (iblk1 V c 2 t) (iblk1 V c 4 t) (iblk1 V c 5 t) (iblk1 V c 6 t)
      (iblk1 V c 7 t) (ix2 p z) = probRow V c r := by
  obtain rfl : z = 0 := Subsingleton.elim _ _
  refine (pay4_apply (iblk1 V c 0 t) (iblk1 V c 1 t) (iblk1 V c 2 t) (iblk1 V c 4 t) (iblk1 V c 5 t) (iblk1 V c 6 t)
    (iblk1 V c 7 t) p (0 : Fin 1)).trans ?_
  have e1 : (iblk1 V c 1 t : Vec Ideal S2000x1 .f32) (ix2 p (0 : Fin 1)) = (V c main_v15 : S50000x1.Idx → EReal) (ix2 r (0 : Fin 1)) :=
    blk1_apply V c t (ix2 p (0 : Fin 1)) (ix2 r (0 : Fin 1)) hr rfl
  have e0 : (fun k : Fin 96 => (iblk1 V c 0 t : Vec Ideal S2000x96 .f32) (ix2 p k)) = fun k => (V c main_v27 : S50000x96.Idx → EReal) (ix2 r k) :=
    funext fun k => blk0_apply V c t (ix2 p k) (ix2 r k) hr rfl
  have e2 : (fun k : Fin 96 => (iblk1 V c 2 t : Vec Ideal S1x96 .f32) (ix2 (0 : Fin 1) k)) = fun k => (V c main_v28 : S1x96.Idx → EReal) (ix2 (0 : Fin 1) k) :=
    funext fun k => blk2_apply V c t (ix2 (0 : Fin 1) k)
  have e4 : ∀ (k : Fin 96) (j : Fin 64), (iblk1 V c 4 t : Vec Ideal S96x64 .f32) (ix2 k j) = (V c main_arg6 : S96x64.Idx → EReal) (ix2 k j) :=
    fun k j => blk4_apply V c t (ix2 k j)
  have e5 : ∀ j : Fin 64, (iblk1 V c 5 t : Vec Ideal S1x64 .f32) (ix2 (0 : Fin 1) j) = (V c main_v29 : S1x64.Idx → EReal) (ix2 (0 : Fin 1) j) :=
    fun j => blk5_apply V c t (ix2 (0 : Fin 1) j)
  have e6 : ∀ j : Fin 64, (iblk1 V c 6 t : Vec Ideal S64x1 .f32) (ix2 j (0 : Fin 1)) = (V c main_arg8 : S64x1.Idx → EReal) (ix2 j (0 : Fin 1)) :=
    fun j => blk6_apply V c t (ix2 j (0 : Fin 1))
  have e7 : (iblk1 V c 7 t : Vec Ideal S1x1 .f32) (ix2 (0 : Fin 1) (0 : Fin 1)) = (V c main_v30 : S1x1.Idx → EReal) (ix2 (0 : Fin 1) (0 : Fin 1)) :=
    blk7_apply V c t (ix2 (0 : Fin 1) (0 : Fin 1))
  unfold probRow
  rw [e1, e0, e2, e7]
  refine congrArg Ideal.logistic (congrArg (· + _) (Finset.sum_congr rfl fun j _ => ?_))
  rw [e6 j, e5 j]
  exact congrArg (· * _) (congrArg (max · 0) (congrArg (· + _) (Finset.sum_congr rfl fun k _ => congrArg (_ * ·) (e4 k j))))

/-- What the window's array ends holding, index by index. -/
def G9 (c : Dev nD) : S50000x1.Idx → EReal := fun i => probRow V c (i 0)

/-- Point t writes back block t of that function. -/
theorem flushed9_eq (c : Dev nD) (t : Fin cfg1.N) :
    (dat1 (F := Ideal) V c).flushed 9 t = ((cfg1.win 9).blk t).view.read (Elt Ideal) (G9 V c) := by
  show (cfg1.win 9).cut (grid1.coords t) ((dat1 (F := Ideal) V c).after 9 t) = _
  rw [after1_9]
  unfold out1_9
  rw [View.canon_unit_zero hz]
  simp only [View.ld_unit_zero (S := S2000x96) hz, View.ld_unit_zero (S := S2000x1) hz, View.ld_unit_zero (S := S1x96) hz,
    View.ld_unit_zero (S := S96x64) hz, View.ld_unit_zero (S := S1x64) hz, View.ld_unit_zero (S := S64x1) hz,
    View.ld_unit_zero (S := S1x1) hz]
  obtain ⟨e0, e1⟩ := idx9 t
  funext y
  show k1_pay4 (F := Ideal) (iblk1 V c 0 t) (iblk1 V c 1 t) (iblk1 V c 2 t) (iblk1 V c 4 t) (iblk1 V c 5 t) (iblk1 V c 6 t)
      (iblk1 V c 7 t) y
    = probRow V c ((((cfg1.win 9).blk t).view.emb y) 0)
  refine (congrArg (k1_pay4 (F := Ideal) (iblk1 V c 0 t) (iblk1 V c 1 t) (iblk1 V c 2 t) (iblk1 V c 4 t) (iblk1 V c 5 t)
    (iblk1 V c 6 t) (iblk1 V c 7 t)) (eq_ix2 (n0 := 2000) (n1 := 1) y)).trans ?_
  exact out9_at V c t (y 0) (y 1) _
    (by show win1_9.index t (0 : Fin 2) * 2000 + 1 * (y 0).val = 2000 * t.val + (y 0).val; rw [e0]; omega)

/-- An index is in point t's block exactly when each coordinate is in the block's range on its axis. -/
theorem mem_blk9 (t : Fin cfg1.N) (i : S50000x1.Idx) :
    i ∈ ((cfg1.win 9).blk t).view.set ↔ ∀ a : Fin 2, win1_9.index t a * S2000x1.size a ≤ (i a).val
      ∧ (i a).val < win1_9.index t a * S2000x1.size a + S2000x1.size a := by
  show i ∈ ((View.whole main_v31_1).slice (win1_9.rect t)).set ↔ _
  rw [View.set_slice_whole, Rect.mem_set_unit]
  exact Iff.rfl

/-- Row r is in the block of point r / 2000. -/
theorem cover9 (i : S50000x1.Idx) :
    ∃ t : Fin cfg1.N, (cfg1.win 9).flush t = true ∧ i ∈ ((cfg1.win 9).blk t).view.set := by
  have hi0 : (i 0).val < 50000 := (i 0).isLt
  have hi1 : (i 1).val < 1 := (i 1).isLt
  have hn := hN
  refine ⟨⟨(i 0).val / 2000, by omega⟩, flush1_9 _, ?_⟩
  rw [mem_blk9]
  obtain ⟨e0, e1⟩ := idx9 ⟨(i 0).val / 2000, by omega⟩
  intro a
  match a with
  | ⟨0, _⟩ =>
    show win1_9.index ⟨(i 0).val / 2000, _⟩ (0 : Fin 2) * 2000 ≤ (i 0).val
      ∧ (i 0).val < win1_9.index ⟨(i 0).val / 2000, _⟩ (0 : Fin 2) * 2000 + 2000
    rw [e0]
    show (i 0).val / 2000 * 2000 ≤ (i 0).val ∧ (i 0).val < (i 0).val / 2000 * 2000 + 2000
    omega
  | ⟨1, _⟩ =>
    show win1_9.index ⟨(i 0).val / 2000, _⟩ (1 : Fin 2) * 1 ≤ (i 1).val
      ∧ (i 1).val < win1_9.index ⟨(i 0).val / 2000, _⟩ (1 : Fin 2) * 1 + 1
    rw [e1]
    omega

/-- The blocks tile the array, so it ends holding that function. -/
theorem final9 (c : Dev nD) : (dat1 (F := Ideal) V c).arrAt 9 cfg1.N = G9 V c :=
  (dat1 (F := Ideal) V c).arrAt_eq_of_cover 9 (G9 V c) (fun t _ => flushed9_eq V c t) cover9

/-- The second output array after the region, entry by entry. -/
theorem prob_rows (c : Dev nD) (i : S50000x1.Idx) :
    ((dat1 (F := Ideal) V c).arrAt 9 cfg1.N : S50000x1.Idx → EReal) i
      = Ideal.logistic ((∑ j : Fin 64,
            max ((∑ k : Fin 96, hidden ((V c main_v15 : S50000x1.Idx → EReal) (ix2 (i 0) (0 : Fin 1)))
                    (fun k => (V c main_v27 : S50000x96.Idx → EReal) (ix2 (i 0) k))
                    (fun k => (V c main_v28 : S1x96.Idx → EReal) (ix2 (0 : Fin 1) k)) k
                  * (V c main_arg6 : S96x64.Idx → EReal) (ix2 k j))
                + (V c main_v29 : S1x64.Idx → EReal) (ix2 (0 : Fin 1) j)) 0
              * (V c main_arg8 : S64x1.Idx → EReal) (ix2 j (0 : Fin 1)))
          + (V c main_v30 : S1x1.Idx → EReal) (ix2 (0 : Fin 1) (0 : Fin 1))) :=
  congrFun (final9 V c) i

end Cert.HeadRows

end
-- ==== Proof.LibGcnSpec.lean ====
/-
  The algebra of a normalized neighbourhood sum, on the extended reals.

  A node's normalizer is  s = 1/sqrt(max(deg, c))  where its degree deg is positive, and 0 elsewhere. Whatever deg is
  (a real, or an infinity), s is a nonnegative extended real other than +infinity: where deg > 0 the maximum is at least
  deg, so it is positive or +infinity, and the reciprocal square root of such a number is a nonnegative real.

  Multiplication by such a number distributes over an initial value plus a finite sum, with no finiteness assumed of
  the summands. Hence scaling every message by the receiver's normalizer before summing, or scaling the sum afterwards,
  give the same aggregate; the sender's normalizer and the edge weight only move inside a commutative product:
      s_d * (0 + sum_j (h_j * s_j) * w_j) + b  =  (0 + sum_j h_j * ((s_j * w_j) * s_d)) + b.
-/
import Idealize.ShloMosaic.PureOps.Ideal
import Mathlib.Data.EReal.Operations

noncomputable section

open scoped BigOperators

namespace Cert.GcnSpec

open Idealize.ShloMosaic

/-- A nonnegative extended real other than +infinity multiplies through an initial value plus a finite sum. -/
theorem mul_add_sum {ι : Type} (a : EReal) (h0 : 0 ≤ a) (ht : a ≠ ⊤) (x : EReal) (s : Finset ι) (f : ι → EReal) :
    a * (x + ∑ j ∈ s, f j) = a * x + ∑ j ∈ s, a * f j := by
  classical
  induction s using Finset.induction_on with
  | empty => simp
  | insert b s hb ih =>
    rw [Finset.sum_insert hb, Finset.sum_insert hb, add_left_comm, EReal.left_distrib_of_nonneg_of_ne_top h0 ht, ih,
      add_left_comm]

/-- Scaling the summed messages by the receiver's normalizer equals summing messages that each carry it. -/
theorem agg_eq {ι : Type} (s : Finset ι) (sd : EReal) (h0 : 0 ≤ sd) (ht : sd ≠ ⊤) (h ss w : ι → EReal) (b : EReal) :
    sd * (0 + ∑ j ∈ s, (h j * ss j) * w j) + b = (0 + ∑ j ∈ s, h j * ((ss j * w j) * sd)) + b := by
  rw [mul_add_sum sd h0 ht, mul_zero]
  congr 2
  refine Finset.sum_congr rfl fun j _ => ?_
  ac_rfl

/-- The reciprocal square root of a positive extended real is a nonnegative real. -/
theorem rsqrt_pos_bounds {y : EReal} (hy : 0 < y) : 0 ≤ Ideal.rsqrt y ∧ Ideal.rsqrt y ≠ ⊤ := by
  induction y using EReal.rec with
  | bot => exact absurd hy (by simp)
  | top => rw [Ideal.rsqrt_top]; exact ⟨le_refl _, EReal.zero_ne_top⟩
  | coe r =>
    have hr : 0 < r := by exact_mod_cast hy
    rw [Ideal.rsqrt_coe, if_neg (not_lt.mpr hr.le), if_neg hr.ne']
    exact ⟨by exact_mod_cast inv_nonneg.mpr (Real.sqrt_nonneg r), EReal.coe_ne_top _⟩

/-- The normalizer: the reciprocal square root of max(deg, c) where deg > 0, and 0 elsewhere — a nonnegative extended
    real other than +infinity, whatever deg and c are. -/
theorem normalizer_bounds (deg c : EReal) :
    0 ≤ Scalar.select (Ideal.cmp .ogt deg 0) (Ideal.rsqrt (max deg c)) 0
      ∧ Scalar.select (Ideal.cmp .ogt deg 0) (Ideal.rsqrt (max deg c)) 0 ≠ ⊤ := by
  unfold Scalar.select Ideal.cmp
  by_cases h : (0 : EReal) < deg
  · have e : BitVec.ofBool (decide ((0 : EReal) < deg)) = 1 := by simp [h]
    rw [if_pos e]
    exact rsqrt_pos_bounds (lt_of_lt_of_le h (le_max_left _ _))
  · have e : BitVec.ofBool (decide ((0 : EReal) < deg)) ≠ 1 := by simp [h]
    rw [if_neg e]
    exact ⟨le_refl _, EReal.zero_ne_top⟩

end Cert.GcnSpec

end
-- ==== Proof.LibRowIndex.lean ====
/-
  Where a row gather reads and where a row scatter lands, for index arrays of shape [E, 1].

  Taking rows of an [N, C] table (or entries of a length-N vector) at start indices laid out as an [E, 1] array reads,
  for result row e, the operand's row  min(toNat(idx[e, 0] read signed), N - 1): the start index is clamped into the
  operand. A scatter of [E, C] updates into an [N, C] operand at scatter indices laid out the same way sends update
  (e, c) to row idx[e, 0] read signed and NOT clamped, so an update lands on row r only when idx[e, 0] is exactly r.
  Consequently an index that lands somewhere is non-negative and below N, is left alone by the usual wrap-around of
  negative indices (add N when negative), and a gather at it reads the row it lands on.
-/
import Idealize.ShloMosaic.PureOps.ShapeOps
import Idealize.ShloMosaic.Lib.ValueIdx

noncomputable section

namespace Cert.GcnIndex

open Idealize.ShloMosaic Idealize.ShloMosaic.ValueIdx

variable {N E C w : Nat}

/-- Dimension numbers of taking whole rows of an [N, C] table at [E, 1] start indices. -/
abbrev rowGather (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of taking entries of a length-N vector at [E, 1] start indices. -/
abbrev vecGather (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of scattering [E, C] update rows into an [N, C] table at [E, 1] scatter indices. -/
abbrev rowScatter (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row a row gather reads for result position j: the start index of j's row, read signed and clamped. -/
theorem rowGather_row (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    ((rowGather wf).operandIdx j idx 0).val = min (idx (ix2 (j 0) (0 : Fin 1))).toInt.toNat (N - 1) := by
  show (rowGather wf).start j idx 0 + (rowGather wf).batchCoord j 0 + (rowGather wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather wf).startIndexMap from List.mem_singleton.mpr rfl)]
  have hsi : (rowGather wf).siIdx j ⟨List.idxOf (0 : Fin 2) (rowGather wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The entry a vector gather reads for result position j: the same clamped start index. -/
theorem vecGather_row (wf : GatherDims.WF ⟨1, ![N]⟩ ⟨2, ![E, 1]⟩ ⟨1, ![E]⟩ [] [0] [] [0] [] 1 ![1])
    (idx : IVec ⟨2, ![E, 1]⟩ w) (j : (⟨1, ![E]⟩ : Shape).Idx) :
    ((vecGather wf).operandIdx j idx 0).val = min (idx (ix2 (j 0) (0 : Fin 1))).toInt.toNat (N - 1) := by
  show (vecGather wf).start j idx 0 + (vecGather wf).batchCoord j 0 + (vecGather wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather wf).startIndexMap from List.mem_singleton.mpr rfl)]
  have hsi : (vecGather wf).siIdx j ⟨List.idxOf (0 : Fin 1) (vecGather wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- An update that lands on operand position i has, as its row's scatter index read signed, exactly i's row. -/
theorem rowScatter_lands (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatter wf).resultIdx? j idx = some i) :
    (idx (ix2 (j 0) (0 : Fin 1))).toInt = ((i 0).val : Int) := by
  have s0 : (rowScatter wf).start j idx 0 = (idx (ix2 (j 0) (0 : Fin 1))).toInt := by
    unfold ScatterDims.start
    rw [dif_pos (show (0 : Fin 2) ∈ (rowScatter wf).scatterDimsToOperandDims from List.mem_singleton.mpr rfl)]
    have hsi : (rowScatter wf).siIdx j ⟨List.idxOf (0 : Fin 2) (rowScatter wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have w0 : (rowScatter wf).window j 0 = 0 := rfl
  unfold ScatterDims.resultIdx? at h
  split at h
  · rename_i hb
    have e := Option.some.inj h
    have e0 : ((rowScatter wf).start j idx 0 + ((rowScatter wf).window j 0 : Int)).toNat = (i 0).val :=
      congrArg (fun f : (⟨2, ![N, C]⟩ : Shape).Idx => (f 0).val) e
    have hb0 := (hb 0).1
    rw [s0, w0] at e0 hb0
    omega
  · exact absurd h (by simp)

/-- A 32-bit index that, read signed, is a row number below N (N itself below 2^31) is not negative, so the
    wrap-around of negative indices leaves it alone. -/
theorem wrap_of_lands (x n : BitVec 32) (r : Nat) (hx : x.toInt = (r : Int)) :
    Scalar.select (IntOp.cmpi .slt x 0#32) (IntOp.addi x n) x = x := by
  have hs : x.slt 0#32 = false := by
    rw [BitVec.slt_eq_decide]
    simp only [BitVec.toInt_zero, decide_eq_false_iff_not, not_lt]
    omega
  unfold Scalar.select IntOp.cmpi
  simp only [hs]
  rfl

/-- At such an index the clamp of a gather is the identity. -/
theorem clamp_of_lands (x : BitVec 32) (r : Nat) (hr : r < N) (hx : x.toInt = (r : Int)) :
    min x.toInt.toNat (N - 1) = r := by
  rw [hx]; simp only [Int.toNat_natCast]; omega

end Cert.GcnIndex

end
-- ==== Proof.LibGcnCore.lean ====
/-
  The aggregation identity for arrays.

  N nodes, E edges, C channels. An edge e sends the source row of a table to its destination row; sources are read by a
  clamped gather at index array J, destinations are written by an accumulating scatter at index array I (an edge whose
  destination index is outside the table is dropped). With s the nodes' normalizers (nonnegative, never +infinity) and
  w the edge weights, the two ways of normalizing agree entry by entry:
      s(d) * scatter_I( gather_J(H * s) * w )(d, c)  =  scatter_I( gather_J(H) * ((s(src) * w) * s(dst)) )(d, c),
  where on the right s(src), s(dst) are gathers of s at the wrapped source and destination indices. The reason: an edge
  that lands on row d has destination index exactly d, which the wrap and the clamp leave alone, so its s(dst) is s(d);
  the vector gather and the row gather at one index array read the same row; and s(d), a nonnegative number other than
  +infinity, multiplies through the sum.
-/
import proofs.«149170_j81338090651993_2_alg».proof.Proof.LibGcnSpec
import proofs.«149170_j81338090651993_2_alg».proof.Proof.LibRowIndex
import Idealize.ShloMosaic.PureOps.Ideal.Laws
import Idealize.ShloMosaic.Lib.ValueIdx

noncomputable section

open scoped BigOperators

namespace Cert.GcnCore

open Idealize.ShloMosaic Idealize.ShloMosaic.ValueIdx Cert.GcnIndex

variable {N E C : Nat}

theorem agg (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfV : GatherDims.WF ⟨1, ![N]⟩ ⟨2, ![E, 1]⟩ ⟨1, ![E]⟩ [] [0] [] [0] [] 1 ![1])
    (DIS : (⟨1, ![N]⟩ : Shape).Idx → EReal) (hD : ∀ n, 0 ≤ DIS n ∧ DIS n ≠ ⊤)
    (H OUT : (⟨2, ![N, C]⟩ : Shape).Idx → EReal)
    (hOUT : ∀ p : (⟨2, ![N, C]⟩ : Shape).Idx, OUT p = H p * DIS (ix1 (p 0)))
    (Z : (⟨2, ![N, C]⟩ : Shape).Idx → EReal) (hZ : ∀ i, Z i = 0)
    (I J J1 J2 : IVec ⟨2, ![E, 1]⟩ 32) (nn : BitVec 32)
    (hJ1 : ∀ e : Fin E, J1 (ix2 e (0 : Fin 1)) = J (ix2 e (0 : Fin 1)))
    (hJ2 : ∀ e : Fin E, J2 (ix2 e (0 : Fin 1))
      = Scalar.select (IntOp.cmpi .slt (I (ix2 e (0 : Fin 1))) 0#32) (IntOp.addi (I (ix2 e (0 : Fin 1))) nn) (I (ix2 e (0 : Fin 1))))
    (WF : (⟨1, ![E]⟩ : Shape).Idx → EReal) (WB NB : (⟨2, ![E, C]⟩ : Shape).Idx → EReal)
    (hW : ∀ j : (⟨2, ![E, C]⟩ : Shape).Idx, WB j = WF (ix1 (j 0)))
    (hNB : ∀ j : (⟨2, ![E, C]⟩ : Shape).Idx, NB j
      = (Host.gather (vecGather wfV) DIS J1 (ix1 (j 0)) * WF (ix1 (j 0))) * Host.gather (vecGather wfV) DIS J2 (ix1 (j 0)))
    (i : (⟨2, ![N, C]⟩ : Shape).Idx) :
    DIS (ix1 (i 0)) * Host.scatterAdd (F := Ideal) (φ := .f32) (rowScatter wfS) Z I (mulf (F := Ideal) (φ := .f32) (Host.gather (rowGather wfG) OUT J) WB) i
      = Host.scatterAdd (F := Ideal) (φ := .f32) (rowScatter wfS) Z I (mulf (F := Ideal) (φ := .f32) (Host.gather (rowGather wfG) H J) NB) i := by
  have hd := hD (ix1 (i 0))
  show DIS (ix1 (i 0)) * (Z i + ∑ j ∈ Finset.univ.filter (fun j => (rowScatter wfS).resultIdx? j I = some i),
        (OUT ((rowGather wfG).operandIdx j J) * WB j))
      = Z i + ∑ j ∈ Finset.univ.filter (fun j => (rowScatter wfS).resultIdx? j I = some i),
        (H ((rowGather wfG).operandIdx j J) * NB j)
  rw [hZ i, Cert.GcnSpec.mul_add_sum _ hd.1 hd.2, mul_zero]
  refine congrArg (0 + ·) (Finset.sum_congr rfl fun j hj => ?_)
  have hl := rowScatter_lands wfS I j i (Finset.mem_filter.mp hj).2
  rw [hOUT, hW, hNB]
  show DIS (ix1 (i 0)) * (H ((rowGather wfG).operandIdx j J) * DIS (ix1 (((rowGather wfG).operandIdx j J) 0)) * WF (ix1 (j 0)))
      = H ((rowGather wfG).operandIdx j J) * ((DIS ((vecGather wfV).operandIdx (ix1 (j 0)) J1) * WF (ix1 (j 0)))
          * DIS ((vecGather wfV).operandIdx (ix1 (j 0)) J2))
  have e1 : (vecGather wfV).operandIdx (ix1 (j 0)) J1 = ix1 (((rowGather wfG).operandIdx j J) 0) := by
    funext a
    obtain rfl : a = 0 := Subsingleton.elim _ _
    apply Fin.ext
    show ((vecGather wfV).operandIdx (ix1 (j 0)) J1 0).val = (((rowGather wfG).operandIdx j J) 0).val
    rw [vecGather_row, rowGather_row]
    exact congrArg (fun x : BitVec 32 => min x.toInt.toNat (N - 1)) (hJ1 (j 0))
  have e2 : (vecGather wfV).operandIdx (ix1 (j 0)) J2 = ix1 (i 0) := by
    funext a
    obtain rfl : a = 0 := Subsingleton.elim _ _
    apply Fin.ext
    show ((vecGather wfV).operandIdx (ix1 (j 0)) J2 0).val = (i 0).val
    rw [vecGather_row]
    have h2 := hJ2 (j 0)
    have hw := wrap_of_lands (I (ix2 (j 0) (0 : Fin 1))) nn (i 0).val hl
    refine (congrArg (fun x : BitVec 32 => min x.toInt.toNat (N - 1)) (h2.trans hw)).trans ?_
    exact clamp_of_lands _ _ (i 0).isLt hl
  rw [e1, e2]
  ac_rfl

end Cert.GcnCore

end
-- ==== Proof.LibGcnPlain.lean ====
/-
  Normalizing a neighbourhood sum before or after summing, with no edge weights.

  N nodes, E edges, C channels. Edge e carries the source node's row of a table to its destination node; sources are
  read by a clamped gather at the index array J, destinations written by an accumulating scatter at the index array I.
  With s the nodes' normalizers, a table OUT = H * s (each row of H scaled by its own node's normalizer) and Z the zero
  table,
      s(d) * scatter_I( gather_J(OUT) )(d, c)  =  scatter_I( gather_J(H) * (s(src) * s(dst)) )(d, c):
  the receiver's normalizer, a nonnegative number other than +infinity, multiplies through the finite sum of the
  messages that land on d, and for each of them s(dst) is s(d) because an edge lands on d only when its destination
  index is exactly d. This is the weighted identity at the constant weight 1.

  The normalizer here is 1/sqrt(deg) where the degree deg is positive and 0 elsewhere: nonnegative and never +infinity,
  whatever deg is.
-/
import proofs.«149170_j81338090651993_2_alg».proof.Proof.LibGcnCore

noncomputable section

open scoped BigOperators

namespace Cert.LibGcnPlain

open Idealize.ShloMosaic Idealize.ShloMosaic.ValueIdx Cert.GcnIndex

variable {N E C : Nat}

/-- The inverse square root of the degree where it is positive, 0 elsewhere, lies in [0, +infinity). -/
theorem inv_sqrt_degree_bounds (deg : EReal) :
    0 ≤ Scalar.select (FloatOps.cmpf (F := Ideal) (φ := .f32) .ogt deg (FloatOps.ofBits .f32 0x00000000#32))
          (FloatOps.hostUnary (F := Ideal) (φ := .f32) .rsqrt deg) (FloatOps.ofBits (F := Ideal) .f32 0x00000000#32)
      ∧ Scalar.select (FloatOps.cmpf (F := Ideal) (φ := .f32) .ogt deg (FloatOps.ofBits .f32 0x00000000#32))
          (FloatOps.hostUnary (F := Ideal) (φ := .f32) .rsqrt deg) (FloatOps.ofBits (F := Ideal) .f32 0x00000000#32) ≠ ⊤ := by
  have z : FloatOps.ofBits (F := Ideal) .f32 0x00000000#32 = (0 : EReal) := Ideal.ofBits_zero_f32
  rw [z]
  have h := Cert.GcnSpec.normalizer_bounds deg deg
  rw [max_self] at h
  exact h

/-- Scaling the summed messages by the receiver's normalizer equals summing messages that carry both normalizers. -/
theorem scale_after_eq_scale_before
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfV : GatherDims.WF ⟨1, ![N]⟩ ⟨2, ![E, 1]⟩ ⟨1, ![E]⟩ [] [0] [] [0] [] 1 ![1])
    (DIS : (⟨1, ![N]⟩ : Shape).Idx → EReal) (hD : ∀ n, 0 ≤ DIS n ∧ DIS n ≠ ⊤)
    (H OUT : (⟨2, ![N, C]⟩ : Shape).Idx → EReal)
    (hOUT : ∀ p : (⟨2, ![N, C]⟩ : Shape).Idx, OUT p = H p * DIS (ix1 (p 0)))
    (Z : (⟨2, ![N, C]⟩ : Shape).Idx → EReal) (hZ : ∀ i, Z i = 0)
    (I J J1 J2 : IVec ⟨2, ![E, 1]⟩ 32) (nn : BitVec 32)
    (hJ1 : ∀ e : Fin E, J1 (ix2 e (0 : Fin 1)) = J (ix2 e (0 : Fin 1)))
    (hJ2 : ∀ e : Fin E, J2 (ix2 e (0 : Fin 1))
      = Scalar.select (IntOp.cmpi .slt (I (ix2 e (0 : Fin 1))) 0#32) (IntOp.addi (I (ix2 e (0 : Fin 1))) nn) (I (ix2 e (0 : Fin 1))))
    (NB : (⟨2, ![E, C]⟩ : Shape).Idx → EReal)
    (hNB : ∀ j : (⟨2, ![E, C]⟩ : Shape).Idx, NB j
      = Host.gather (vecGather wfV) DIS J1 (ix1 (j 0)) * Host.gather (vecGather wfV) DIS J2 (ix1 (j 0)))
    (i : (⟨2, ![N, C]⟩ : Shape).Idx) :
    DIS (ix1 (i 0)) * Host.scatterAdd (F := Ideal) (φ := .f32) (rowScatter wfS) Z I (Host.gather (rowGather wfG) OUT J) i
      = Host.scatterAdd (F := Ideal) (φ := .f32) (rowScatter wfS) Z I
          (mulf (F := Ideal) (φ := .f32) (Host.gather (rowGather wfG) H J) NB) i := by
  have one : Host.gather (rowGather wfG) OUT J
      = mulf (F := Ideal) (φ := .f32) (Host.gather (rowGather wfG) OUT J) (fun _ => (1 : EReal)) := by
    funext j
    exact (mul_one (Host.gather (rowGather wfG) OUT J j)).symm
  rw [one]
  exact Cert.GcnCore.agg wfS wfG wfV DIS hD H OUT hOUT Z hZ I J J1 J2 nn hJ1 hJ2 (fun _ => 1) (fun _ => 1) NB
    (fun _ => rfl) (fun j => by rw [hNB j, mul_one]) i

end Cert.LibGcnPlain

end
-- ==== Proof.Bridge1.lean ====
/-
  Layer one: the kernel's hidden activations are the reference's.

  Write s for the nodes' normalizers, H = X·W1 for the transformed features. The kernel's first region writes the table
  OUT = H * s (each row scaled by its own node's normalizer); @main sums, for every node d, the rows OUT(src e) of the
  edges e that land on d; the second region scales that sum by s(d), adds the bias and rectifies. The reference sums
  H(src e) * (s(src e) * s(dst e)) over the same edges, adds the bias and rectifies. The two sums agree because s(d),
  a nonnegative number other than +infinity, multiplies through the sum and s(dst e) = s(d) for every edge that lands
  on d (the aggregation identity); the bias and the rectifier are the same operations on both sides.
-/
import proofs.«149170_j81338090651993_2_alg».proof.Proof.KernelFoldB
import proofs.«149170_j81338090651993_2_alg».proof.Proof.ScaledRows
import proofs.«149170_j81338090651993_2_alg».proof.Proof.HeadRows
import proofs.«149170_j81338090651993_2_alg».proof.Proof.LibGcnPlain
import Idealize.ShloMosaic.Lib.ValueLayout

set_option maxRecDepth 16384

noncomputable section

open scoped BigOperators

namespace Cert.Gcn.Bridge

open Cert.KernelIdeal Cert.KernelIdeal.Gen Cert.KernelIdeal.Fold Cert.ReferenceIdeal.ReadP
open Idealize.ShloMosaic Idealize.ShloMosaic.ValueIdx Cert.GcnIndex Cert.LibGcnPlain

/-! ## A vector laid out as a column, and back -/

section Layout
variable {α : Type}

/-- An `[a]` array cast to `[a, 1]` reads, at `(i, u)`, the operand at `i`. -/
theorem col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem uncol_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-! ## The normalizers, the zero tables and the index arrays -/

/-- Every normalizer lies in [0, +infinity). -/
theorem norm_bounds (x1 : (⟨S2x800000, .i32⟩ : BufTy).Contents (Elt Ideal)) (n : S50000.Idx) :
    0 ≤ val_main_v14 (F := Ideal) x1 n ∧ val_main_v14 (F := Ideal) x1 n ≠ ⊤ := by
  rw [val_main_v14_apply, val_main_v12_apply, val_main_v13_apply, val_main_v11_apply, val_main_cst_1_apply,
    val_main_call0_v1_apply, val_main_call0_v0_apply, val_main_cst_2_apply]
  exact inv_sqrt_degree_bounds _

theorem zeros96 (i : S50000x96.Idx) : val_main_v41 (F := Ideal) i = 0 := by
  rw [val_main_v41_apply, val_main_cst_8_apply]
  exact Ideal.ofBits_zero_f32

/-- The wrapped source indices the normalizers are gathered at are the ones the table's rows are gathered at. -/
theorem src_same (x1 : (⟨S2x800000, .i32⟩ : BufTy).Contents (Elt Ideal)) : val_main_v20 (F := Ideal) x1 = val_main_v36 (F := Ideal) x1 := rfl

/-- The destination indices the normalizers are gathered at: the scatter's indices, negative ones wrapped around. -/
theorem dst_wrapped (x1 : (⟨S2x800000, .i32⟩ : BufTy).Contents (Elt Ideal)) (e : Fin 850000) :
    val_main_v27 (F := Ideal) x1 (ix2 e (0 : Fin 1))
      = Scalar.select (IntOp.cmpi .slt (val_main_v42 (F := Ideal) x1 (ix2 e (0 : Fin 1))) 0#32)
          (IntOp.addi (val_main_v42 (F := Ideal) x1 (ix2 e (0 : Fin 1))) 50000#32)
          (val_main_v42 (F := Ideal) x1 (ix2 e (0 : Fin 1))) := by
  rw [val_main_v27_apply, val_main_v26_apply, val_main_v23_apply, val_main_v25_apply, val_main_v22_apply,
    val_main_v24_apply, val_main_c_4_apply, val_main_c_5_apply, val_main_v42_apply]

/-- The per-edge weight, repeated along the 96 channels: the product of the two gathered normalizers. -/
theorem weights96 (x1 : (⟨S2x800000, .i32⟩ : BufTy).Contents (Elt Ideal)) (j : S850000x96.Idx) :
    val_main_v39 (F := Ideal) x1 j
      = Host.gather (vecGather Cert.ReferenceIdeal.gather_S50000_S850000x1_S850000_n_0_n_n_0_1_1.wf)
            (val_main_v14 (F := Ideal) x1) (val_main_v20 (F := Ideal) x1) (ix1 (j 0))
          * Host.gather (vecGather Cert.ReferenceIdeal.gather_S50000_S850000x1_S850000_n_0_n_n_0_1_1.wf)
            (val_main_v14 (F := Ideal) x1) (val_main_v27 (F := Ideal) x1) (ix1 (j 0)) := by
  rw [val_main_v39_apply, val_main_v38_apply, val_main_v29_apply]
  have e : idx_main_v38 (idx_main_v39 j) = ix1 (j 0) :=
    funext fun a => Fin.ext (by match a with | ⟨0, _⟩ => rfl)
  rw [e]
  rfl

/-! ## Layer one -/

/-- The table the first region writes is the transformed features with every row scaled by its node's normalizer. -/
theorem out1 (x0 : (⟨S50000x128, .f32⟩ : BufTy).Contents (Elt Ideal)) (x1 : (⟨S2x800000, .i32⟩ : BufTy).Contents (Elt Ideal)) (x2 : (⟨S128x96, .f32⟩ : BufTy).Contents (Elt Ideal)) (p : S50000x96.Idx) :
    Cert.KernelIdeal.ScaledRows.scaled x0 x2
        (shapeCast S50000x1 (val_main_v14 (F := Ideal) x1) shapeCasts_S50000_S50000x1) p
      = val_main_v30 (F := Ideal) x0 x2 p * val_main_v14 (F := Ideal) x1 (ix1 (p 0)) := by
  obtain ⟨r, q, rfl⟩ : ∃ (r : Fin 50000) (q : Fin 96), p = ix2 r q := ⟨p 0, p 1, eq_ix2 p⟩
  have el : ∀ k : Fin 128, lidx_main_v30 (ix2 r q) k = ix2 r k := fun k =>
    funext fun a => Fin.ext (by match a with | ⟨0, _⟩ => rfl | ⟨1, _⟩ => rfl)
  have er : ∀ k : Fin 128, ridx_main_v30 (ix2 r q) k = ix2 k q := fun k =>
    funext fun a => Fin.ext (by match a with | ⟨0, _⟩ => rfl | ⟨1, _⟩ => rfl)
  rw [val_main_v30_apply]
  simp only [el, er]
  show (∑ k : Fin 128, x0 (ix2 r k) * x2 (ix2 k q))
      * shapeCast S50000x1 (val_main_v14 (F := Ideal) x1) shapeCasts_S50000_S50000x1 (ix2 r (0 : Fin 1)) = _
  rw [col_apply]

/-- The aggregation identity at layer one: the receiver's normalizer times the sum of the scaled rows is the
    reference's sum of rows weighted by both normalizers. -/
theorem layer1 (x0 : (⟨S50000x128, .f32⟩ : BufTy).Contents (Elt Ideal)) (x1 : (⟨S2x800000, .i32⟩ : BufTy).Contents (Elt Ideal)) (x2 : (⟨S128x96, .f32⟩ : BufTy).Contents (Elt Ideal)) (r : Fin 50000) (q : Fin 96) :
    val_main_v14 (F := Ideal) x1 (ix1 r)
        * aggregate96 (val_main_v3 (F := Ideal) x1) (val_main_v6 (F := Ideal) x1)
            (Cert.KernelIdeal.ScaledRows.scaled x0 x2
              (shapeCast S50000x1 (val_main_v14 (F := Ideal) x1) shapeCasts_S50000_S50000x1)) (ix2 r q)
      = val_main_v43 (F := Ideal) x0 x1 x2 (ix2 r q) := by
  unfold aggregate96 val_main_v43 val_main_v40 val_main_v37
  exact scale_after_eq_scale_before (N := 50000) (E := 850000) (C := 96)
    scatter_S50000x96_S850000x1_S850000x96_1_0_0_1.wf gather_S50000x96_S850000x1_S850000x96_1_0_n_n_0_1_196.wf
    Cert.ReferenceIdeal.gather_S50000_S850000x1_S850000_n_0_n_n_0_1_1.wf
    (val_main_v14 (F := Ideal) x1) (norm_bounds x1) (val_main_v30 (F := Ideal) x0 x2) _ (out1 x0 x1 x2)
    (val_main_v41 (F := Ideal)) zeros96 (val_main_v42 (F := Ideal) x1) (val_main_v36 (F := Ideal) x1)
    (val_main_v20 (F := Ideal) x1) (val_main_v27 (F := Ideal) x1) 50000#32
    (fun e => congrFun (src_same x1) _) (dst_wrapped x1) (val_main_v39 (F := Ideal) x1) (weights96 x1) (ix2 r q)

/-- The kernel's hidden activation at node r, channel k, is the reference's. -/
theorem hidden_eq (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (r : Fin 50000) (k : Fin 96) :
    Cert.HeadRows.hidden
        (shapeCast S50000x1 (val_main_v14 (F := Ideal) x1) shapeCasts_S50000_S50000x1 (ix2 r (0 : Fin 1)))
        (fun k => aggregate96 (val_main_v3 (F := Ideal) x1) (val_main_v6 (F := Ideal) x1)
            (Cert.KernelIdeal.ScaledRows.scaled x0 x2
              (shapeCast S50000x1 (val_main_v14 (F := Ideal) x1) shapeCasts_S50000_S50000x1)) (ix2 r k))
        (fun k => shapeCast S1x96 x3 shapeCasts_S96_S1x96 (ix2 (0 : Fin 1) k)) k
      = val_main_v47 (F := Ideal) x0 x1 x2 x3 (ix2 r k) := by
  have e : idx_main_v44 (idx_main_v45 (ix2 r k)) = ix1 k :=
    funext fun a => Fin.ext (by match a with | ⟨0, _⟩ => rfl)
  rw [val_main_v47_apply, val_main_v46_apply, val_main_v45_apply, val_main_v44_apply, val_main_call1_v0_apply,
    val_main_call1_cst_apply, e, ← layer1 x0 x1 x2 r k]
  show max (shapeCast S50000x1 (val_main_v14 (F := Ideal) x1) shapeCasts_S50000_S50000x1 (ix2 r (0 : Fin 1)) * _
      + shapeCast S1x96 x3 shapeCasts_S96_S1x96 (ix2 (0 : Fin 1) k)) 0 = max (_ + x3 (ix1 k)) (Ideal.ofBits .f32 0x00000000#32)
  rw [col_apply, shapeCast_a_1a_apply, Ideal.ofBits_zero_f32]

end Cert.Gcn.Bridge

end
-- ==== Proof.LogSoftmaxRow.lean ====
/-
  log-softmax of a row of 40 extended reals, and the row maximum two programs compute.

  For a row z the value at lane q is  (z_q − M) − log Σ_k exp (z_k − M)  with M the row's maximum. The maximum is
  taken as a fold of max over the 40 lanes starting from the float pattern of −∞, which is the least extended real;
  the sum runs over the 40 lanes. A program that reduces a [n, 40] table over its second axis with a maximum body
  from −∞, and then takes the maximum of the result with −∞ once more, obtains at row r exactly this M of row r:
  −∞ is neutral for max, and the indices that reduce to r are (r, 0) … (r, 39).
-/
import Idealize.ShloMosaic.Lib.ValueIdx
import Idealize.ShloMosaic.Lib.Pipeline.Value
import Idealize.ShloMosaic.PureOps.Ideal.Laws

noncomputable section

open scoped BigOperators

namespace Cert.LogSoftmaxRow

open Idealize.ShloMosaic Idealize.ShloMosaic.ValueIdx

/-- The largest entry of a row of 40 extended reals, as a fold of max from the bit pattern of −∞. -/
def rowMax (z : Fin 40 → EReal) : EReal :=
  (Finset.univ : Finset (Fin 40)).fold max (Ideal.ofBits .f32 0xFF800000#32) z

/-- log-softmax of a row at lane q: the entry less the row's maximum, less the logarithm of the sum over the row of the
    exponentials of the entries less the maximum. -/
def logSoftmaxRow (z : Fin 40 → EReal) (q : Fin 40) : EReal :=
  (z q - rowMax z) - Ideal.log (∑ k : Fin 40, Ideal.exp (z k - rowMax z))

/-- The pattern 0xFF800000 is −∞, the least extended real. -/
theorem ofBits_neg_inf : Ideal.ofBits .f32 0xFF800000#32 = (⊥ : EReal) := by simp [Ideal.ofBits, Ideal.ieee]

/-- Row r of an [n, 40] table with lane k put back is (r, k). -/
theorem lift_row {n : Nat} (h : (⟨2, ![n, 40]⟩ : Shape).Reduces [1] (⟨1, ![n]⟩ : Shape)) (r : Fin n)
    (k : Fin ((⟨2, ![n, 40]⟩ : Shape).size 1)) : h.lift (ix1 r) k = ix2 r (⟨k.val, k.isLt⟩ : Fin 40) := by
  funext c; apply Fin.ext
  fin_cases c <;> rfl

/-- The maximum over axis 1 of an [n, 40] table from −∞, read at row r: the row's maximum. -/
theorem reduce_rowMax {n : Nat} (Z : FVec Ideal (⟨2, ![n, 40]⟩ : Shape) .f32)
    (h' : (⟨2, ![n, 40]⟩ : Shape).ReducesTo [1] (⟨1, ![n]⟩ : Shape))
    (h : (⟨2, ![n, 40]⟩ : Shape).Reduces [1] (⟨1, ![n]⟩ : Shape)) (hu : 0 < (⟨0, ![]⟩ : Shape).numel) (r : Fin n) :
    Host.reduce FloatOps.maximumf Z (constant (⟨0, ![]⟩ : Shape) .f32 0xFF800000#32) h' hu (ix1 r)
      = rowMax (fun q => Z (ix2 r q)) := by
  rw [Host.reduce_eq_fold_single FloatOps.maximumf Z _ h' h hu]
  have hf : (Z ∘ h.lift (ix1 r)) = fun k : Fin 40 => Z (ix2 r k) := funext fun k => congrArg Z (lift_row h r k)
  unfold rowMax
  exact congrArg (fun f => Finset.fold max (Ideal.ofBits .f32 0xFF800000#32) f (Finset.univ : Finset (Fin 40))) hf

/-- −∞ repeated along n rows, read at any row, is −∞. -/
theorem splat_neg_inf {n : Nat} (hb : (⟨0, ![]⟩ : Shape).BroadcastsInDim (⟨1, ![n]⟩ : Shape) ![]) (i : (⟨1, ![n]⟩ : Shape).Idx) :
    broadcastInDim (⟨1, ![n]⟩ : Shape) ![] hb (constant (F := Ideal) (⟨0, ![]⟩ : Shape) .f32 0xFF800000#32) i = (⊥ : EReal) :=
  (broadcastInDim_apply (s := (⟨0, ![]⟩ : Shape)) (t := (⟨1, ![n]⟩ : Shape)) ![] hb
    (constant (F := Ideal) (⟨0, ![]⟩ : Shape) .f32 0xFF800000#32) i (fun a => a.elim0) (fun a => a.elim0)).trans ofBits_neg_inf

/-- The maximum over axis 1 of an [n, 40] table from −∞, then the maximum of that with −∞ again, read at row r: the
    row's maximum. -/
theorem host_rowMax_gen {n : Nat} (Z : FVec Ideal (⟨2, ![n, 40]⟩ : Shape) .f32)
    (hb : (⟨0, ![]⟩ : Shape).BroadcastsInDim (⟨1, ![n]⟩ : Shape) ![])
    (h' : (⟨2, ![n, 40]⟩ : Shape).ReducesTo [1] (⟨1, ![n]⟩ : Shape))
    (h : (⟨2, ![n, 40]⟩ : Shape).Reduces [1] (⟨1, ![n]⟩ : Shape)) (hu : 0 < (⟨0, ![]⟩ : Shape).numel) (r : Fin n) :
    maximumf (broadcastInDim (⟨1, ![n]⟩ : Shape) ![] hb (constant (F := Ideal) (⟨0, ![]⟩ : Shape) .f32 0xFF800000#32))
        (Host.reduce FloatOps.maximumf Z (constant (⟨0, ![]⟩ : Shape) .f32 0xFF800000#32) h' hu) (ix1 r)
      = rowMax (fun q => Z (ix2 r q)) := by
  rw [maximumf_apply, splat_neg_inf hb (ix1 r), reduce_rowMax Z h' h hu r]
  exact max_eq_right bot_le

/-- The same for the 50000 rows of the program's table, at row r. -/
theorem host_rowMax (Z : FVec Ideal (⟨2, ![50000, 40]⟩ : Shape) .f32)
    (hb : (⟨0, ![]⟩ : Shape).BroadcastsInDim (⟨1, ![50000]⟩ : Shape) ![])
    (h' : (⟨2, ![50000, 40]⟩ : Shape).ReducesTo [1] (⟨1, ![50000]⟩ : Shape)) (hu : 0 < (⟨0, ![]⟩ : Shape).numel)
    (r : Fin 50000) :
    maximumf (broadcastInDim (⟨1, ![50000]⟩ : Shape) ![] hb (constant (F := Ideal) (⟨0, ![]⟩ : Shape) .f32 0xFF800000#32))
        (Host.reduce FloatOps.maximumf Z (constant (⟨0, ![]⟩ : Shape) .f32 0xFF800000#32) h' hu) (ix1 r)
      = rowMax (fun q => Z (ix2 r q)) :=
  host_rowMax_gen Z hb h' (by decide) hu r

/-- … and at any index i of the [50000] result: the maximum of row i₀. -/
theorem host_rowMax_idx (Z : FVec Ideal (⟨2, ![50000, 40]⟩ : Shape) .f32)
    (hb : (⟨0, ![]⟩ : Shape).BroadcastsInDim (⟨1, ![50000]⟩ : Shape) ![])
    (h' : (⟨2, ![50000, 40]⟩ : Shape).ReducesTo [1] (⟨1, ![50000]⟩ : Shape)) (hu : 0 < (⟨0, ![]⟩ : Shape).numel)
    (i : (⟨1, ![50000]⟩ : Shape).Idx) :
    maximumf (broadcastInDim (⟨1, ![50000]⟩ : Shape) ![] hb (constant (F := Ideal) (⟨0, ![]⟩ : Shape) .f32 0xFF800000#32))
        (Host.reduce FloatOps.maximumf Z (constant (⟨0, ![]⟩ : Shape) .f32 0xFF800000#32) h' hu) i
      = rowMax (fun q => Z (ix2 (i 0) q)) := by
  obtain ⟨r, rfl⟩ : ∃ r : Fin 50000, i = ix1 r := ⟨i 0, eq_ix1 i⟩
  exact host_rowMax Z hb h' hu r

end Cert.LogSoftmaxRow

end
-- ==== Proof.Bridge2.lean ====
/-
  Layer two, the log-softmax rows, the mask head and the mask.

  Layer two repeats layer one on the hidden activations h: the second region writes OUT = (h·W2) * s, @main sums OUT over
  the edges that land on each node, the third region scales the sum by the node's normalizer and adds the bias; the
  reference sums (h·W2)(src e) * (s(src e) * s(dst e)) and adds the bias: the same number, by the aggregation identity.
  Both programs then take log-softmax of every row of 40: the entry less the row's maximum, less the logarithm of the sum
  of the exponentials of the shifted row. The reference takes the maximum by a reduction from -infinity (and once more
  against -infinity, which changes nothing) and spreads it and the log-sum over the row by broadcasts; read at an index
  these are the row's maximum and sum. The mask head is a rectified affine layer, an affine layer to one number and the
  logistic function, which the reference spells 1 / (1 + exp (-x)): at the extended reals that is the logistic function's
  definition. The mask is the same three operations of the probability on both sides.
-/
import proofs.«149170_j81338090651993_2_alg».proof.Proof.Bridge1
import proofs.«149170_j81338090651993_2_alg».proof.Proof.LogSoftmaxRow
import Idealize.ShloMosaic.Lib.IdealHost

set_option maxRecDepth 16384

noncomputable section

open scoped BigOperators

namespace Cert.Gcn.Bridge

open Cert.KernelIdeal Cert.KernelIdeal.Gen Cert.KernelIdeal.Fold Cert.ReferenceIdeal.ReadP Cert.LogSoftmaxRow
open Idealize.ShloMosaic Idealize.ShloMosaic.ValueIdx Cert.GcnIndex Cert.LibGcnPlain

/-! ## Layer two -/

theorem zeros40 (i : S50000x40.Idx) : val_main_v59 (F := Ideal) i = 0 := by
  rw [val_main_v59_apply, val_main_cst_11_apply]
  exact Ideal.ofBits_zero_f32

theorem src_same2 (x1 : (⟨S2x800000, .i32⟩ : BufTy).Contents (Elt Ideal)) : val_main_v20 (F := Ideal) x1 = val_main_v54 (F := Ideal) x1 := rfl

theorem dst_wrapped2 (x1 : (⟨S2x800000, .i32⟩ : BufTy).Contents (Elt Ideal)) (e : Fin 850000) :
    val_main_v27 (F := Ideal) x1 (ix2 e (0 : Fin 1))
      = Scalar.select (IntOp.cmpi .slt (val_main_v60 (F := Ideal) x1 (ix2 e (0 : Fin 1))) 0#32)
          (IntOp.addi (val_main_v60 (F := Ideal) x1 (ix2 e (0 : Fin 1))) 50000#32)
          (val_main_v60 (F := Ideal) x1 (ix2 e (0 : Fin 1))) := by
  rw [val_main_v27_apply, val_main_v26_apply, val_main_v23_apply, val_main_v25_apply, val_main_v22_apply,
    val_main_v24_apply, val_main_c_4_apply, val_main_c_5_apply, val_main_v60_apply]

theorem weights40 (x1 : (⟨S2x800000, .i32⟩ : BufTy).Contents (Elt Ideal)) (j : S850000x40.Idx) :
    val_main_v57 (F := Ideal) x1 j
      = Host.gather (vecGather Cert.ReferenceIdeal.gather_S50000_S850000x1_S850000_n_0_n_n_0_1_1.wf)
            (val_main_v14 (F := Ideal) x1) (val_main_v20 (F := Ideal) x1) (ix1 (j 0))
          * Host.gather (vecGather Cert.ReferenceIdeal.gather_S50000_S850000x1_S850000_n_0_n_n_0_1_1.wf)
            (val_main_v14 (F := Ideal) x1) (val_main_v27 (F := Ideal) x1) (ix1 (j 0)) := by
  rw [val_main_v57_apply, val_main_v56_apply, val_main_v29_apply]
  have e : idx_main_v56 (idx_main_v57 j) = ix1 (j 0) :=
    funext fun a => Fin.ext (by match a with | ⟨0, _⟩ => rfl)
  rw [e]
  rfl

/-- The aggregation identity at layer two, for any table whose rows are the rows of h·W2 scaled by the normalizers. -/
theorem layer2 (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x40, .f32⟩ : BufTy).Contents (Elt Ideal))
    (OUT : S50000x40.Idx → EReal)
    (hOUT : ∀ p : S50000x40.Idx, OUT p = val_main_v48 (F := Ideal) x0 x1 x2 x3 x4 p * val_main_v14 (F := Ideal) x1 (ix1 (p 0)))
    (r : Fin 50000) (q : Fin 40) :
    val_main_v14 (F := Ideal) x1 (ix1 r) * aggregate40 (val_main_v3 (F := Ideal) x1) (val_main_v6 (F := Ideal) x1) OUT (ix2 r q)
      = val_main_v61 (F := Ideal) x0 x1 x2 x3 x4 (ix2 r q) := by
  unfold aggregate40 val_main_v61 val_main_v58 val_main_v55
  exact scale_after_eq_scale_before (N := 50000) (E := 850000) (C := 40)
    scatter_S50000x40_S850000x1_S850000x40_1_0_0_1.wf gather_S50000x40_S850000x1_S850000x40_1_0_n_n_0_1_140.wf
    Cert.ReferenceIdeal.gather_S50000_S850000x1_S850000_n_0_n_n_0_1_1.wf
    (val_main_v14 (F := Ideal) x1) (norm_bounds x1) (val_main_v48 (F := Ideal) x0 x1 x2 x3 x4) OUT hOUT
    (val_main_v59 (F := Ideal)) zeros40 (val_main_v60 (F := Ideal) x1) (val_main_v54 (F := Ideal) x1)
    (val_main_v20 (F := Ideal) x1) (val_main_v27 (F := Ideal) x1) 50000#32
    (fun e => congrFun (src_same2 x1) _) (dst_wrapped2 x1) (val_main_v57 (F := Ideal) x1) (weights40 x1) (ix2 r q)

/-- The third region's pre-softmax value at node r, channel q, is the reference's second layer there. -/
theorem logit_pre (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x40, .f32⟩ : BufTy).Contents (Elt Ideal)) (x5 : (⟨S40, .f32⟩ : BufTy).Contents (Elt Ideal))
    (OUT : S50000x40.Idx → EReal)
    (hOUT : ∀ p : S50000x40.Idx, OUT p = val_main_v48 (F := Ideal) x0 x1 x2 x3 x4 p * val_main_v14 (F := Ideal) x1 (ix1 (p 0)))
    (r : Fin 50000) (q : Fin 40) :
    shapeCast S50000x1 (val_main_v14 (F := Ideal) x1) shapeCasts_S50000_S50000x1 (ix2 r (0 : Fin 1)) * aggregate40 (val_main_v3 (F := Ideal) x1) (val_main_v6 (F := Ideal) x1) OUT (ix2 r q)
        + shapeCast S1x40 x5 shapeCasts_S40_S1x40 (ix2 (0 : Fin 1) q)
      = val_main_v64 (F := Ideal) x0 x1 x2 x3 x4 x5 (ix2 r q) := by
  have e : idx_main_v62 (idx_main_v63 (ix2 r q)) = ix1 q :=
    funext fun a => Fin.ext (by match a with | ⟨0, _⟩ => rfl)
  rw [val_main_v64_apply, val_main_v63_apply, val_main_v62_apply, e, ← layer2 x0 x1 x2 x3 x4 OUT hOUT r q, col_apply,
    shapeCast_a_1a_apply]
  rfl

/-! ## The log-softmax rows -/

/-- The reference's row maximum at node r. -/
theorem ref_rowMax (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x40, .f32⟩ : BufTy).Contents (Elt Ideal)) (x5 : (⟨S40, .f32⟩ : BufTy).Contents (Elt Ideal)) (r : Fin 50000) :
    val_main_call2_v2 (F := Ideal) x0 x1 x2 x3 x4 x5 (ix1 r) = rowMax (fun q => val_main_v64 (F := Ideal) x0 x1 x2 x3 x4 x5 (ix2 r q)) := by
  unfold val_main_call2_v2 val_main_call2_v1 val_main_call2_v0 val_main_call2_cst val_main_call2_cst_0
  rw [host_rowMax]

/-- The reference's shifted entry at node r, channel q. -/
theorem ref_shifted (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x40, .f32⟩ : BufTy).Contents (Elt Ideal)) (x5 : (⟨S40, .f32⟩ : BufTy).Contents (Elt Ideal)) (r : Fin 50000) (q : Fin 40) :
    val_main_call2_v5 (F := Ideal) x0 x1 x2 x3 x4 x5 (ix2 r q)
      = val_main_v64 (F := Ideal) x0 x1 x2 x3 x4 x5 (ix2 r q) - rowMax (fun q => val_main_v64 (F := Ideal) x0 x1 x2 x3 x4 x5 (ix2 r q)) := by
  have e : idx_main_call2_v3 (idx_main_call2_v4 (ix2 r q)) = ix1 r :=
    funext fun a => Fin.ext (by match a with | ⟨0, _⟩ => rfl)
  rw [val_main_call2_v5_apply, val_main_call2_v4_apply, val_main_call2_v3_apply, e, ref_rowMax]
  rfl

/-- The reference's sum of exponentials at node r. -/
theorem ref_sumExp (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x40, .f32⟩ : BufTy).Contents (Elt Ideal)) (x5 : (⟨S40, .f32⟩ : BufTy).Contents (Elt Ideal)) (r : Fin 50000) :
    val_main_call2_v7 (F := Ideal) x0 x1 x2 x3 x4 x5 (ix1 r)
      = ∑ k : Fin 40, Ideal.exp (val_main_v64 (F := Ideal) x0 x1 x2 x3 x4 x5 (ix2 r k) - rowMax (fun q => val_main_v64 (F := Ideal) x0 x1 x2 x3 x4 x5 (ix2 r q))) := by
  have e : ∀ k : Fin 40, idx_main_call2_v7 (ix1 r) k = ix2 r k := fun k =>
    funext fun a => Fin.ext (by match a with | ⟨0, _⟩ => rfl | ⟨1, _⟩ => rfl)
  -- each summand is the exponential of the shifted entry
  have hs : ∀ k : Fin 40, val_main_call2_v6 (F := Ideal) x0 x1 x2 x3 x4 x5 (idx_main_call2_v7 (ix1 r) k)
      = Ideal.exp (val_main_v64 (F := Ideal) x0 x1 x2 x3 x4 x5 (ix2 r k) - rowMax (fun q => val_main_v64 (F := Ideal) x0 x1 x2 x3 x4 x5 (ix2 r q))) := fun k => by
    rw [e k, val_main_call2_v6_apply, ref_shifted]
    exact Ideal.hostUnary_exp_def _
  rw [val_main_call2_v7_apply, val_main_call2_cst_1_apply, Finset.sum_congr rfl (fun k _ => hs k)]
  -- the sum starts from the zero word
  exact (congrArg (· + _) Ideal.ofBits_zero_f32).trans (zero_add _)

/-- log-softmax of the reference's second-layer row is the reference's logits. -/
theorem ref_logits (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x4 : (⟨S96x40, .f32⟩ : BufTy).Contents (Elt Ideal)) (x5 : (⟨S40, .f32⟩ : BufTy).Contents (Elt Ideal)) (r : Fin 50000) (q : Fin 40) :
    logSoftmaxRow (fun k => val_main_v64 (F := Ideal) x0 x1 x2 x3 x4 x5 (ix2 r k)) q = val_main_v65 (F := Ideal) x0 x1 x2 x3 x4 x5 (ix2 r q) := by
  have e : idx_main_call2_v8 (idx_main_call2_v10 (ix2 r q)) = ix1 r :=
    funext fun a => Fin.ext (by match a with | ⟨0, _⟩ => rfl)
  rw [val_main_v65_apply, val_main_call2_v10_apply, val_main_call2_v9_apply, val_main_call2_v8_apply, e, ref_sumExp,
    ref_shifted]
  unfold logSoftmaxRow
  simp only [Ideal.subf_def, Ideal.hostUnary_log_def]

/-! ## The mask head -/

/-- The logistic function of the head's score, with the hidden activations the reference's, is the reference's
    probability at node r. -/
theorem ref_prob (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x6 : (⟨S96x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (r : Fin 50000) :
    Ideal.logistic ((∑ j : Fin 64,
          max ((∑ k : Fin 96, val_main_v47 (F := Ideal) x0 x1 x2 x3 (ix2 r k) * x6 (ix2 k j))
                + shapeCast S1x64 x7 shapeCasts_S64_S1x64 (ix2 (0 : Fin 1) j)) 0
            * x8 (ix2 j (0 : Fin 1)))
        + shapeCast S1x1 x9 shapeCasts_S1_S1x1 (ix2 (0 : Fin 1) (0 : Fin 1)))
      = val_main_v81 (F := Ideal) x0 x1 x2 x3 x6 x7 x8 x9 (ix1 r) := by
  have e75 : idx_main_v75 (ix1 r) = ix2 r (0 : Fin 1) :=
    funext fun a => Fin.ext (by
      match a with
      | ⟨0, _⟩ => exact Nat.div_one _
      | ⟨1, _⟩ => rfl)
  have e73 : idx_main_v72 (idx_main_v73 (ix2 r (0 : Fin 1))) = ix1 (0 : Fin 1) :=
    funext fun a => Fin.ext (by match a with | ⟨0, _⟩ => rfl)
  have el71 : ∀ j : Fin 64, lidx_main_v71 (ix2 r (0 : Fin 1)) j = ix2 r j := fun j =>
    funext fun a => Fin.ext (by match a with | ⟨0, _⟩ => rfl | ⟨1, _⟩ => rfl)
  have er71 : ∀ j : Fin 64, ridx_main_v71 (ix2 r (0 : Fin 1)) j = ix2 j (0 : Fin 1) := fun j =>
    funext fun a => Fin.ext (by match a with | ⟨0, _⟩ => rfl | ⟨1, _⟩ => rfl)
  have e68 : ∀ j : Fin 64, idx_main_v67 (idx_main_v68 (ix2 r j)) = ix1 j := fun j =>
    funext fun a => Fin.ext (by match a with | ⟨0, _⟩ => rfl)
  have el66 : ∀ (j : Fin 64) (k : Fin 96), lidx_main_v66 (ix2 r j) k = ix2 r k := fun j k =>
    funext fun a => Fin.ext (by match a with | ⟨0, _⟩ => rfl | ⟨1, _⟩ => rfl)
  have er66 : ∀ (j : Fin 64) (k : Fin 96), ridx_main_v66 (ix2 r j) k = ix2 k j := fun j k =>
    funext fun a => Fin.ext (by match a with | ⟨0, _⟩ => rfl | ⟨1, _⟩ => rfl)
  have h70 : ∀ j : Fin 64, val_main_v70 (F := Ideal) x0 x1 x2 x3 x6 x7 (ix2 r j)
      = max ((∑ k : Fin 96, val_main_v47 (F := Ideal) x0 x1 x2 x3 (ix2 r k) * x6 (ix2 k j))
          + shapeCast S1x64 x7 shapeCasts_S64_S1x64 (ix2 (0 : Fin 1) j)) 0 := fun j => by
    rw [val_main_v70_apply, val_main_v69_apply, val_main_v66_apply, val_main_v68_apply, val_main_v67_apply, e68,
      val_main_call3_v0_apply, val_main_call3_cst_apply, shapeCast_a_1a_apply]
    simp only [el66, er66]
    show max _ (Ideal.ofBits .f32 0x00000000#32) = _
    rw [Ideal.ofBits_zero_f32]
    rfl
  rw [val_main_v81_apply, val_main_v80_apply, val_main_cst_13_apply, val_main_v79_apply, val_main_v78_apply,
    val_main_cst_12_apply, val_main_v77_apply, val_main_v76_apply, val_main_v75_apply, e75, val_main_v74_apply,
    val_main_v73_apply, val_main_v72_apply, e73, val_main_v71_apply, shapeCast_a_1a_apply]
  simp only [el71, er71, h70, Ideal.hostDivf_def, Ideal.ofBits_def, Ideal.addf_def, Ideal.hostUnary_exp_def,
    Ideal.hostNegf_def, Ideal.negf_def, Ideal.ofBits_one_f32]
  unfold Ideal.logistic
  rfl

/-- The mask of the reference's probabilities is the reference's mask. -/
theorem ref_mask (x0 : (⟨S50000x128, .f32⟩ : BufTy).Contents (Elt Ideal)) (x1 : (⟨S2x800000, .i32⟩ : BufTy).Contents (Elt Ideal)) (x2 : (⟨S128x96, .f32⟩ : BufTy).Contents (Elt Ideal)) (x3 : (⟨S96, .f32⟩ : BufTy).Contents (Elt Ideal)) (x6 : (⟨S96x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) :
    maskOf (val_main_v81 (F := Ideal) x0 x1 x2 x3 x6 x7 x8 x9) = val_main_v86 (F := Ideal) x0 x1 x2 x3 x6 x7 x8 x9 := rfl

end Cert.Gcn.Bridge

end
-- ==== Proof.LogSoftmaxRows.lean ====
/-
  The last region, row by row: log-softmax of  d ⊙ A + b.

  The region tiles the 50000 rows of the aggregated array A in 25 blocks of 2000. On block t it scales each row by
  that row's entry of the column d, adds the resident row b to every row, and takes log-softmax along the 40 lanes
  of each row: it subtracts the row's maximum, then subtracts the logarithm of the row's sum of exponentials. The lane
  maximum is a fold of max from −∞ over the 40 lanes and the lane sum a sum over them; a vector of 2000 entries viewed
  as a column and a column repeated along the lanes read back the entry of the row. So entry (p, q) of the block is
  log-softmax of the row  k ↦ d_t(p, 0) · A_t(p, k) + b(0, k)  at lane q. Block t of a row-tiled array is rows
  2000·t … 2000·t + 1999, the resident row is read whole at every point, and row r of the result is written by point
  r / 2000 and by no other; hence after the region the result array at (r, j) is log-softmax of the row
  k ↦ d(r, 0) · A(r, k) + b(0, k)  at lane j, of the arrays the region found at entry.
-/
import proofs.«149170_j81338090651993_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«149170_j81338090651993_2_alg».proof.Proof.LogSoftmaxRow

noncomputable section

open scoped BigOperators
open Idealize.ShloMosaic Idealize.ShloMosaic.TcCoe Idealize.SL.Sem
open Idealize.ShloMosaic.Pipeline (Dat)
open Idealize.ShloMosaic.ValueIdx

namespace Cert.KernelIdeal.LogSoftmaxRows

open Cert.KernelIdeal Cert.KernelIdeal.Gen Cert.LogSoftmaxRow

/-- The two zero offsets, however they are spelt. -/
theorem hz : (![0, 0] : Fin 2 → Nat) = fun _ => 0 := funext fun a => by fin_cases a <;> rfl

/-- A vector of 2000 entries viewed as a column: entry (p, 0) is the vector's entry p. -/
theorem cast_col_apply {α : Type} (v : S2000.Idx → α) (hc : S2000.ShapeCasts S2000x1) (p : Fin 2000) :
    shapeCast S2000x1 v hc (ix2 p (0 : Fin 1)) = v (ix1 p) := by
  refine shapeCast_apply v hc (ix2 p (0 : Fin 1)) (ix1 p) ?_
  rw [Shape.rowMajor_val_two, Shape.rowMajor_val_one]
  show p.val = p.val * 1 + 0
  omega

/-- A column repeated along 40 lanes: entry (p, q) is the column's entry p. -/
theorem col_apply {α : Type} (u : S2000x1.Idx → α) (hb : S2000x1.Broadcasts S2000x40) (p : Fin 2000) (q : Fin 40) :
    broadcastTo S2000x40 u hb (ix2 p q) = u (ix2 p (0 : Fin 1)) := by
  refine broadcastTo_apply u hb (ix2 p q) (ix2 p (0 : Fin 1)) ?_
  intro a
  match a with
  | ⟨0, _⟩ => rfl
  | ⟨1, _⟩ => rfl

/-- Row p of a [2000, 40] block with lane k put back is (p, k). -/
theorem lift_lane (h : S2000x40.Reduces [1] S2000) (p : Fin 2000) (k : Fin (S2000x40.size 1)) :
    h.lift (ix1 p) k = ix2 p (⟨k.val, k.isLt⟩ : Fin 40) := by
  funext c; apply Fin.ext
  fin_cases c <;> rfl

/-- The lane maximum of a block from −∞, at row p: the row's maximum. -/
theorem max_lanes (Z : FVec Ideal S2000x40 .f32) (h : S2000x40.Reduces [1] S2000) (hφ : FKind.Formats .f32)
    (hacc : (0xFF800000#32 : BitVec FTy.f32.bits) = FKind.maximumf.neutral .f32 hφ) (p : Fin 2000) :
    multiReduction .maximumf [1] S2000 Z 0xFF800000#32 h hφ hacc (ix1 p) = rowMax (fun k => Z (ix2 p k)) := by
  refine (Ideal.multiReduction_maximumf_single Z _ h hφ hacc (ix1 p)).trans ?_
  have hf : (Z ∘ h.lift (ix1 p)) = fun k : Fin 40 => Z (ix2 p k) := funext fun k => congrArg Z (lift_lane h p k)
  unfold rowMax
  exact congrArg (fun f => Finset.fold max (Ideal.ofBits .f32 0xFF800000#32) f (Finset.univ : Finset (Fin 40))) hf

/-- The lane sum of a block, at row p: the sum over the row's 40 lanes. -/
theorem sum_lanes (E : FVec Ideal S2000x40 .f32) (h : S2000x40.Reduces [1] S2000) (hφ : FKind.Formats .f32)
    (hacc : (0x00000000#32 : BitVec FTy.f32.bits) = FKind.add.neutral .f32 hφ) (p : Fin 2000) :
    multiReduction .add [1] S2000 E 0x00000000#32 h hφ hacc (ix1 p) = ∑ k : Fin 40, E (ix2 p k) := by
  refine (Ideal.multiReduction_add_single E _ h hφ hacc (ix1 p)).trans ?_
  exact Finset.sum_congr rfl fun k _ => congrArg E (lift_lane h p k)

/-- The scaled and shifted block: a column times the block, plus a row. -/
def affine (d : Vec Ideal S2000x1 .f32) (a : Vec Ideal S2000x40 .f32) (b : Vec Ideal S1x40 .f32) : FVec Ideal S2000x40 .f32 :=
  addf (mulf (broadcastTo S2000x40 (shapeCast S2000x1 d shapeCasts_S2000x1_S2000x1) broadcasts_S2000x1_S2000x40)
      (shapeCast S2000x40 a shapeCasts_S2000x40_S2000x40))
    (broadcastTo S2000x40 (shapeCast S1x40 b shapeCasts_S1x40_S1x40) broadcasts_S1x40_S2000x40)

/-- A block less its lane maxima. -/
def shifted (Z : FVec Ideal S2000x40 .f32) : FVec Ideal S2000x40 .f32 :=
  subf Z (broadcastTo S2000x40 (shapeCast S2000x1
    (multiReduction .maximumf [1] S2000 Z 0xFF800000#32 reduces_S2000x40_S2000 (.inl rfl) rfl) shapeCasts_S2000_S2000x1)
    broadcasts_S2000x1_S2000x40)

/-- A block less the logarithms of its lane sums of exponentials. -/
def normalized (Y : FVec Ideal S2000x40 .f32) : FVec Ideal S2000x40 .f32 :=
  subf Y (broadcastTo S2000x40 (log (shapeCast S2000x1
    (multiReduction .add [1] S2000 (exp Y) 0x00000000#32 reduces_S2000x40_S2000 (.inl rfl) rfl) shapeCasts_S2000_S2000x1))
    broadcasts_S2000x1_S2000x40)

/-- The body's stored value is these three steps composed. -/
theorem pay_eq (d : Vec Ideal S2000x1 .f32) (a : Vec Ideal S2000x40 .f32) (b : Vec Ideal S1x40 .f32) :
    k2_pay1 (F := Ideal) d a b = normalized (shifted (affine d a b)) := rfl

theorem affine_apply (d : Vec Ideal S2000x1 .f32) (a : Vec Ideal S2000x40 .f32) (b : Vec Ideal S1x40 .f32) (p : Fin 2000) (q : Fin 40) :
    affine d a b (ix2 p q) = d (ix2 p (0 : Fin 1)) * a (ix2 p q) + b (ix2 (0 : Fin 1) q) := by
  unfold affine
  show broadcastTo S2000x40 (shapeCast S2000x1 d shapeCasts_S2000x1_S2000x1) broadcasts_S2000x1_S2000x40 (ix2 p q)
      * shapeCast S2000x40 a shapeCasts_S2000x40_S2000x40 (ix2 p q)
      + broadcastTo S2000x40 (shapeCast S1x40 b shapeCasts_S1x40_S1x40) broadcasts_S1x40_S2000x40 (ix2 p q) = _
  rw [shapeCast_self, shapeCast_self, shapeCast_self, col_apply, broadcastTo_1b_ab_apply]

theorem shifted_apply (Z : FVec Ideal S2000x40 .f32) (p : Fin 2000) (q : Fin 40) :
    shifted Z (ix2 p q) = Z (ix2 p q) - rowMax (fun k => Z (ix2 p k)) := by
  unfold shifted
  refine congrArg (fun m : EReal => Z (ix2 p q) - m) ?_
  refine (col_apply _ broadcasts_S2000x1_S2000x40 p q).trans ?_
  refine (cast_col_apply _ shapeCasts_S2000_S2000x1 p).trans ?_
  exact max_lanes Z reduces_S2000x40_S2000 (.inl rfl) rfl p

theorem normalized_apply (Y : FVec Ideal S2000x40 .f32) (p : Fin 2000) (q : Fin 40) :
    normalized Y (ix2 p q) = Y (ix2 p q) - Ideal.log (∑ k : Fin 40, Ideal.exp (Y (ix2 p k))) := by
  unfold normalized
  refine congrArg (fun m : EReal => Y (ix2 p q) - m) ?_
  refine (col_apply _ broadcasts_S2000x1_S2000x40 p q).trans ?_
  refine congrArg Ideal.log ?_
  refine (cast_col_apply _ shapeCasts_S2000_S2000x1 p).trans ?_
  exact sum_lanes (exp Y) reduces_S2000x40_S2000 (.inl rfl) rfl p

/-- The stored value at (p, q): log-softmax of row p of the scaled and shifted block, at lane q. -/
theorem pay_apply (d : Vec Ideal S2000x1 .f32) (a : Vec Ideal S2000x40 .f32) (b : Vec Ideal S1x40 .f32) (p : Fin 2000) (q : Fin 40) :
    k2_pay1 (F := Ideal) d a b (ix2 p q)
      = logSoftmaxRow (fun k => d (ix2 p (0 : Fin 1)) * a (ix2 p k) + b (ix2 (0 : Fin 1) k)) q := by
  rw [pay_eq, normalized_apply]
  unfold logSoftmaxRow
  simp only [shifted_apply, affine_apply]

/-- The same at any index of the block. -/
theorem pay_apply_idx (d : Vec Ideal S2000x1 .f32) (a : Vec Ideal S2000x40 .f32) (b : Vec Ideal S1x40 .f32) (y : S2000x40.Idx) :
    k2_pay1 (F := Ideal) d a b y
      = logSoftmaxRow (fun k => d (ix2 (y 0) (0 : Fin 1)) * a (ix2 (y 0) k) + b (ix2 (0 : Fin 1) k)) (y 1) := by
  obtain ⟨p, q, rfl⟩ : ∃ (p : Fin 2000) (q : Fin 40), y = ix2 p q := ⟨y 0, y 1, eq_ix2 y⟩
  exact pay_apply d a b p q

/-- Row-wise log-softmax of  D·A + B  (D a column scaling the rows of A, B one row added to every row): entry (r, j). -/
def logits (A : S50000x40.Idx → EReal) (D : S50000x1.Idx → EReal) (B : S1x40.Idx → EReal) : S50000x40.Idx → EReal :=
  fun i => logSoftmaxRow (fun k => D (ix2 (i 0) (0 : Fin 1)) * A (ix2 (i 0) k) + B (ix2 (0 : Fin 1) k)) (i 1)

/-- One block of 2000 rows: if the block's operands are rows T·2000 … T·2000 + 1999 of A and of D and the whole of B,
    the block's entry y is the array's entry at row T·2000 + y₀ and lane y₁. -/
theorem point_eq (A : S50000x40.Idx → EReal) (D : S50000x1.Idx → EReal) (B : S1x40.Idx → EReal)
    (a : Vec Ideal S2000x40 .f32) (d : Vec Ideal S2000x1 .f32) (b : Vec Ideal S1x40 .f32) (T : Nat)
    (ha : ∀ (x : S2000x40.Idx) (z : S50000x40.Idx), (z 0).val = T * 2000 + (x 0).val → (z 1).val = (x 1).val → a x = A z)
    (hd : ∀ (x : S2000x1.Idx) (z : S50000x1.Idx), (z 0).val = T * 2000 + (x 0).val → d x = D z)
    (hb : ∀ x : S1x40.Idx, b x = B x)
    (y : S2000x40.Idx) (i : S50000x40.Idx) (hi0 : (i 0).val = T * 2000 + (y 0).val) (hi1 : (i 1).val = (y 1).val) :
    k2_pay1 (F := Ideal) d a b y = logits A D B i := by
  rw [pay_apply_idx]
  unfold logits
  have e1 : i 1 = y 1 := Fin.ext hi1
  rw [e1]
  refine congrArg (fun z : Fin 40 → EReal => logSoftmaxRow z (y 1)) (funext fun k => ?_)
  rw [hd (ix2 (y 0) (0 : Fin 1)) (ix2 (i 0) (0 : Fin 1)) hi0, ha (ix2 (y 0) k) (ix2 (i 0) k) hi0 rfl, hb]

section Blocks

variable (V : (c : Dev nD) → (b : Ref sig .tc) → Buf (Elt Ideal) ((c : Thread nD τ).loc b))

/-- The index maps, decided over the 25 points: the row-tiled windows are at block (t, 0), the resident one at (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point t is rows 2000·t … 2000·t + 1999 of the aggregated array. -/
theorem blk0_apply (c : Dev nD) (t : Fin cfg2.N) (x : S2000x40.Idx) (z : S50000x40.Idx)
    (h0 : (z 0).val = t.val * 2000 + (x 0).val) (h1 : (z 1).val = (x 1).val) :
    (iblk2 V c 0 t : Vec Ideal S2000x40 .f32) x = (V c main_v42 : S50000x40.Idx → EReal) z := by
  obtain ⟨e0, e1, -⟩ := idx_facts t
  unfold iblk2
  rw [View.read_apply]
  show V c main_v42 _ = V c main_v42 _
  refine congrArg (V c main_v42) (funext fun ax => Fin.ext ?_)
  match ax with
  | ⟨0, _⟩ => show win2_0.index t (0 : Fin 2) * 2000 + 1 * (x 0).val = (z 0).val; rw [e0, h0]; omega
  | ⟨1, _⟩ => show win2_0.index t (1 : Fin 2) * 40 + 1 * (x 1).val = (z 1).val; rw [e1, h1]; omega

/-- Window 1's block at point t is rows 2000·t … 2000·t + 1999 of the column. -/
theorem blk1_apply (c : Dev nD) (t : Fin cfg2.N) (x : S2000x1.Idx) (z : S50000x1.Idx)
    (h0 : (z 0).val = t.val * 2000 + (x 0).val) :
    (iblk2 V c 1 t : Vec Ideal S2000x1 .f32) x = (V c main_v15 : S50000x1.Idx → EReal) z := by
  obtain ⟨-, -, e0, e1, -⟩ := idx_facts t
  unfold iblk2
  rw [View.read_apply]
  show V c main_v15 _ = V c main_v15 _
  refine congrArg (V c main_v15) (funext fun ax => Fin.ext ?_)
  have hx : (x 1).val < 1 := idx2_lt1 x
  have hz : (z 1).val < 1 := idx2_lt1 z
  match ax with
  | ⟨0, _⟩ => show win2_1.index t (0 : Fin 2) * 2000 + 1 * (x 0).val = (z 0).val; rw [e0, h0]; omega
  | ⟨1, _⟩ => show win2_1.index t (1 : Fin 2) * 1 + 1 * (x 1).val = (z 1).val; rw [e1]; omega

/-- Window 2's block at every point is the whole row operand. -/
theorem blk2_apply (c : Dev nD) (t : Fin cfg2.N) (x : S1x40.Idx) :
    (iblk2 V c 2 t : Vec Ideal S1x40 .f32) x = (V c main_v43 : S1x40.Idx → EReal) x := by
  obtain ⟨-, -, -, -, e0, e1, -⟩ := idx_facts t
  unfold iblk2
  rw [View.read_apply]
  show V c main_v43 _ = V c main_v43 _
  refine congrArg (V c main_v43) (funext fun ax => Fin.ext ?_)
  match ax with
  | ⟨0, _⟩ => show win2_2.index t (0 : Fin 2) * 1 + 1 * (x 0).val = (x 0).val; rw [e0]; omega
  | ⟨1, _⟩ => show win2_2.index t (1 : Fin 2) * 40 + 1 * (x 1).val = (x 1).val; rw [e1]; omega

/-- What point t writes back is block t of the row-wise log-softmax of the arrays the region finds. -/
theorem flushed_eq (c : Dev nD) (t : Fin cfg2.N) :
    (dat2 (F := Ideal) V c).flushed 3 t
      = ((cfg2.win 3).blk t).view.read (Elt Ideal) (logits (V c main_v42) (V c main_v15) (V c main_v43)) := by
  show (cfg2.win 3).cut (grid2.coords t) ((dat2 (F := Ideal) V c).after 3 t) = _
  rw [after2_3]
  unfold out2_3
  rw [View.canon_unit_zero hz]
  simp only [View.ld_unit_zero (S := S2000x40) hz, View.ld_unit_zero (S := S2000x1) hz, View.ld_unit_zero (S := S1x40) hz]
  obtain ⟨-, -, -, -, -, -, e0, e1⟩ := idx_facts t
  funext j
  rw [View.read_apply]
  refine point_eq (V c main_v42) (V c main_v15) (V c main_v43) (iblk2 V c 0 t) (iblk2 V c 1 t) (iblk2 V c 2 t) t.val
    (fun x z h0 h1 => blk0_apply V c t x z h0 h1) (fun x z h0 => blk1_apply V c t x z h0) (fun x => blk2_apply V c t x)
    ((cfg2.win 3).xinj (grid2.coords t) j) (((cfg2.win 3).blk t).view.emb j) ?_ ?_
  · show win2_3.index t (0 : Fin 2) * 2000 + 1 * (j 0).val = t.val * 2000 + (j 0).val
    rw [e0]; omega
  · show win2_3.index t (1 : Fin 2) * 40 + 1 * (j 1).val = (j 1).val
    rw [e1]; omega

/-- An index of the result array is in point t's block iff each coordinate is in the block's range on its axis. -/
theorem mem_blk (t : Fin cfg2.N) (i : S50000x40.Idx) :
    i ∈ ((cfg2.win 3).blk t).view.set ↔ ∀ a : Fin 2, win2_3.index t a * S2000x40.size a ≤ (i a).val ∧ (i a).val < win2_3.index t a * S2000x40.size a + S2000x40.size a := by
  show i ∈ ((View.whole main_v44).slice (win2_3.rect t)).set ↔ _
  rw [View.set_slice_whole, Rect.mem_set_unit]
  exact Iff.rfl

/-- Row r is written by point r / 2000. -/
theorem cover (i : S50000x40.Idx) : ∃ t : Fin cfg2.N, (cfg2.win 3).flush t = true ∧ i ∈ ((cfg2.win 3).blk t).view.set := by
  have hN : cfg2.N = 25 := N_2
  have hi0 : (i 0).val < 50000 := idx2_lt0 i
  have hi1 : (i 1).val < 40 := idx2_lt1 i
  refine ⟨⟨(i 0).val / 2000, by rw [hN]; omega⟩, flush2_3 _, ?_⟩
  rw [mem_blk]
  obtain ⟨-, -, -, -, -, -, e0, e1⟩ := idx_facts ⟨(i 0).val / 2000, by rw [hN]; omega⟩
  intro a
  match a with
  | ⟨0, _⟩ =>
    show win2_3.index _ (0 : Fin 2) * 2000 ≤ (i 0).val ∧ (i 0).val < win2_3.index _ (0 : Fin 2) * 2000 + 2000
    rw [e0]; show (i 0).val / 2000 * 2000 ≤ (i 0).val ∧ (i 0).val < (i 0).val / 2000 * 2000 + 2000; omega
  | ⟨1, _⟩ =>
    show win2_3.index _ (1 : Fin 2) * 40 ≤ (i 1).val ∧ (i 1).val < win2_3.index _ (1 : Fin 2) * 40 + 40
    rw [e1]; omega

/-- The result array after the region, whole. -/
theorem final (c : Dev nD) :
    (dat2 (F := Ideal) V c).arrAt 3 cfg2.N = logits (V c main_v42) (V c main_v15) (V c main_v43) :=
  (dat2 (F := Ideal) V c).arrAt_eq_of_cover 3 (logits (V c main_v42) (V c main_v15) (V c main_v43))
    (fun t _ => flushed_eq V c t) cover

/-- The result array after the region at an index: log-softmax of row i₀ of  D·A + B  at lane i₁. -/
theorem log_softmax_rows (c : Dev nD) (i : S50000x40.Idx) :
    (dat2 (F := Ideal) V c).arrAt 3 cfg2.N i
      = logSoftmaxRow (fun q : Fin 40 => @HAdd.hAdd EReal EReal EReal instHAdd
          (@HMul.hMul EReal EReal EReal instHMul (V c main_v15 (ix2 (i 0) (0 : Fin 1))) (V c main_v42 (ix2 (i 0) q)))
          (V c main_v43 (ix2 (0 : Fin 1) q))) (i 1) :=
  congrFun (final V c) i

end Blocks

end Cert.KernelIdeal.LogSoftmaxRows

end
-- ==== Proof.Assemble.lean ====
/-
  The idealized kernel's three results are the reference's stages of the same arguments.

  Walking @main's boundaries with the arguments' launch contents: the first region's table is the transformed features
  scaled row by row by the normalizers; the first neighbourhood sum of it enters the second region, whose hidden
  activations are therefore the reference's (layer one), so its first output is (h·W2) scaled row by row and its second
  the reference's probabilities; the second neighbourhood sum enters the third region, whose rows before the softmax are
  therefore the reference's second layer (layer two) and whose output is the reference's logits; the probabilities laid
  out as a vector and their mask are the reference's.
-/
import proofs.«149170_j81338090651993_2_alg».proof.Proof.Bridge2
import proofs.«149170_j81338090651993_2_alg».proof.Proof.LogSoftmaxRows

set_option maxRecDepth 16384

noncomputable section

open scoped BigOperators

namespace Cert.Gcn.Assemble

open Cert.KernelIdeal Cert.KernelIdeal.Gen Cert.KernelIdeal.Fold Cert.ReferenceIdeal.ReadP Cert.LogSoftmaxRow
open Cert.Gcn.Bridge
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The first region's table and the first sum -/

theorem table1 : (dat0 (F := Ideal) (V3 m ρ) c).arrAt 3 cfg0.N = Cert.KernelIdeal.ScaledRows.scaled (m ((c.tc : Thread nD τ).loc main_arg0)) (m ((c.tc : Thread nD τ).loc main_arg2)) (shapeCast S50000x1 (val_main_v14 (F := Ideal) (m ((c.tc : Thread nD τ).loc main_arg1))) shapeCasts_S50000_S50000x1) := by
  have h0 : V3 m ρ c main_arg0 = (m ((c.tc : Thread nD τ).loc main_arg0)) := arg_W3 m ρ c main_arg0 (by decide)
  have h2 : V3 m ρ c main_arg2 = (m ((c.tc : Thread nD τ).loc main_arg2)) := arg_W3 m ρ c main_arg2 (by decide)
  have h15 : V3 m ρ c main_v15 = shapeCast S50000x1 (val_main_v14 (F := Ideal) (m ((c.tc : Thread nD τ).loc main_arg1))) shapeCasts_S50000_S50000x1 := col_W3 m ρ c
  rw [Cert.KernelIdeal.ScaledRows.final (V3 m ρ) c, h0, h2, h15]

theorem sum1 : V5 m ρ c main_v27 = aggregate96 (val_main_v3 (F := Ideal) (m ((c.tc : Thread nD τ).loc main_arg1))) (val_main_v6 (F := Ideal) (m ((c.tc : Thread nD τ).loc main_arg1))) (Cert.KernelIdeal.ScaledRows.scaled (m ((c.tc : Thread nD τ).loc main_arg0)) (m ((c.tc : Thread nD τ).loc main_arg2)) (shapeCast S50000x1 (val_main_v14 (F := Ideal) (m ((c.tc : Thread nD τ).loc main_arg1))) shapeCasts_S50000_S50000x1)) :=
  (sum1_W5 m ρ c).trans (by rw [table1 m ρ c])

/-! ## The second region's two outputs -/

/-- The second region's first output: the rows of h·W2, h the reference's hidden activations, scaled by the normalizers. -/
theorem table2 (p : S50000x40.Idx) :
    ((dat1 (F := Ideal) (V5 m ρ) c).arrAt 8 cfg1.N : S50000x40.Idx → EReal) p
      = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) p * val_main_v14 (F := Ideal) (m ((c.tc : Thread nD τ).loc main_arg1)) (ix1 (p 0)) := by
  obtain ⟨r, q, rfl⟩ : ∃ (r : Fin 50000) (q : Fin 40), p = ix2 r q := ⟨p 0, p 1, eq_ix2 p⟩
  have h15 : V5 m ρ c main_v15 = shapeCast S50000x1 (val_main_v14 (F := Ideal) (m ((c.tc : Thread nD τ).loc main_arg1))) shapeCasts_S50000_S50000x1 := col_W5 m ρ c
  have h27 : V5 m ρ c main_v27 = aggregate96 (val_main_v3 (F := Ideal) (m ((c.tc : Thread nD τ).loc main_arg1))) (val_main_v6 (F := Ideal) (m ((c.tc : Thread nD τ).loc main_arg1))) (Cert.KernelIdeal.ScaledRows.scaled (m ((c.tc : Thread nD τ).loc main_arg0)) (m ((c.tc : Thread nD τ).loc main_arg2)) (shapeCast S50000x1 (val_main_v14 (F := Ideal) (m ((c.tc : Thread nD τ).loc main_arg1))) shapeCasts_S50000_S50000x1)) := sum1 m ρ c
  have h28 : V5 m ρ c main_v28 = shapeCast S1x96 (m ((c.tc : Thread nD τ).loc main_arg3)) shapeCasts_S96_S1x96 := b1_W5 m ρ c
  have h4 : V5 m ρ c main_arg4 = (m ((c.tc : Thread nD τ).loc main_arg4)) := arg_W5 m ρ c main_arg4 (by decide)
  have el : ∀ k : Fin 96, lidx_main_v48 (ix2 r q) k = ix2 r k := fun k =>
    funext fun a => Fin.ext (by match a with | ⟨0, _⟩ => rfl | ⟨1, _⟩ => rfl)
  have er : ∀ k : Fin 96, ridx_main_v48 (ix2 r q) k = ix2 k q := fun k =>
    funext fun a => Fin.ext (by match a with | ⟨0, _⟩ => rfl | ⟨1, _⟩ => rfl)
  rw [Cert.HeadRows.final8 (V5 m ρ) c]
  show Cert.HeadRows.scaledRow (V5 m ρ) c r q = _ * val_main_v14 (F := Ideal) (m ((c.tc : Thread nD τ).loc main_arg1)) (ix1 r)
  unfold Cert.HeadRows.scaledRow
  rw [h15, h27, h28, h4, val_main_v48_apply]
  simp only [hidden_eq (m ((c.tc : Thread nD τ).loc main_arg0)) (m ((c.tc : Thread nD τ).loc main_arg1)) (m ((c.tc : Thread nD τ).loc main_arg2)) (m ((c.tc : Thread nD τ).loc main_arg3)) r, el, er]
  rw [col_apply]

/-- The second region's second output: the reference's probabilities. -/
theorem table3 (r : Fin 50000) :
    ((dat1 (F := Ideal) (V5 m ρ) c).arrAt 9 cfg1.N : S50000x1.Idx → EReal) (ix2 r (0 : Fin 1))
      = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (ix1 r) := by
  have h15 : V5 m ρ c main_v15 = shapeCast S50000x1 (val_main_v14 (F := Ideal) (m ((c.tc : Thread nD τ).loc main_arg1))) shapeCasts_S50000_S50000x1 := col_W5 m ρ c
  have h27 : V5 m ρ c main_v27 = aggregate96 (val_main_v3 (F := Ideal) (m ((c.tc : Thread nD τ).loc main_arg1))) (val_main_v6 (F := Ideal) (m ((c.tc : Thread nD τ).loc main_arg1))) (Cert.KernelIdeal.ScaledRows.scaled (m ((c.tc : Thread nD τ).loc main_arg0)) (m ((c.tc : Thread nD τ).loc main_arg2)) (shapeCast S50000x1 (val_main_v14 (F := Ideal) (m ((c.tc : Thread nD τ).loc main_arg1))) shapeCasts_S50000_S50000x1)) := sum1 m ρ c
  have h28 : V5 m ρ c main_v28 = shapeCast S1x96 (m ((c.tc : Thread nD τ).loc main_arg3)) shapeCasts_S96_S1x96 := b1_W5 m ρ c
  have h6 : V5 m ρ c main_arg6 = (m ((c.tc : Thread nD τ).loc main_arg6)) := arg_W5 m ρ c main_arg6 (by decide)
  have h29 : V5 m ρ c main_v29 = shapeCast S1x64 (m ((c.tc : Thread nD τ).loc main_arg7)) shapeCasts_S64_S1x64 := bm1_W5 m ρ c
  have h8 : V5 m ρ c main_arg8 = (m ((c.tc : Thread nD τ).loc main_arg8)) := arg_W5 m ρ c main_arg8 (by decide)
  have h30 : V5 m ρ c main_v30 = shapeCast S1x1 (m ((c.tc : Thread nD τ).loc main_arg9)) shapeCasts_S1_S1x1 := bm2_W5 m ρ c
  rw [Cert.HeadRows.final9 (V5 m ρ) c]
  show Cert.HeadRows.probRow (V5 m ρ) c r = _
  unfold Cert.HeadRows.probRow
  rw [h15, h27, h28, h6, h29, h8, h30]
  simp only [hidden_eq (m ((c.tc : Thread nD τ).loc main_arg0)) (m ((c.tc : Thread nD τ).loc main_arg1)) (m ((c.tc : Thread nD τ).loc main_arg2)) (m ((c.tc : Thread nD τ).loc main_arg3)) r]
  exact ref_prob (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) r

/-! ## The three results -/

/-- The logits. -/
theorem logits_eq : W9 m ρ c (Proc.devRef .tc main_v44) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h42 : V7 m ρ c main_v42 = aggregate40 (val_main_v3 (F := Ideal) (m ((c.tc : Thread nD τ).loc main_arg1))) (val_main_v6 (F := Ideal) (m ((c.tc : Thread nD τ).loc main_arg1))) ((dat1 (F := Ideal) (V5 m ρ) c).arrAt 8 cfg1.N) := sum2_W7 m ρ c
  have h15 : V7 m ρ c main_v15 = shapeCast S50000x1 (val_main_v14 (F := Ideal) (m ((c.tc : Thread nD τ).loc main_arg1))) shapeCasts_S50000_S50000x1 := col_W7 m ρ c
  have h43 : V7 m ρ c main_v43 = shapeCast S1x40 (m ((c.tc : Thread nD τ).loc main_arg5)) shapeCasts_S40_S1x40 := b2_W7 m ρ c
  rw [logits_W9 m ρ c, Cert.KernelIdeal.LogSoftmaxRows.final (V7 m ρ) c, h42, h15, h43]
  funext p
  obtain ⟨r, q, rfl⟩ : ∃ (r : Fin 50000) (q : Fin 40), p = ix2 r q := ⟨p 0, p 1, eq_ix2 p⟩
  show logSoftmaxRow (fun k => shapeCast S50000x1 (val_main_v14 (F := Ideal) (m ((c.tc : Thread nD τ).loc main_arg1))) shapeCasts_S50000_S50000x1 (ix2 r (0 : Fin 1))
        * aggregate40 (val_main_v3 (F := Ideal) (m ((c.tc : Thread nD τ).loc main_arg1))) (val_main_v6 (F := Ideal) (m ((c.tc : Thread nD τ).loc main_arg1))) ((dat1 (F := Ideal) (V5 m ρ) c).arrAt 8 cfg1.N) (ix2 r k)
      + shapeCast S1x40 (m ((c.tc : Thread nD τ).loc main_arg5)) shapeCasts_S40_S1x40 (ix2 (0 : Fin 1) k)) q = _
  simp only [logit_pre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ((dat1 (F := Ideal) (V5 m ρ) c).arrAt 8 cfg1.N) (table2 m ρ c) r]
  exact ref_logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r q

/-- The probabilities. -/
theorem prob_eq : W9 m ρ c (Proc.devRef .tc main_v45) = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) := by
  rw [prob_W9 m ρ c]
  funext i
  obtain ⟨r, rfl⟩ : ∃ r : Fin 50000, i = ix1 r := ⟨i 0, eq_ix1 i⟩
  rw [uncol_apply]
  exact table3 m ρ c r

/-- The mask. -/
theorem mask_eq : W9 m ρ c (Proc.devRef .tc main_v50) = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) := by
  have hp : shapeCast S50000 ((dat1 (F := Ideal) (V5 m ρ) c).arrAt 9 cfg1.N) shapeCasts_S50000x1_S50000
      = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) := (prob_W9 m ρ c).symm.trans (prob_eq m ρ c)
  rw [mask_W9 m ρ c, hp]
  exact ref_mask (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))

end Cert.Gcn.Assemble

end
-- ==== Proof.lean ====
/-
  A two-layer graph convolution with a mask head: the Pallas kernel against its jnp reference, over the extended reals.

  Both programs build, from the edge list with one self-loop per node appended, every node's degree and its normalizer
  s = 1/sqrt(degree) (0 where the degree is not positive). The reference's layer is, for node d and channel c,
      bias(c) + sum over the edges e that land on d of (H(src e, c) * (s(src e) * s(d))),      H = the layer's input times its weights,
  while the kernel folds the two normalizers into node-sized tables around a plain sum:
      bias(c) + s(d) * (sum over the same edges of (H * s)(src e, c)).
  The two are equal because s(d) is a nonnegative extended real other than +infinity, which multiplies through a finite
  sum whatever the summands are, and because an edge lands on d only when its destination index is exactly d. No
  finiteness of the features or the weights is used: the precondition is never opened. Rectifier, log-softmax (the row
  maximum and the row's log-sum-exp), the mask head (two affine layers and the logistic function, which the reference
  spells 1 / (1 + exp(-x))) and the straight-through mask are the same operations of equal inputs on both sides; the
  kernel's conversions to and from bfloat16 are the identity at the extended reals.

  The frames of the word-level kernel and of its idealization are the generated frame certificates (three pipelined
  regions among stretches of host operations). The reference has no kernel: its run is read off its host operations,
  stretch by stretch (Proof/RefRunStages.lean), and its frame is that run with the results dropped. The idealization
  rewrote no operation, so `preserves` is trivial. For `algebraic`, the idealized kernel's run keeps its three
  results at the last segment boundary's contents (Proof/KernelRun.lean); those contents are walked back through the
  segments (Proof/KernelFoldA.lean, Proof/KernelFoldB.lean) with each region's output array read as a whole-array
  function of its inputs (Proof/ScaledRows.lean, Proof/HeadRows.lean, Proof/LogSoftmaxRows.lean), and joined to the
  reference's stages by the aggregation identity (Proof/Aggregate.lean, Proof/Bridge1.lean, Proof/Bridge2.lean,
  Proof/Assemble.lean).
-/
import proofs.«149170_j81338090651993_2_alg».proof.Defs
import proofs.«149170_j81338090651993_2_alg».proof.Proof.Gen.Kernel
import proofs.«149170_j81338090651993_2_alg».proof.Proof.Gen.Kernel.Skeleton
import proofs.«149170_j81338090651993_2_alg».proof.Proof.Gen.Kernel.Launch
import proofs.«149170_j81338090651993_2_alg».proof.Proof.Gen.Kernel.Points
import proofs.«149170_j81338090651993_2_alg».proof.Proof.Gen.Kernel.Frame
import proofs.«149170_j81338090651993_2_alg».proof.Proof.Gen.KernelIdeal
import proofs.«149170_j81338090651993_2_alg».proof.Proof.Gen.KernelIdeal.Skeleton
import proofs.«149170_j81338090651993_2_alg».proof.Proof.Gen.KernelIdeal.Launch
import proofs.«149170_j81338090651993_2_alg».proof.Proof.Gen.KernelIdeal.Points
import proofs.«149170_j81338090651993_2_alg».proof.Proof.Gen.KernelIdeal.Frame
import proofs.«149170_j81338090651993_2_alg».proof.Proof.Gen.ReferenceIdeal
import proofs.«149170_j81338090651993_2_alg».proof.Proof.RefRun
import proofs.«149170_j81338090651993_2_alg».proof.Proof.RefRead
import proofs.«149170_j81338090651993_2_alg».proof.Proof.Gen.Pre_finite_inputs
import proofs.«149170_j81338090651993_2_alg».proof.Proof.KernelRun
import proofs.«149170_j81338090651993_2_alg».proof.Proof.RefRunStages
import proofs.«149170_j81338090651993_2_alg».proof.Proof.Assemble
import Idealize.ShloMosaic.Adequacy
import Idealize.ShloMosaic.Init

noncomputable section

namespace Cert.Proof

open Idealize.ShloMosaic Idealize.ShloMosaic.TcCoe Idealize.SL.Sem

/-- The word-level kernel runs, without a fault, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run with its three results dropped. -/
theorem frame_referenceIdeal : Cert.frame_ReferenceIdeal := fun m ρ _ =>
  (θ_run Cert.ReferenceIdeal.defs _ _).mono (fun _ h c => (h c).2.2.2) (Cert.ReferenceIdeal.Stages.run (F := Ideal) m ρ)

/-- The idealization rewrote nothing. -/
theorem preserves : Cert.preserves_Kernel_KernelIdeal := trivial

/-- From memories that agree on the ten arguments both idealized programs run, and end with the same logits,
    probabilities and mask: the reference's stages of the kernel's arguments. -/
theorem algebraic : Cert.algebraic_KernelIdeal_ReferenceIdeal := by
  intro m ρ m' ρ' _ hagree
  refine ⟨fun c => Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.ReadP.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.ReadP.val_main_v86 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.Gcn.Assemble.logits_eq m ρ c), (h c).2.1.trans (Cert.Gcn.Assemble.prob_eq m ρ c),
        (h c).2.2.1.trans (Cert.Gcn.Assemble.mask_eq m ρ c), (h c).2.2.2⟩)
      (Cert.KernelIdeal.Results.run m ρ)
  · refine (θ_run Cert.ReferenceIdeal.defs _ _).mono (fun _ h c => ?_) (Cert.ReferenceIdeal.Stages.run (F := Ideal) m' ρ')
    obtain ⟨h65, h81, h86, hargs⟩ := h c
    obtain ⟨a0, a1, a2, a3, a4, a5, a6, a7, a8, a9⟩ := hagree c
    refine ⟨?_, ?_, ?_, hargs⟩
    · rw [h65, a0, a1, a2, a3, a4, a5]
    · rw [h81, a0, a1, a2, a3, a6, a7, a8, a9]
    · rw [h86, a0, a1, a2, a3, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
